-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v183) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x128x128 : Shape := ⟨3, ![256, 128, 128]⟩
abbrev S25x16384 : Shape := ⟨2, ![25, 16384]⟩
abbrev S256 : Shape := ⟨1, ![256]⟩
abbrev S_ : Shape := ⟨0, ![]⟩

class Facts : Prop where
  bcast_S_S256x128x128 : S_.BroadcastsInDim S256x128x128 (![] : Fin 0 → Fin S256x128x128.rank)
  reducesTo_S256x128x128_S_d0_1_2 : S256x128x128.ReducesTo [0, 1, 2] S_
  h_S_ : 0 < S_.numel
  bcast_S_S25x16384 : S_.BroadcastsInDim S25x16384 (![] : Fin 0 → Fin S25x16384.rank)
  reducesTo_S25x16384_S_d0_1 : S25x16384.ReducesTo [0, 1] S_
  bcast_S_S256 : S_.BroadcastsInDim S256 (![] : Fin 0 → Fin S256.rank)
  reducesTo_S256_S_d0 : S256.ReducesTo [0] S_

variable [Facts]

def fn {F : FTy → Type} [FloatOps F] (main_arg0 : FVec F S256x128x128 .f32) (main_arg1 : FVec F S25x16384 .f32) (main_arg2 : FVec F S256 .f32) : IVec S_ 1 :=
  let main_v0 : FVec F S256x128x128 .f32 := Host.absf main_arg0
  let main_cst : FVec F S_ .f32 := constant S_ .f32 0x7F800000#32
  let main_v1 : FVec F S256x128x128 .f32 := broadcastInDim S256x128x128 ![] bcast_S_S256x128x128 main_cst
  let main_v2 : IVec S256x128x128 1 := cmpf .olt main_v0 main_v1
  let main_c : IVec S_ 1 := constantI S_ 1 1#1
  let main_v3 : IVec S_ 1 := (fun x v => Host.reduce IntOp.andi x v reducesTo_S256x128x128_S_d0_1_2 h_S_) main_v2 main_c
  let main_v4 : FVec F S25x16384 .f32 := Host.absf main_arg1
  let main_cst_0 : FVec F S_ .f32 := constant S_ .f32 0x7F800000#32
  let main_v5 : FVec F S25x16384 .f32 := broadcastInDim S25x16384 ![] bcast_S_S25x16384 main_cst_0
  let main_v6 : IVec S25x16384 1 := cmpf .olt main_v4 main_v5
  let main_c_1 : IVec S_ 1 := constantI S_ 1 1#1
  let main_v7 : IVec S_ 1 := (fun x v => Host.reduce IntOp.andi x v reducesTo_S25x16384_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  main_v13
-- ==== Kernel.lean ====
abbrev S256x128x128 : Shape := ⟨3, ![256, 128, 128]⟩
abbrev S25x16384 : Shape := ⟨2, ![25, 16384]⟩
abbrev S256 : Shape := ⟨1, ![256]⟩
abbrev S_ : Shape := ⟨0, ![]⟩
abbrev S256x132x132 : Shape := ⟨3, ![256, 132, 132]⟩
abbrev S25x128x128 : Shape := ⟨3, ![25, 128, 128]⟩
abbrev S256x1 : Shape := ⟨2, ![256, 1]⟩
abbrev S8x132x132 : Shape := ⟨3, ![8, 132, 132]⟩
abbrev S8x1 : Shape := ⟨2, ![8, 1]⟩
abbrev S8x128x128 : Shape := ⟨3, ![8, 128, 128]⟩
abbrev S1x128x128 : Shape := ⟨3, ![1, 128, 128]⟩
abbrev S128x128 : Shape := ⟨2, ![128, 128]⟩
abbrev S8x1x1 : Shape := ⟨3, ![8, 1, 1]⟩

abbrev nBuf : Space → Nat
  | .hbm => 9
  | .vmem => 7
  | .smem => 0
  | _ => 0

abbrev bufTy : (tb : Table) → Fin (tcTables nBuf tb) → BufTy
  | .hbm, ⟨0, _⟩ => ⟨S256x128x128, .f32⟩
  | .hbm, ⟨1, _⟩ => ⟨S25x16384, .f32⟩
  | .hbm, ⟨2, _⟩ => ⟨S256, .f32⟩
  | .hbm, ⟨3, _⟩ => ⟨S_, .i32⟩
  | .hbm, ⟨4, _⟩ => ⟨S_, .f32⟩
  | .hbm, ⟨5, _⟩ => ⟨S256x132x132, .f32⟩
  | .hbm, ⟨6, _⟩ => ⟨S25x128x128, .f32⟩
  | .hbm, ⟨7, _⟩ => ⟨S256x1, .f32⟩
  | .hbm, ⟨8, _⟩ => ⟨S256x128x128, .f32⟩
  | .local _ .vmem, ⟨0, _⟩ => ⟨S8x132x132, .f32⟩
  | .local _ .vmem, ⟨1, _⟩ => ⟨S8x132x132, .f32⟩
  | .local _ .vmem, ⟨2, _⟩ => ⟨S25x128x128, .f32⟩
  | .local _ .vmem, ⟨3, _⟩ => ⟨S8x1, .f32⟩
  | .local _ .vmem, ⟨4, _⟩ => ⟨S8x1, .f32⟩
  | .local _ .vmem, ⟨5, _⟩ => ⟨S8x128x128, .f32⟩
  | .local _ .vmem, ⟨6, _⟩ => ⟨S8x128x128, .f32⟩
  | _, _ => ⟨S256x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x132x132 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S25x128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  pads_S256x128x128_S256x132x132_000_220_220 : S256x128x128.Pads (![0, 2, 2] : Fin 3 → Nat) ![0, 2, 2] ![0, 0, 0] S256x132x132
  h_S_ : 0 < S_.numel
  shapeCasts_S25x16384_S25x128x128 : S25x16384.ShapeCasts S25x128x128
  shapeCasts_S256_S256x1 : S256.ShapeCasts S256x1
  inb_S8x132x132_S8x132x132_0_0_0 : ∀ a, (![0, 0, 0] : Fin 3 → Nat) a + S8x132x132.size a ≤ S8x132x132.size a
  h_S8x132x132 : 0 < S8x132x132.numel
  shapeCasts_S8x132x132_S8x132x132 : S8x132x132.ShapeCasts S8x132x132
  slices_S8x132x132_o0_2_2_S8x128x128 : S8x132x132.Slices ![0, 2, 2] S8x128x128
  inb_S25x128x128_S1x128x128_0_0_0 : ∀ a, (![0, 0, 0] : Fin 3 → Nat) a + S1x128x128.size a ≤ S25x128x128.size a
  h_S1x128x128 : 0 < S1x128x128.numel
  shapeCasts_S1x128x128_S128x128 : S1x128x128.ShapeCasts S128x128
  slices_S8x132x132_o0_0_0_S8x128x128 : S8x132x132.Slices ![0, 0, 0] S8x128x128
  shapeCasts_S128x128_S1x128x128 : S128x128.ShapeCasts S1x128x128
  broadcasts_S1x128x128_S8x128x128 : S1x128x128.Broadcasts S8x128x128
  inb_S25x128x128_S1x128x128_1_0_0 : ∀ a, (![1, 0, 0] : Fin 3 → Nat) a + S1x128x128.size a ≤ S25x128x128.size a
  slices_S8x132x132_o0_0_1_S8x128x128 : S8x132x132.Slices ![0, 0, 1] S8x128x128
  inb_S25x128x128_S1x128x128_2_0_0 : ∀ a, (![2, 0, 0] : Fin 3 → Nat) a + S1x128x128.size a ≤ S25x128x128.size a
  slices_S8x132x132_o0_0_2_S8x128x128 : S8x132x132.Slices ![0, 0, 2] S8x128x128
  inb_S25x128x128_S1x128x128_3_0_0 : ∀ a, (![3, 0, 0] : Fin 3 → Nat) a + S1x128x128.size a ≤ S25x128x128.size a
  slices_S8x132x132_o0_0_3_S8x128x128 : S8x132x132.Slices ![0, 0, 3] S8x128x128
  inb_S25x128x128_S1x128x128_4_0_0 : ∀ a, (![4, 0, 0] : Fin 3 → Nat) a + S1x128x128.size a ≤ S25x128x128.size a
  slices_S8x132x132_o0_0_4_S8x128x128 : S8x132x132.Slices ![0, 0, 4] S8x128x128
  inb_S25x128x128_S1x128x128_5_0_0 : ∀ a, (![5, 0, 0] : Fin 3 → Nat) a + S1x128x128.size a ≤ S25x128x128.size a
  slices_S8x132x132_o0_1_0_S8x128x128 : S8x132x132.Slices ![0, 1, 0] S8x128x128
  inb_S25x128x128_S1x128x128_6_0_0 : ∀ a, (![6, 0, 0] : Fin 3 → Nat) a + S1x128x128.size a ≤ S25x128x128.size a
  slices_S8x132x132_o0_1_1_S8x128x128 : S8x132x132.Slices ![0, 1, 1] S8x128x128
  inb_S25x128x128_S1x128x128_7_0_0 : ∀ a, (![7, 0, 0] : Fin 3 → Nat) a + S1x128x128.size a ≤ S25x128x128.size a
  slices_S8x132x132_o0_1_2_S8x128x128 : S8x132x132.Slices ![0, 1, 2] S8x128x128
  inb_S25x128x128_S1x128x128_8_0_0 : ∀ a, (![8, 0, 0] : Fin 3 → Nat) a + S1x128x128.size a ≤ S25x128x128.size a
  slices_S8x132x132_o0_1_3_S8x128x128 : S8x132x132.Slices ![0, 1, 3] S8x128x128
  inb_S25x128x128_S1x128x128_9_0_0 : ∀ a, (![9, 0, 0] : Fin 3 → Nat) a + S1x128x128.size a ≤ S25x128x128.size a
  slices_S8x132x132_o0_1_4_S8x128x128 : S8x132x132.Slices ![0, 1, 4] S8x128x128
  inb_S25x128x128_S1x128x128_10_0_0 : ∀ a, (![10, 0, 0] : Fin 3 → Nat) a + S1x128x128.size a ≤ S25x128x128.size a
  slices_S8x132x132_o0_2_0_S8x128x128 : S8x132x132.Slices ![0, 2, 0] S8x128x128
  inb_S25x128x128_S1x128x128_11_0_0 : ∀ a, (![11, 0, 0] : Fin 3 → Nat) a + S1x128x128.size a ≤ S25x128x128.size a
  slices_S8x132x132_o0_2_1_S8x128x128 : S8x132x132.Slices ![0, 2, 1] S8x128x128
  inb_S25x128x128_S1x128x128_12_0_0 : ∀ a, (![12, 0, 0] : Fin 3 → Nat) a + S1x128x128.size a ≤ S25x128x128.size a
  inb_S25x128x128_S1x128x128_13_0_0 : ∀ a, (![13, 0, 0] : Fin 3 → Nat) a + S1x128x128.size a ≤ S25x128x128.size a
  slices_S8x132x132_o0_2_3_S8x128x128 : S8x132x132.Slices ![0, 2, 3] S8x128x128
  inb_S25x128x128_S1x128x128_14_0_0 : ∀ a, (![14, 0, 0] : Fin 3 → Nat) a + S1x128x128.size a ≤ S25x128x128.size a
  slices_S8x132x132_o0_2_4_S8x128x128 : S8x132x132.Slices ![0, 2, 4] S8x128x128
  inb_S25x128x128_S1x128x128_15_0_0 : ∀ a, (![15, 0, 0] : Fin 3 → Nat) a + S1x128x128.size a ≤ S25x128x128.size a
  slices_S8x132x132_o0_3_0_S8x128x128 : S8x132x132.Slices ![0, 3, 0] S8x128x128
  inb_S25x128x128_S1x128x128_16_0_0 : ∀ a, (![16, 0, 0] : Fin 3 → Nat) a + S1x128x128.size a ≤ S25x128x128.size a
  slices_S8x132x132_o0_3_1_S8x128x128 : S8x132x132.Slices ![0, 3, 1] S8x128x128
  inb_S25x128x128_S1x128x128_17_0_0 : ∀ a, (![17, 0, 0] : Fin 3 → Nat) a + S1x128x128.size a ≤ S25x128x128.size a
  slices_S8x132x132_o0_3_2_S8x128x128 : S8x132x132.Slices ![0, 3, 2] S8x128x128
  inb_S25x128x128_S1x128x128_18_0_0 : ∀ a, (![18, 0, 0] : Fin 3 → Nat) a + S1x128x128.size a ≤ S25x128x128.size a
  slices_S8x132x132_o0_3_3_S8x128x128 : S8x132x132.Slices ![0, 3, 3] S8x128x128
  inb_S25x128x128_S1x128x128_19_0_0 : ∀ a, (![19, 0, 0] : Fin 3 → Nat) a + S1x128x128.size a ≤ S25x128x128.size a
  slices_S8x132x132_o0_3_4_S8x128x128 : S8x132x132.Slices ![0, 3, 4] S8x128x128
  inb_S25x128x128_S1x128x128_20_0_0 : ∀ a, (![20, 0, 0] : Fin 3 → Nat) a + S1x128x128.size a ≤ S25x128x128.size a
  slices_S8x132x132_o0_4_0_S8x128x128 : S8x132x132.Slices ![0, 4, 0] S8x128x128
  inb_S25x128x128_S1x128x128_21_0_0 : ∀ a, (![21, 0, 0] : Fin 3 → Nat) a + S1x128x128.size a ≤ S25x128x128.size a
  slices_S8x132x132_o0_4_1_S8x128x128 : S8x132x132.Slices ![0, 4, 1] S8x128x128
  inb_S25x128x128_S1x128x128_22_0_0 : ∀ a, (![22, 0, 0] : Fin 3 → Nat) a + S1x128x128.size a ≤ S25x128x128.size a
  slices_S8x132x132_o0_4_2_S8x128x128 : S8x132x132.Slices ![0, 4, 2] S8x128x128
  inb_S25x128x128_S1x128x128_23_0_0 : ∀ a, (![23, 0, 0] : Fin 3 → Nat) a + S1x128x128.size a ≤ S25x128x128.size a
  slices_S8x132x132_o0_4_3_S8x128x128 : S8x132x132.Slices ![0, 4, 3] S8x128x128
  inb_S25x128x128_S1x128x128_24_0_0 : ∀ a, (![24, 0, 0] : Fin 3 → Nat) a + S1x128x128.size a ≤ S25x128x128.size a
  slices_S8x132x132_o0_4_4_S8x128x128 : S8x132x132.Slices ![0, 4, 4] S8x128x128
  inb_S8x1_S8x1_0_0 : ∀ a, (![0, 0] : Fin 2 → Nat) a + S8x1.size a ≤ S8x1.size a
  h_S8x1 : 0 < S8x1.numel
  shapeCasts_S8x1_S8x1 : S8x1.ShapeCasts S8x1
  shapeCasts_S8x1_S8x1x1 : S8x1.ShapeCasts S8x1x1
  broadcasts_S8x1x1_S8x128x128 : S8x1x1.Broadcasts S8x128x128
  inb_S8x128x128_S8x128x128_0_0_0 : ∀ a, (![0, 0, 0] : Fin 3 → Nat) a + S8x128x128.size a ≤ S8x128x128.size a
  h_S8x128x128 : 0 < S8x128x128.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x132x132.size a ≤ S256x132x132.size a
  hwx0_0 : ∀ i : grid0.Coords, EltTy.bits .f32 = 32 ∨ (Rect.block (s := S256x132x132) S8x132x132.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S25x128x128.size a ≤ S25x128x128.size a
  hwx0_1 : ∀ i : grid0.Coords, EltTy.bits .f32 = 32 ∨ (Rect.block (s := S25x128x128) S25x128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x1.size a ≤ S256x1.size a
  hwx0_2 : ∀ i : grid0.Coords, EltTy.bits .f32 = 32 ∨ (Rect.block (s := S256x1) S8x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x128x128.size a ≤ S256x128x128.size a
  hwx0_3 : ∀ i : grid0.Coords, EltTy.bits .f32 = 32 ∨ (Rect.block (s := S256x128x128) S8x128x128.size (cc0_transform_3 i) (hinb0_3 i)).WholeWords (EltTy.packing .f32)

variable [Facts₀]

abbrev win0_0 : Pipeline.Window sig grid0 :=
  Pipeline.Window.ofSpec (Memref.whole main_v0) S8x132x132.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S25x128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S8x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S8x128x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S256x128x128 : Shape := ⟨3, ![256, 128, 128]⟩
abbrev S25x16384 : Shape := ⟨2, ![25, 16384]⟩
abbrev S256 : Shape := ⟨1, ![256]⟩
abbrev S_ : Shape := ⟨0, ![]⟩
abbrev S256x132x132 : Shape := ⟨3, ![256, 132, 132]⟩
abbrev S5x5x128x128 : Shape := ⟨4, ![5, 5, 128, 128]⟩
abbrev S1x1x128x128 : Shape := ⟨4, ![1, 1, 128, 128]⟩
abbrev S128x128 : Shape := ⟨2, ![128, 128]⟩
abbrev S1x128x128 : Shape := ⟨3, ![1, 128, 128]⟩
abbrev S256x1x1 : Shape := ⟨3, ![256, 1, 1]⟩

abbrev nBuf : Space → Nat
  | .hbm => 191
  | .vmem => 0
  | .smem => 0
  | _ => 0

abbrev hbmTy0_0 (i : Nat) : BufTy := match i % 128 with
  | 0 => ⟨S256x128x128, .f32⟩
  | 1 => ⟨S25x16384, .f32⟩
  | 2 => ⟨S256, .f32⟩
  | 3 => ⟨S_, .i32⟩
  | 4 => ⟨S_, .f32⟩
  | 5 => ⟨S256x132x132, .f32⟩
  | 6 => ⟨S5x5x128x128, .f32⟩
  | 7 => ⟨S_, .f32⟩
  | 8 => ⟨S256x128x128, .f32⟩
  | 9 => ⟨S256x128x128, .f32⟩
  | 10 => ⟨S1x1x128x128, .f32⟩
  | 11 => ⟨S128x128, .f32⟩
  | 12 => ⟨S1x128x128, .f32⟩
  | 13 => ⟨S256x128x128, .f32⟩
  | 14 => ⟨S256x128x128, .f32⟩
  | 15 => ⟨S256x128x128, .f32⟩
  | 16 => ⟨S256x128x128, .f32⟩
  | 17 => ⟨S1x1x128x128, .f32⟩
  | 18 => ⟨S128x128, .f32⟩
  | 19 => ⟨S1x128x128, .f32⟩
  | 20 => ⟨S256x128x128, .f32⟩
  | 21 => ⟨S256x128x128, .f32⟩
  | 22 => ⟨S256x128x128, .f32⟩
  | 23 => ⟨S256x128x128, .f32⟩
  | 24 => ⟨S1x1x128x128, .f32⟩
  | 25 => ⟨S128x128, .f32⟩
  | 26 => ⟨S1x128x128, .f32⟩
  | 27 => ⟨S256x128x128, .f32⟩
  | 28 => ⟨S256x128x128, .f32⟩
  | 29 => ⟨S256x128x128, .f32⟩
  | 30 => ⟨S256x128x128, .f32⟩
  | 31 => ⟨S1x1x128x128, .f32⟩
  | 32 => ⟨S128x128, .f32⟩
  | 33 => ⟨S1x128x128, .f32⟩
  | 34 => ⟨S256x128x128, .f32⟩
  | 35 => ⟨S256x128x128, .f32⟩
  | 36 => ⟨S256x128x128, .f32⟩
  | 37 => ⟨S256x128x128, .f32⟩
  | 38 => ⟨S1x1x128x128, .f32⟩
  | 39 => ⟨S128x128, .f32⟩
  | 40 => ⟨S1x128x128, .f32⟩
  | 41 => ⟨S256x128x128, .f32⟩
  | 42 => ⟨S256x128x128, .f32⟩
  | 43 => ⟨S256x128x128, .f32⟩
  | 44 => ⟨S256x128x128, .f32⟩
  | 45 => ⟨S1x1x128x128, .f32⟩
  | 46 => ⟨S128x128, .f32⟩
  | 47 => ⟨S1x128x128, .f32⟩
  | 48 => ⟨S256x128x128, .f32⟩
  | 49 => ⟨S256x128x128, .f32⟩
  | 50 => ⟨S256x128x128, .f32⟩
  | 51 => ⟨S256x128x128, .f32⟩
  | 52 => ⟨S1x1x128x128, .f32⟩
  | 53 => ⟨S128x128, .f32⟩
  | 54 => ⟨S1x128x128, .f32⟩
  | 55 => ⟨S256x128x128, .f32⟩
  | 56 => ⟨S256x128x128, .f32⟩
  | 57 => ⟨S256x128x128, .f32⟩
  | 58 => ⟨S256x128x128, .f32⟩
  | 59 => ⟨S1x1x128x128, .f32⟩
  | 60 => ⟨S128x128, .f32⟩
  | 61 => ⟨S1x128x128, .f32⟩
  | 62 => ⟨S256x128x128, .f32⟩
  | 63 => ⟨S256x128x128, .f32⟩
  | 64 => ⟨S256x128x128, .f32⟩
  | 65 => ⟨S256x128x128, .f32⟩
  | 66 => ⟨S1x1x128x128, .f32⟩
  | 67 => ⟨S128x128, .f32⟩
  | 68 => ⟨S1x128x128, .f32⟩
  | 69 => ⟨S256x128x128, .f32⟩
  | 70 => ⟨S256x128x128, .f32⟩
  | 71 => ⟨S256x128x128, .f32⟩
  | 72 => ⟨S256x128x128, .f32⟩
  | 73 => ⟨S1x1x128x128, .f32⟩
  | 74 => ⟨S128x128, .f32⟩
  | 75 => ⟨S1x128x128, .f32⟩
  | 76 => ⟨S256x128x128, .f32⟩
  | 77 => ⟨S256x128x128, .f32⟩
  | 78 => ⟨S256x128x128, .f32⟩
  | 79 => ⟨S256x128x128, .f32⟩
  | 80 => ⟨S1x1x128x128, .f32⟩
  | 81 => ⟨S128x128, .f32⟩
  | 82 => ⟨S1x128x128, .f32⟩
  | 83 => ⟨S256x128x128, .f32⟩
  | 84 => ⟨S256x128x128, .f32⟩
  | 85 => ⟨S256x128x128, .f32⟩
  | 86 => ⟨S256x128x128, .f32⟩
  | 87 => ⟨S1x1x128x128, .f32⟩
  | 88 => ⟨S128x128, .f32⟩
  | 89 => ⟨S1x128x128, .f32⟩
  | 90 => ⟨S256x128x128, .f32⟩
  | 91 => ⟨S256x128x128, .f32⟩
  | 92 => ⟨S256x128x128, .f32⟩
  | 93 => ⟨S256x128x128, .f32⟩
  | 94 => ⟨S1x1x128x128, .f32⟩
  | 95 => ⟨S128x128, .f32⟩
  | 96 => ⟨S1x128x128, .f32⟩
  | 97 => ⟨S256x128x128, .f32⟩
  | 98 => ⟨S256x128x128, .f32⟩
  | 99 => ⟨S256x128x128, .f32⟩
  | 100 => ⟨S256x128x128, .f32⟩
  | 101 => ⟨S1x1x128x128, .f32⟩
  | 102 => ⟨S128x128, .f32⟩
  | 103 => ⟨S1x128x128, .f32⟩
  | 104 => ⟨S256x128x128, .f32⟩
  | 105 => ⟨S256x128x128, .f32⟩
  | 106 => ⟨S256x128x128, .f32⟩
  | 107 => ⟨S256x128x128, .f32⟩
  | 108 => ⟨S1x1x128x128, .f32⟩
  | 109 => ⟨S128x128, .f32⟩
  | 110 => ⟨S1x128x128, .f32⟩
  | 111 => ⟨S256x128x128, .f32⟩
  | 112 => ⟨S256x128x128, .f32⟩
  | 113 => ⟨S256x128x128, .f32⟩
  | 114 => ⟨S256x128x128, .f32⟩
  | 115 => ⟨S1x1x128x128, .f32⟩
  | 116 => ⟨S128x128, .f32⟩
  | 117 => ⟨S1x128x128, .f32⟩
  | 118 => ⟨S256x128x128, .f32⟩
  | 119 => ⟨S256x128x128, .f32⟩
  | 120 => ⟨S256x128x128, .f32⟩
  | 121 => ⟨S256x128x128, .f32⟩
  | 122 => ⟨S1x1x128x128, .f32⟩
  | 123 => ⟨S128x128, .f32⟩
  | 124 => ⟨S1x128x128, .f32⟩
  | 125 => ⟨S256x128x128, .f32⟩
  | 126 => ⟨S256x128x128, .f32⟩
  | 127 => ⟨S256x128x128, .f32⟩
  | _ => ⟨S256x128x128, .f32⟩

abbrev hbmTy0_1 (i : Nat) : BufTy := match i % 128 with
  | 0 => ⟨S256x128x128, .f32⟩
  | 1 => ⟨S1x1x128x128, .f32⟩
  | 2 => ⟨S128x128, .f32⟩
  | 3 => ⟨S1x128x128, .f32⟩
  | 4 => ⟨S256x128x128, .f32⟩
  | 5 => ⟨S256x128x128, .f32⟩
  | 6 => ⟨S256x128x128, .f32⟩
  | 7 => ⟨S256x128x128, .f32⟩
  | 8 => ⟨S1x1x128x128, .f32⟩
  | 9 => ⟨S128x128, .f32⟩
  | 10 => ⟨S1x128x128, .f32⟩
  | 11 => ⟨S256x128x128, .f32⟩
  | 12 => ⟨S256x128x128, .f32⟩
  | 13 => ⟨S256x128x128, .f32⟩
  | 14 => ⟨S256x128x128, .f32⟩
  | 15 => ⟨S1x1x128x128, .f32⟩
  | 16 => ⟨S128x128, .f32⟩
  | 17 => ⟨S1x128x128, .f32⟩
  | 18 => ⟨S256x128x128, .f32⟩
  | 19 => ⟨S256x128x128, .f32⟩
  | 20 => ⟨S256x128x128, .f32⟩
  | 21 => ⟨S256x128x128, .f32⟩
  | 22 => ⟨S1x1x128x128, .f32⟩
  | 23 => ⟨S128x128, .f32⟩
  | 24 => ⟨S1x128x128, .f32⟩
  | 25 => ⟨S256x128x128, .f32⟩
  | 26 => ⟨S256x128x128, .f32⟩
  | 27 => ⟨S256x128x128, .f32⟩
  | 28 => ⟨S256x128x128, .f32⟩
  | 29 => ⟨S1x1x128x128, .f32⟩
  | 30 => ⟨S128x128, .f32⟩
  | 31 => ⟨S1x128x128, .f32⟩
  | 32 => ⟨S256x128x128, .f32⟩
  | 33 => ⟨S256x128x128, .f32⟩
  | 34 => ⟨S256x128x128, .f32⟩
  | 35 => ⟨S256x128x128, .f32⟩
  | 36 => ⟨S1x1x128x128, .f32⟩
  | 37 => ⟨S128x128, .f32⟩
  | 38 => ⟨S1x128x128, .f32⟩
  | 39 => ⟨S256x128x128, .f32⟩
  | 40 => ⟨S256x128x128, .f32⟩
  | 41 => ⟨S256x128x128, .f32⟩
  | 42 => ⟨S256x128x128, .f32⟩
  | 43 => ⟨S1x1x128x128, .f32⟩
  | 44 => ⟨S128x128, .f32⟩
  | 45 => ⟨S1x128x128, .f32⟩
  | 46 => ⟨S256x128x128, .f32⟩
  | 47 => ⟨S256x128x128, .f32⟩
  | 48 => ⟨S256x128x128, .f32⟩
  | 49 => ⟨S256x128x128, .f32⟩
  | 50 => ⟨S1x1x128x128, .f32⟩
  | 51 => ⟨S128x128, .f32⟩
  | 52 => ⟨S1x128x128, .f32⟩
  | 53 => ⟨S256x128x128, .f32⟩
  | 54 => ⟨S256x128x128, .f32⟩
  | 55 => ⟨S256x128x128, .f32⟩
  | 56 => ⟨S256x1x1, .f32⟩
  | 57 => ⟨S256x128x128, .f32⟩
  | 58 => ⟨S256x128x128, .f32⟩
  | 59 => ⟨S256x128x128, .f32⟩
  | 60 => ⟨S_, .f32⟩
  | 61 => ⟨S256x128x128, .f32⟩
  | 62 => ⟨S256x128x128, .f32⟩
  | _ => ⟨S256x128x128, .f32⟩

abbrev hbmTy (i : Nat) : BufTy := match i / 128 with
  | 0 => hbmTy0_0 i
  | 1 => hbmTy0_1 i
  | _ => ⟨S256x128x128, .f32⟩

abbrev bufTy : (tb : Table) → Fin (tcTables nBuf tb) → BufTy
  | .hbm, ⟨i, _⟩ => hbmTy i
  | _, _ => ⟨S256x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_v69 : Ref sig .tc := ⟨.hbm, 75, rfl⟩
abbrev main_v70 : Ref sig .tc := ⟨.hbm, 76, rfl⟩
abbrev main_v71 : Ref sig .tc := ⟨.hbm, 77, rfl⟩
abbrev main_v72 : Ref sig .tc := ⟨.hbm, 78, rfl⟩
abbrev main_v73 : Ref sig .tc := ⟨.hbm, 79, rfl⟩
abbrev main_v74 : Ref sig .tc := ⟨.hbm, 80, rfl⟩
abbrev main_v75 : Ref sig .tc := ⟨.hbm, 81, rfl⟩
abbrev main_v76 : Ref sig .tc := ⟨.hbm, 82, rfl⟩
abbrev main_v77 : Ref sig .tc := ⟨.hbm, 83, rfl⟩
abbrev main_v78 : Ref sig .tc := ⟨.hbm, 84, rfl⟩
abbrev main_v79 : Ref sig .tc := ⟨.hbm, 85, rfl⟩
abbrev main_v80 : Ref sig .tc := ⟨.hbm, 86, rfl⟩
abbrev main_v81 : Ref sig .tc := ⟨.hbm, 87, rfl⟩
abbrev main_v82 : Ref sig .tc := ⟨.hbm, 88, rfl⟩
abbrev main_v83 : Ref sig .tc := ⟨.hbm, 89, rfl⟩
abbrev main_v84 : Ref sig .tc := ⟨.hbm, 90, rfl⟩
abbrev main_v85 : Ref sig .tc := ⟨.hbm, 91, rfl⟩
abbrev main_v86 : Ref sig .tc := ⟨.hbm, 92, rfl⟩
abbrev main_v87 : Ref sig .tc := ⟨.hbm, 93, rfl⟩
abbrev main_v88 : Ref sig .tc := ⟨.hbm, 94, rfl⟩
abbrev main_v89 : Ref sig .tc := ⟨.hbm, 95, rfl⟩
abbrev main_v90 : Ref sig .tc := ⟨.hbm, 96, rfl⟩
abbrev main_v91 : Ref sig .tc := ⟨.hbm, 97, rfl⟩
abbrev main_v92 : Ref sig .tc := ⟨.hbm, 98, rfl⟩
abbrev main_v93 : Ref sig .tc := ⟨.hbm, 99, rfl⟩
abbrev main_v94 : Ref sig .tc := ⟨.hbm, 100, rfl⟩
abbrev main_v95 : Ref sig .tc := ⟨.hbm, 101, rfl⟩
abbrev main_v96 : Ref sig .tc := ⟨.hbm, 102, rfl⟩
abbrev main_v97 : Ref sig .tc := ⟨.hbm, 103, rfl⟩
abbrev main_v98 : Ref sig .tc := ⟨.hbm, 104, rfl⟩
abbrev main_v99 : Ref sig .tc := ⟨.hbm, 105, rfl⟩
abbrev main_v100 : Ref sig .tc := ⟨.hbm, 106, rfl⟩
abbrev main_v101 : Ref sig .tc := ⟨.hbm, 107, rfl⟩
abbrev main_v102 : Ref sig .tc := ⟨.hbm, 108, rfl⟩
abbrev main_v103 : Ref sig .tc := ⟨.hbm, 109, rfl⟩
abbrev main_v104 : Ref sig .tc := ⟨.hbm, 110, rfl⟩
abbrev main_v105 : Ref sig .tc := ⟨.hbm, 111, rfl⟩
abbrev main_v106 : Ref sig .tc := ⟨.hbm, 112, rfl⟩
abbrev main_v107 : Ref sig .tc := ⟨.hbm, 113, rfl⟩
abbrev main_v108 : Ref sig .tc := ⟨.hbm, 114, rfl⟩
abbrev main_v109 : Ref sig .tc := ⟨.hbm, 115, rfl⟩
abbrev main_v110 : Ref sig .tc := ⟨.hbm, 116, rfl⟩
abbrev main_v111 : Ref sig .tc := ⟨.hbm, 117, rfl⟩
abbrev main_v112 : Ref sig .tc := ⟨.hbm, 118, rfl⟩
abbrev main_v113 : Ref sig .tc := ⟨.hbm, 119, rfl⟩
abbrev main_v114 : Ref sig .tc := ⟨.hbm, 120, rfl⟩
abbrev main_v115 : Ref sig .tc := ⟨.hbm, 121, rfl⟩
abbrev main_v116 : Ref sig .tc := ⟨.hbm, 122, rfl⟩
abbrev main_v117 : Ref sig .tc := ⟨.hbm, 123, rfl⟩
abbrev main_v118 : Ref sig .tc := ⟨.hbm, 124, rfl⟩
abbrev main_v119 : Ref sig .tc := ⟨.hbm, 125, rfl⟩
abbrev main_v120 : Ref sig .tc := ⟨.hbm, 126, rfl⟩
abbrev main_v121 : Ref sig .tc := ⟨.hbm, 127, rfl⟩
abbrev main_v122 : Ref sig .tc := ⟨.hbm, 128, rfl⟩
abbrev main_v123 : Ref sig .tc := ⟨.hbm, 129, rfl⟩
abbrev main_v124 : Ref sig .tc := ⟨.hbm, 130, rfl⟩
abbrev main_v125 : Ref sig .tc := ⟨.hbm, 131, rfl⟩
abbrev main_v126 : Ref sig .tc := ⟨.hbm, 132, rfl⟩
abbrev main_v127 : Ref sig .tc := ⟨.hbm, 133, rfl⟩
abbrev main_v128 : Ref sig .tc := ⟨.hbm, 134, rfl⟩
abbrev main_v129 : Ref sig .tc := ⟨.hbm, 135, rfl⟩
abbrev main_v130 : Ref sig .tc := ⟨.hbm, 136, rfl⟩
abbrev main_v131 : Ref sig .tc := ⟨.hbm, 137, rfl⟩
abbrev main_v132 : Ref sig .tc := ⟨.hbm, 138, rfl⟩
abbrev main_v133 : Ref sig .tc := ⟨.hbm, 139, rfl⟩
abbrev main_v134 : Ref sig .tc := ⟨.hbm, 140, rfl⟩
abbrev main_v135 : Ref sig .tc := ⟨.hbm, 141, rfl⟩
abbrev main_v136 : Ref sig .tc := ⟨.hbm, 142, rfl⟩
abbrev main_v137 : Ref sig .tc := ⟨.hbm, 143, rfl⟩
abbrev main_v138 : Ref sig .tc := ⟨.hbm, 144, rfl⟩
abbrev main_v139 : Ref sig .tc := ⟨.hbm, 145, rfl⟩
abbrev main_v140 : Ref sig .tc := ⟨.hbm, 146, rfl⟩
abbrev main_v141 : Ref sig .tc := ⟨.hbm, 147, rfl⟩
abbrev main_v142 : Ref sig .tc := ⟨.hbm, 148, rfl⟩
abbrev main_v143 : Ref sig .tc := ⟨.hbm, 149, rfl⟩
abbrev main_v144 : Ref sig .tc := ⟨.hbm, 150, rfl⟩
abbrev main_v145 : Ref sig .tc := ⟨.hbm, 151, rfl⟩
abbrev main_v146 : Ref sig .tc := ⟨.hbm, 152, rfl⟩
abbrev main_v147 : Ref sig .tc := ⟨.hbm, 153, rfl⟩
abbrev main_v148 : Ref sig .tc := ⟨.hbm, 154, rfl⟩
abbrev main_v149 : Ref sig .tc := ⟨.hbm, 155, rfl⟩
abbrev main_v150 : Ref sig .tc := ⟨.hbm, 156, rfl⟩
abbrev main_v151 : Ref sig .tc := ⟨.hbm, 157, rfl⟩
abbrev main_v152 : Ref sig .tc := ⟨.hbm, 158, rfl⟩
abbrev main_v153 : Ref sig .tc := ⟨.hbm, 159, rfl⟩
abbrev main_v154 : Ref sig .tc := ⟨.hbm, 160, rfl⟩
abbrev main_v155 : Ref sig .tc := ⟨.hbm, 161, rfl⟩
abbrev main_v156 : Ref sig .tc := ⟨.hbm, 162, rfl⟩
abbrev main_v157 : Ref sig .tc := ⟨.hbm, 163, rfl⟩
abbrev main_v158 : Ref sig .tc := ⟨.hbm, 164, rfl⟩
abbrev main_v159 : Ref sig .tc := ⟨.hbm, 165, rfl⟩
abbrev main_v160 : Ref sig .tc := ⟨.hbm, 166, rfl⟩
abbrev main_v161 : Ref sig .tc := ⟨.hbm, 167, rfl⟩
abbrev main_v162 : Ref sig .tc := ⟨.hbm, 168, rfl⟩
abbrev main_v163 : Ref sig .tc := ⟨.hbm, 169, rfl⟩
abbrev main_v164 : Ref sig .tc := ⟨.hbm, 170, rfl⟩
abbrev main_v165 : Ref sig .tc := ⟨.hbm, 171, rfl⟩
abbrev main_v166 : Ref sig .tc := ⟨.hbm, 172, rfl⟩
abbrev main_v167 : Ref sig .tc := ⟨.hbm, 173, rfl⟩
abbrev main_v168 : Ref sig .tc := ⟨.hbm, 174, rfl⟩
abbrev main_v169 : Ref sig .tc := ⟨.hbm, 175, rfl⟩
abbrev main_v170 : Ref sig .tc := ⟨.hbm, 176, rfl⟩
abbrev main_v171 : Ref sig .tc := ⟨.hbm, 177, rfl⟩
abbrev main_v172 : Ref sig .tc := ⟨.hbm, 178, rfl⟩
abbrev main_v173 : Ref sig .tc := ⟨.hbm, 179, rfl⟩
abbrev main_v174 : Ref sig .tc := ⟨.hbm, 180, rfl⟩
abbrev main_v175 : Ref sig .tc := ⟨.hbm, 181, rfl⟩
abbrev main_v176 : Ref sig .tc := ⟨.hbm, 182, rfl⟩
abbrev main_v177 : Ref sig .tc := ⟨.hbm, 183, rfl⟩
abbrev main_v178 : Ref sig .tc := ⟨.hbm, 184, rfl⟩
abbrev main_v179 : Ref sig .tc := ⟨.hbm, 185, rfl⟩
abbrev main_v180 : Ref sig .tc := ⟨.hbm, 186, rfl⟩
abbrev main_v181 : Ref sig .tc := ⟨.hbm, 187, rfl⟩
abbrev main_cst_0 : Ref sig .tc := ⟨.hbm, 188, rfl⟩
abbrev main_v182 : Ref sig .tc := ⟨.hbm, 189, rfl⟩
abbrev main_v183 : Ref sig .tc := ⟨.hbm, 190, rfl⟩

abbrev nD : Nat := 1
abbrev τ : Topo := Topo.v7x

variable {F : FTy → Type} [FloatOps F]

class Facts₀ : Prop where
  pads_S256x128x128_S256x132x132_000_220_220 : S256x128x128.Pads (![0, 2, 2] : Fin 3 → Nat) ![0, 2, 2] ![0, 0, 0] S256x132x132
  h_S_ : 0 < S_.numel
  shapeCasts_S25x16384_S5x5x128x128 : S25x16384.ShapeCasts S5x5x128x128
  bcast_S_S256x128x128 : S_.BroadcastsInDim S256x128x128 (![] : Fin 0 → Fin S256x128x128.rank)
  slices_S256x132x132_S256x128x128_0_0_0 : S256x132x132.Slices ![0, 0, 0] S256x128x128
  slices_S5x5x128x128_S1x1x128x128_0_0_0_0 : S5x5x128x128.Slices ![0, 0, 0, 0] S1x1x128x128
  shapeCasts_S1x1x128x128_S128x128 : S1x1x128x128.ShapeCasts S128x128
  bcast_S128x128_S1x128x128_1_2 : S128x128.BroadcastsInDim S1x128x128 (![1, 2] : Fin 2 → Fin S1x128x128.rank)
  bcast_S1x128x128_S256x128x128_0_1_2 : S1x128x128.BroadcastsInDim S256x128x128 (![0, 1, 2] : Fin 3 → Fin S256x128x128.rank)
  slices_S256x132x132_S256x128x128_0_0_1 : S256x132x132.Slices ![0, 0, 1] S256x128x128
  slices_S5x5x128x128_S1x1x128x128_0_1_0_0 : S5x5x128x128.Slices ![0, 1, 0, 0] S1x1x128x128
  slices_S256x132x132_S256x128x128_0_0_2 : S256x132x132.Slices ![0, 0, 2] S256x128x128
  slices_S5x5x128x128_S1x1x128x128_0_2_0_0 : S5x5x128x128.Slices ![0, 2, 0, 0] S1x1x128x128
  slices_S256x132x132_S256x128x128_0_0_3 : S256x132x132.Slices ![0, 0, 3] S256x128x128
  slices_S5x5x128x128_S1x1x128x128_0_3_0_0 : S5x5x128x128.Slices ![0, 3, 0, 0] S1x1x128x128
  slices_S256x132x132_S256x128x128_0_0_4 : S256x132x132.Slices ![0, 0, 4] S256x128x128
  slices_S5x5x128x128_S1x1x128x128_0_4_0_0 : S5x5x128x128.Slices ![0, 4, 0, 0] S1x1x128x128
  slices_S256x132x132_S256x128x128_0_1_0 : S256x132x132.Slices ![0, 1, 0] S256x128x128
  slices_S5x5x128x128_S1x1x128x128_1_0_0_0 : S5x5x128x128.Slices ![1, 0, 0, 0] S1x1x128x128
  slices_S256x132x132_S256x128x128_0_1_1 : S256x132x132.Slices ![0, 1, 1] S256x128x128
  slices_S5x5x128x128_S1x1x128x128_1_1_0_0 : S5x5x128x128.Slices ![1, 1, 0, 0] S1x1x128x128
  slices_S256x132x132_S256x128x128_0_1_2 : S256x132x132.Slices ![0, 1, 2] S256x128x128
  slices_S5x5x128x128_S1x1x128x128_1_2_0_0 : S5x5x128x128.Slices ![1, 2, 0, 0] S1x1x128x128
  slices_S256x132x132_S256x128x128_0_1_3 : S256x132x132.Slices ![0, 1, 3] S256x128x128
  slices_S5x5x128x128_S1x1x128x128_1_3_0_0 : S5x5x128x128.Slices ![1, 3, 0, 0] S1x1x128x128
  slices_S256x132x132_S256x128x128_0_1_4 : S256x132x132.Slices ![0, 1, 4] S256x128x128
  slices_S5x5x128x128_S1x1x128x128_1_4_0_0 : S5x5x128x128.Slices ![1, 4, 0, 0] S1x1x128x128
  slices_S256x132x132_S256x128x128_0_2_0 : S256x132x132.Slices ![0, 2, 0] S256x128x128
  slices_S5x5x128x128_S1x1x128x128_2_0_0_0 : S5x5x128x128.Slices ![2, 0, 0, 0] S1x1x128x128
  slices_S256x132x132_S256x128x128_0_2_1 : S256x132x132.Slices ![0, 2, 1] S256x128x128
  slices_S5x5x128x128_S1x1x128x128_2_1_0_0 : S5x5x128x128.Slices ![2, 1, 0, 0] S1x1x128x128
  slices_S256x132x132_S256x128x128_0_2_2 : S256x132x132.Slices ![0, 2, 2] S256x128x128
  slices_S5x5x128x128_S1x1x128x128_2_2_0_0 : S5x5x128x128.Slices ![2, 2, 0, 0] S1x1x128x128
  slices_S256x132x132_S256x128x128_0_2_3 : S256x132x132.Slices ![0, 2, 3] S256x128x128
  slices_S5x5x128x128_S1x1x128x128_2_3_0_0 : S5x5x128x128.Slices ![2, 3, 0, 0] S1x1x128x128
  slices_S256x132x132_S256x128x128_0_2_4 : S256x132x132.Slices ![0, 2, 4] S256x128x128
  slices_S5x5x128x128_S1x1x128x128_2_4_0_0 : S5x5x128x128.Slices ![2, 4, 0, 0] S1x1x128x128
  slices_S256x132x132_S256x128x128_0_3_0 : S256x132x132.Slices ![0, 3, 0] S256x128x128
  slices_S5x5x128x128_S1x1x128x128_3_0_0_0 : S5x5x128x128.Slices ![3, 0, 0, 0] S1x1x128x128
  slices_S256x132x132_S256x128x128_0_3_1 : S256x132x132.Slices ![0, 3, 1] S256x128x128
  slices_S5x5x128x128_S1x1x128x128_3_1_0_0 : S5x5x128x128.Slices ![3, 1, 0, 0] S1x1x128x128
  slices_S256x132x132_S256x128x128_0_3_2 : S256x132x132.Slices ![0, 3, 2] S256x128x128
  slices_S5x5x128x128_S1x1x128x128_3_2_0_0 : S5x5x128x128.Slices ![3, 2, 0, 0] S1x1x128x128
  slices_S256x132x132_S256x128x128_0_3_3 : S256x132x132.Slices ![0, 3, 3] S256x128x128
  slices_S5x5x128x128_S1x1x128x128_3_3_0_0 : S5x5x128x128.Slices ![3, 3, 0, 0] S1x1x128x128
  slices_S256x132x132_S256x128x128_0_3_4 : S256x132x132.Slices ![0, 3, 4] S256x128x128
  slices_S5x5x128x128_S1x1x128x128_3_4_0_0 : S5x5x128x128.Slices ![3, 4, 0, 0] S1x1x128x128
  slices_S256x132x132_S256x128x128_0_4_0 : S256x132x132.Slices ![0, 4, 0] S256x128x128
  slices_S5x5x128x128_S1x1x128x128_4_0_0_0 : S5x5x128x128.Slices ![4, 0, 0, 0] S1x1x128x128
  slices_S256x132x132_S256x128x128_0_4_1 : S256x132x132.Slices ![0, 4, 1] S256x128x128
  slices_S5x5x128x128_S1x1x128x128_4_1_0_0 : S5x5x128x128.Slices ![4, 1, 0, 0] S1x1x128x128
  slices_S256x132x132_S256x128x128_0_4_2 : S256x132x132.Slices ![0, 4, 2] S256x128x128
  slices_S5x5x128x128_S1x1x128x128_4_2_0_0 : S5x5x128x128.Slices ![4, 2, 0, 0] S1x1x128x128
  slices_S256x132x132_S256x128x128_0_4_3 : S256x132x132.Slices ![0, 4, 3] S256x128x128
  slices_S5x5x128x128_S1x1x128x128_4_3_0_0 : S5x5x128x128.Slices ![4, 3, 0, 0] S1x1x128x128
  slices_S256x132x132_S256x128x128_0_4_4 : S256x132x132.Slices ![0, 4, 4] S256x128x128
  slices_S5x5x128x128_S1x1x128x128_4_4_0_0 : S5x5x128x128.Slices ![4, 4, 0, 0] S1x1x128x128
  bcast_S256_S256x1x1_0 : S256.BroadcastsInDim S256x1x1 (![0] : Fin 1 → Fin S256x1x1.rank)
  bcast_S256x1x1_S256x128x128_0_1_2 : S256x1x1.BroadcastsInDim S256x128x128 (![0, 1, 2] : Fin 3 → Fin S256x128x128.rank)

variable [Facts₀]

class Facts : Prop extends Facts₀ where

variable [Facts]
-- ==== Proof.LocalStencil.lean ====
/-
  The function both programs compute, written once over the three argument arrays.

  An image batch f[b, r, s] (256 images of 128 x 128), a table k[n, r*128 + s] of 25 weights per pixel (a 5 x 5
  stencil that is different at every pixel; tap (di, dj) is row n = 5*di + dj of the table) and a step dt[b] per image.
  With P the image with a border of two zeros on each side of both spatial axes,

      out[b, r, s] = max ( f[b, r, s] + ( Σ_{di, dj < 5} P[b, r + di, s + dj] * k[5*di + dj, r*128 + s] ) * dt[b] , 0 ).

  The sum is taken in one fixed order: starting from zero, the taps are added on the right one after another, dj fastest.
  Both programs add them in exactly this order, so the statement needs no law of arithmetic at all — it holds for every
  interpretation of the float operations, and nothing has to be finite. What differs between the programs is only how
  an entry of P, of k and of dt is reached (which slice of which block, which reshape), and that the kernel reads the
  image itself out of the middle of P where the reference reads f: the middle of the bordered image is the image
  (`padded_inside`).
-/
import Idealize.ShloMosaic.PureOps.Ideal
import Idealize.ShloMosaic.Lib.ValueIdx
import Idealize.ShloMosaic.Lib.KernelVsHost

noncomputable section

namespace Cert.LocalStencil

open Idealize.ShloMosaic Idealize.ShloMosaic.ValueIdx

variable {F : FTy → Type} [FloatOps F]

/-- The image batch's shape. -/
abbrev SImg : Shape := ⟨3, ![256, 128, 128]⟩
/-- The bordered batch's shape: two more rows and columns on each side. -/
abbrev SPad : Shape := ⟨3, ![256, 132, 132]⟩
/-- The weight table's shape: one row per tap, one column per pixel. -/
abbrev SKer : Shape := ⟨2, ![25, 16384]⟩
/-- The steps' shape: one per image. -/
abbrev SDt : Shape := ⟨1, ![256]⟩
/-- The scalar shape. -/
abbrev S0 : Shape := ⟨0, ![]⟩

/-! ## Indices are equal when their coordinates are -/

theorem idx3_ext {n0 n1 n2 : Nat} {j k : (⟨3, ![n0, n1, n2]⟩ : Shape).Idx} (h0 : (j 0).val = (k 0).val)
    (h1 : (j 1).val = (k 1).val) (h2 : (j 2).val = (k 2).val) : j = k :=
  funext fun a => match a with | ⟨0, _⟩ => Fin.ext h0 | ⟨1, _⟩ => Fin.ext h1 | ⟨2, _⟩ => Fin.ext h2

/-! ## The bordered image -/

/-- The image batch with a border of two zeros (the integer zero converted to a float) around each image. -/
def padded (f : SImg.Idx → F .f32) : SPad.Idx → F .f32 :=
  pad SPad ![0, 2, 2] ![0, 2, 2] ![0, 0, 0] f (sitofp (F := F) .f32 (constantI S0 32 0#32))

/-- Pixel `(r + di, s + dj)` of image `b` in the bordered batch: where tap `(di, dj)` of output pixel `(r, s)` reads. -/
abbrev padIx (i : SImg.Idx) (di dj : Nat) (hdi : di < 5 := by omega) (hdj : dj < 5 := by omega) : SPad.Idx :=
  ix3 (n0 := 256) (n1 := 132) (n2 := 132) ⟨(i 0).val, (i 0).isLt⟩
    ⟨(i 1).val + di, by have h : (i 1).val < 128 := (i 1).isLt; omega⟩
    ⟨(i 2).val + dj, by have h : (i 2).val < 128 := (i 2).isLt; omega⟩

/-- Entry `(n, r*128 + s)` of the weight table: tap number `n`'s weight at output pixel `(r, s)`. -/
abbrev kerIx (i : SImg.Idx) (n : Nat) (hn : n < 25 := by omega) : SKer.Idx :=
  ix2 (n0 := 25) (n1 := 16384) ⟨n, hn⟩
    ⟨(i 1).val * 128 + (i 2).val, by
      have h1 : (i 1).val < 128 := (i 1).isLt; have h2 : (i 2).val < 128 := (i 2).isLt; omega⟩

/-- Image `b`'s step. -/
abbrev dtIx (i : SImg.Idx) : SDt.Idx := ix1 (n := 256) ⟨(i 0).val, (i 0).isLt⟩

/-- The middle of the bordered image is the image: two rows down and two columns in from pixel `(r, s)` of the border's
    corner sits the image's own pixel `(r, s)`. -/
theorem padded_inside (f : SImg.Idx → F .f32) (i : SImg.Idx) : padded f (padIx i 2 2) = f i := by
  unfold padded
  refine pad_apply_of_inside _ _ _ f _ _ _ (padIx i 2 2) i (fun a => ?_)
  match a with
  | ⟨0, _⟩ => show (i 0).val = 0 + (i 0).val * (0 + 1); omega
  | ⟨1, _⟩ => show (i 1).val + 2 = 2 + (i 1).val * (0 + 1); omega
  | ⟨2, _⟩ => show (i 2).val + 2 = 2 + (i 2).val * (0 + 1); omega

/-! ## The stencil -/

/-- One tap's term at output pixel `i`: the bordered image at the shifted pixel times that pixel's weight for the tap;
    tap `(di, dj)` is number `5 di + dj`. -/
def tap (P : SPad.Idx → F .f32) (k : SKer.Idx → F .f32) (i : SImg.Idx) (di dj : Nat)
    (hdi : di < 5 := by omega) (hdj : dj < 5 := by omega) : F .f32 :=
  FloatOps.mulf (P (padIx i di dj hdi hdj)) (k (kerIx i (di * 5 + dj) (by omega)))

/-- The running total `z` with the five taps of stencil row `di` added on the right, left to right. -/
def row (P : SPad.Idx → F .f32) (k : SKer.Idx → F .f32) (i : SImg.Idx) (di : Nat) (hdi : di < 5 := by omega)
    (z : F .f32) : F .f32 :=
  FloatOps.addf (FloatOps.addf (FloatOps.addf (FloatOps.addf (FloatOps.addf z
    (tap P k i di 0 hdi)) (tap P k i di 1 hdi)) (tap P k i di 2 hdi)) (tap P k i di 3 hdi)) (tap P k i di 4 hdi)

/-- The 25 taps at output pixel `i`, added up from zero row after row. -/
def taps (P : SPad.Idx → F .f32) (k : SKer.Idx → F .f32) (i : SImg.Idx) : F .f32 :=
  row P k i 4 (by omega) (row P k i 3 (by omega) (row P k i 2 (by omega) (row P k i 1 (by omega)
    (row P k i 0 (by omega) (FloatOps.ofBits .f32 0x00000000#32)))))

/-! ## The same sum, one tap at a time -/

/-- A tap's offsets, both below 5. -/
abbrev TapId := {p : Nat × Nat // p.1 < 5 ∧ p.2 < 5}

/-- The 25 taps in the order they are added: row after row, `dj` fastest. -/
def tapOrder : List TapId :=
  [⟨(0, 0), by decide⟩, ⟨(0, 1), by decide⟩, ⟨(0, 2), by decide⟩, ⟨(0, 3), by decide⟩, ⟨(0, 4), by decide⟩,
   ⟨(1, 0), by decide⟩, ⟨(1, 1), by decide⟩, ⟨(1, 2), by decide⟩, ⟨(1, 3), by decide⟩, ⟨(1, 4), by decide⟩,
   ⟨(2, 0), by decide⟩, ⟨(2, 1), by decide⟩, ⟨(2, 2), by decide⟩, ⟨(2, 3), by decide⟩, ⟨(2, 4), by decide⟩,
   ⟨(3, 0), by decide⟩, ⟨(3, 1), by decide⟩, ⟨(3, 2), by decide⟩, ⟨(3, 3), by decide⟩, ⟨(3, 4), by decide⟩,
   ⟨(4, 0), by decide⟩, ⟨(4, 1), by decide⟩, ⟨(4, 2), by decide⟩, ⟨(4, 3), by decide⟩, ⟨(4, 4), by decide⟩]

/-- The running total `z` with the taps of a list added on the right one after another. -/
def addTaps (P : SPad.Idx → F .f32) (k : SKer.Idx → F .f32) (i : SImg.Idx) (l : List TapId) (z : F .f32) : F .f32 :=
  l.foldl (fun z p => FloatOps.addf z (tap P k i p.1.1 p.1.2 p.2.1 p.2.2)) z

/-- The 25 taps added up from zero are the taps of `tapOrder` added one after another. -/
theorem taps_eq (P : SPad.Idx → F .f32) (k : SKer.Idx → F .f32) (i : SImg.Idx) :
    taps P k i = addTaps P k i tapOrder (FloatOps.ofBits .f32 0x00000000#32) := rfl

/-- What both programs leave in the result array: the image plus its stencil response times the image's step, clamped
    below at zero. -/
def stencil (f : SImg.Idx → F .f32) (k : SKer.Idx → F .f32) (d : SDt.Idx → F .f32) : SImg.Idx → F .f32 := fun i =>
  FloatOps.maximumf (FloatOps.addf (f i) (FloatOps.mulf (taps (padded f) k i) (d (dtIx i))))
    (FloatOps.ofBits .f32 0x00000000#32)

end Cert.LocalStencil

end
-- ==== Proof.KernelBody.lean ====
/-
  What the kernel's body leaves in its output block, entry by entry.

  The body loads the bordered block X (8 x 132 x 132), the 25 slabs K_0 … K_24 (1 x 128 x 128 each) of the re-laid weight
  table and the steps' block D (8 x 1), and stores one 8 x 128 x 128 value. At block index y = (a, r, s) that value is

      max ( X[a, r + 2, s + 2] + ( (((0 + X[a, r, s] * K_0[0, r, s]) + X[a, r, s + 1] * K_1[0, r, s]) + … ) * D[a, 0] , 0 ):

  a slice of X at offsets (0, di, dj) read at y is X at (a, r + di, s + dj); a slab cast to 128 x 128, back to
  1 x 128 x 128 and laid under each of the 8 images is the slab at (0, r, s); the steps' block cast to 8 x 1 x 1 and
  stretched over the pixels is D at (a, 0). The running total passes through four named intermediate values (after taps
  5, 11, 17 and 23): one lemma for each stretch of the sum.
-/
import proofs.«159623_j87746181857881_2_alg».proof.Proof.Gen.KernelIdeal.Frame
import Idealize.ShloMosaic.Lib.Pipeline.Value
import Idealize.ShloMosaic.Lib.ValueIdx

noncomputable section

namespace Cert.KernelIdeal.Body

open Cert.KernelIdeal Cert.KernelIdeal.Gen Idealize.ShloMosaic Idealize.ShloMosaic.ValueIdx

variable {F : FTy → Type} [FloatOps F]

/-- Entry `(a, r + di, s + dj)` of the bordered block: where tap `(di, dj)` of block pixel `(a, r, s)` reads. -/
abbrev bix (y : S8x128x128.Idx) (di dj : Nat) (h1 : di + 128 ≤ 132 := by omega) (h2 : dj + 128 ≤ 132 := by omega) :
    S8x132x132.Idx :=
  ix3 (n0 := 8) (n1 := 132) (n2 := 132) ⟨(y 0).val, (y 0).isLt⟩
    ⟨(y 1).val + di, by have h : (y 1).val < 128 := (y 1).isLt; omega⟩
    ⟨(y 2).val + dj, by have h : (y 2).val < 128 := (y 2).isLt; omega⟩

/-- Entry `(0, r, s)` of a slab: the weight of block pixel `(a, r, s)`, the same for the 8 images. -/
abbrev kix (y : S8x128x128.Idx) : S1x128x128.Idx :=
  ix3 (n0 := 1) (n1 := 128) (n2 := 128) ⟨0, Nat.one_pos⟩ ⟨(y 1).val, (y 1).isLt⟩ ⟨(y 2).val, (y 2).isLt⟩

/-- Entry `(a, 0)` of the steps' block: image `a`'s step. -/
abbrev dix (y : S8x128x128.Idx) : S8x1.Idx :=
  ix2 (n0 := 8) (n1 := 1) ⟨(y 0).val, (y 0).isLt⟩ ⟨0, Nat.one_pos⟩

/-! ## The layout operations read at a block index -/

/-- A slice of the bordered block at offsets `(0, di, dj)`, read at `(a, r, s)`, is the block at `(a, r + di, s + dj)`. -/
theorem slice_apply (X : S8x132x132.Idx → F .f32) (di dj : Nat)
    (hs : S8x132x132.Slices ![0, di, dj] S8x128x128) (y : S8x128x128.Idx) :
    extractStridedSlice S8x128x128 ![0, di, dj] X hs y
      = X (bix y di dj (show di + 128 ≤ 132 from hs.2 1) (show dj + 128 ≤ 132 from hs.2 2)) := by
  refine extractStridedSlice_apply ![0, di, dj] X hs y _ (fun a => ?_)
  match a with
  | ⟨0, _⟩ => show (y 0).val = 0 + (y 0).val; omega
  | ⟨1, _⟩ => show (y 1).val + di = di + (y 1).val; omega
  | ⟨2, _⟩ => show (y 2).val + dj = dj + (y 2).val; omega

/-- A slab cast to 128 x 128 and back, then laid under each of the 8 images, read at `(a, r, s)`, is the slab at `(0, r, s)`. -/
theorem slab_apply (K : S1x128x128.Idx → F .f32) (h1 : S1x128x128.ShapeCasts S128x128) (h2 : S128x128.ShapeCasts S1x128x128)
    (hb : S1x128x128.Broadcasts S8x128x128) (y : S8x128x128.Idx) :
    broadcastTo S8x128x128 (shapeCast S1x128x128 (shapeCast S128x128 K h1) h2) hb y = K (kix y) := by
  rw [shapeCast_shapeCast]
  refine broadcastTo_apply K hb y (kix y) (fun a => ?_)
  match a with
  | ⟨0, _⟩ => show 0 = if (1 : Nat) = 1 then 0 else _; rw [if_pos rfl]
  | ⟨1, _⟩ => show (y 1).val = if (128 : Nat) = 1 then 0 else (y 1).val; rw [if_neg (by decide)]
  | ⟨2, _⟩ => show (y 2).val = if (128 : Nat) = 1 then 0 else (y 2).val; rw [if_neg (by decide)]

/-- The steps' block cast to 8 x 1 x 1 and stretched over the 128 x 128 pixels, read at `(a, r, s)`, is the block at `(a, 0)`. -/
theorem step_apply (D : S8x1.Idx → F .f32) (h0 : S8x1.ShapeCasts S8x1) (h1 : S8x1.ShapeCasts S8x1x1)
    (hb : S8x1x1.Broadcasts S8x128x128) (y : S8x128x128.Idx) :
    broadcastTo S8x128x128 (shapeCast S8x1x1 (shapeCast S8x1 D h0) h1) hb y = D (dix y) := by
  rw [shapeCast_self]
  refine (broadcastTo_apply _ hb y (ix3 (n0 := 8) (n1 := 1) (n2 := 1) ⟨(y 0).val, (y 0).isLt⟩ ⟨0, Nat.one_pos⟩ ⟨0, Nat.one_pos⟩)
    (fun a => ?_)).trans ?_
  · match a with
    | ⟨0, _⟩ => show (y 0).val = if (8 : Nat) = 1 then 0 else (y 0).val; rw [if_neg (by decide)]
    | ⟨1, _⟩ => show 0 = if (1 : Nat) = 1 then 0 else _; rw [if_pos rfl]
    | ⟨2, _⟩ => show 0 = if (1 : Nat) = 1 then 0 else _; rw [if_pos rfl]
  · refine shapeCast_apply D h1 _ (dix y) ?_
    rw [Shape.rowMajor_val_two, Shape.rowMajor_val_three]
    show (y 0).val * 1 + 0 = ((y 0).val * 1 + 0) * 1 + 0
    omega

/-! ## The body's stored value, stretch by stretch -/

/-- One tap's term at block index `y`: the bordered block at the shifted pixel times the slab's weight for the pixel. -/
def btap (X : S8x132x132.Idx → F .f32) (K : S1x128x128.Idx → F .f32) (y : S8x128x128.Idx) (di dj : Nat)
    (h1 : di + 128 ≤ 132 := by omega) (h2 : dj + 128 ≤ 132 := by omega) : F .f32 :=
  FloatOps.mulf (X (bix y di dj h1 h2)) (K (kix y))

/-- The identity cast the body puts on its first load. -/
theorem pay2_eq (X : Vec F S8x132x132 .f32) : k0_pay2 X = X := by
  unfold k0_pay2
  exact shapeCast_self X _

/-- The middle of the bordered block: entry `(a, r + 2, s + 2)`. -/
theorem pay3_apply (X : Vec F S8x132x132 .f32) (y : S8x128x128.Idx) : k0_pay3 X y = X (bix y 2 2) := by
  simp only [k0_pay3, pay2_eq, slice_apply]

/-- Taps 0 … 4 (stencil row 0), added to zero from the left. -/
theorem pay4_apply (X : Vec F S8x132x132 .f32) (K0 K1 K2 K3 K4 : Vec F S1x128x128 .f32) (y : S8x128x128.Idx) :
    k0_pay4 X K0 K1 K2 K3 K4 y
      = FloatOps.addf (FloatOps.addf (FloatOps.addf (FloatOps.addf (FloatOps.addf (FloatOps.ofBits .f32 0x00000000#32)
          (btap X K0 y 0 0)) (btap X K1 y 0 1)) (btap X K2 y 0 2)) (btap X K3 y 0 3)) (btap X K4 y 0 4) := by
  simp only [k0_pay4, pay2_eq, addf, mulf, broadcast, btap, slice_apply, slab_apply]

/-- Taps 5 … 10 added to the running total. -/
theorem pay5_apply (X : FVec F S8x132x132 .f32) (z : FVec F S8x128x128 .f32) (K5 K6 K7 K8 K9 K10 : Vec F S1x128x128 .f32)
    (y : S8x128x128.Idx) :
    k0_pay5 X z K5 K6 K7 K8 K9 K10 y
      = FloatOps.addf (FloatOps.addf (FloatOps.addf (FloatOps.addf (FloatOps.addf (FloatOps.addf (z y)
          (btap X K5 y 1 0)) (btap X K6 y 1 1)) (btap X K7 y 1 2)) (btap X K8 y 1 3)) (btap X K9 y 1 4)) (btap X K10 y 2 0) := by
  simp only [k0_pay5, addf, mulf, btap, slice_apply, slab_apply]

/-- Taps 11 … 16 added to the running total. -/
theorem pay6_apply (X : FVec F S8x132x132 .f32) (z : FVec F S8x128x128 .f32) (K11 K12 K13 K14 K15 K16 : Vec F S1x128x128 .f32)
    (y : S8x128x128.Idx) :
    k0_pay6 X z K11 K12 K13 K14 K15 K16 y
      = FloatOps.addf (FloatOps.addf (FloatOps.addf (FloatOps.addf (FloatOps.addf (FloatOps.addf (z y)
          (btap X K11 y 2 1)) (btap X K12 y 2 2)) (btap X K13 y 2 3)) (btap X K14 y 2 4)) (btap X K15 y 3 0)) (btap X K16 y 3 1) := by
  simp only [k0_pay6, addf, mulf, btap, slice_apply, slab_apply]

/-- Taps 17 … 22 added to the running total. -/
theorem pay7_apply (X : FVec F S8x132x132 .f32) (z : FVec F S8x128x128 .f32) (K17 K18 K19 K20 K21 K22 : Vec F S1x128x128 .f32)
    (y : S8x128x128.Idx) :
    k0_pay7 X z K17 K18 K19 K20 K21 K22 y
      = FloatOps.addf (FloatOps.addf (FloatOps.addf (FloatOps.addf (FloatOps.addf (FloatOps.addf (z y)
          (btap X K17 y 3 2)) (btap X K18 y 3 3)) (btap X K19 y 3 4)) (btap X K20 y 4 0)) (btap X K21 y 4 1)) (btap X K22 y 4 2) := by
  simp only [k0_pay7, addf, mulf, btap, slice_apply, slab_apply]

/-- The last two taps, the step, the image itself and the clamp. -/
theorem pay1_apply (X : FVec F S8x132x132 .f32) (mid z : FVec F S8x128x128 .f32) (K23 K24 : Vec F S1x128x128 .f32)
    (D : Vec F S8x1 .f32) (y : S8x128x128.Idx) :
    k0_pay1 X mid z K23 K24 D y
      = FloatOps.maximumf (FloatOps.addf (mid y) (FloatOps.mulf
          (FloatOps.addf (FloatOps.addf (z y) (btap X K23 y 4 3)) (btap X K24 y 4 4)) (D (dix y))))
          (FloatOps.ofBits .f32 0x00000000#32) := by
  simp only [k0_pay1, addf, mulf, maximumf, broadcast, btap, slice_apply, slab_apply, step_apply]

end Cert.KernelIdeal.Body

end
-- ==== Proof.KernelBlocks.lean ====
/-
  What the kernel leaves in the result array.

  The grid has 32 points; point t works on images 8t … 8t + 7. It is handed block row t of the bordered batch
  (8 x 132 x 132), the whole weight table re-laid as 25 slabs of 128 x 128, and block row t of the steps as a column
  (8 x 1), and it writes block row t (8 x 128 x 128) of the result. Read back to the arguments, entry (a, r + di, s + dj) of
  the bordered block is the bordered batch at image 8t + a, entry (0, r, s) of slab n is the weight table at
  (n, 128 r + s), and entry (a, 0) of the steps' block is the step of image 8t + a; the middle of a bordered image is the
  image. So what the body stores at block index (a, r, s) is `stencil` at (8t + a, r, s): point t writes block t of
  `stencil`, the 32 blocks tile the result array, and the array ends holding `stencil` of the three arguments.
-/
import proofs.«159623_j87746181857881_2_alg».proof.Proof.Gen.KernelIdeal.Frame
import proofs.«159623_j87746181857881_2_alg».proof.Proof.LocalStencil
import proofs.«159623_j87746181857881_2_alg».proof.Proof.KernelBody
import Idealize.ShloMosaic.Lib.Pipeline.Value
import Idealize.ShloMosaic.Lib.StableHlo.Run

set_option maxRecDepth 16384

noncomputable section

namespace Cert.KernelIdeal.Blocks

open Cert.KernelIdeal Cert.KernelIdeal.Gen Cert.KernelIdeal.Body Idealize.ShloMosaic Idealize.ShloMosaic.TcCoe Idealize.SL.Sem
open Idealize.ShloMosaic.Pipeline (Dat)
open Idealize.ShloMosaic.StableHlo
open Cert.LocalStencil

variable {F : FTy → Type} [FloatOps F]
variable (m : (ℓ : Loc nD τ sig) → Buf (Elt F) ℓ) (ρ : Dev nD → PrngReg)

/-! ## The arrays the region finds -/

/-- The first window's array is the bordered batch: the host pads the images before the region. -/
theorem V_bordered (c : Dev nD) :
    (V m c main_v0 : S256x132x132.Idx → F .f32) = padded (m ((c : Thread nD τ).loc main_arg0)) := by
  dsimp only [V]
  simp only [hostOps0, hostOps0_1, hostOps0_2, List.flatten_cons, List.flatten_nil, List.append_nil, List.cons_append,
    List.nil_append]
  after_results
  rfl

/-- The second window's array is the weight table re-laid as 25 slabs of 128 x 128. -/
theorem V_slabs (c : Dev nD) :
    (V m c main_v1 : S25x128x128.Idx → F .f32)
      = shapeCast S25x128x128 (m ((c : Thread nD τ).loc main_arg1)) shapeCasts_S25x16384_S25x128x128 := by
  dsimp only [V]
  simp only [hostOps0, hostOps0_1, hostOps0_2, List.flatten_cons, List.flatten_nil, List.append_nil, List.cons_append,
    List.nil_append]
  after_results
  rfl

/-- The third window's array is the steps as a column. -/
theorem V_column (c : Dev nD) :
    (V m c main_v2 : S256x1.Idx → F .f32)
      = shapeCast S256x1 (m ((c : Thread nD τ).loc main_arg2)) shapeCasts_S256_S256x1 := by
  dsimp only [V]
  simp only [hostOps0, hostOps0_1, hostOps0_2, List.flatten_cons, List.flatten_nil, List.append_nil, List.cons_append,
    List.nil_append]
  after_results
  rfl

/-! ## Where the blocks sit -/

/-- The printed index maps, decided over the 32 grid points: the bordered block, the steps' block and the result block
    are all at block row `t` and block zero on the other axes; the weight table is one block. -/
theorem block_rows : ∀ t : Fin cfg0.N,
    win0_3.index t (0 : Fin 3) = t.val ∧ win0_3.index t (1 : Fin 3) = 0 ∧ win0_3.index t (2 : Fin 3) = 0
    ∧ win0_0.index t (0 : Fin 3) = t.val ∧ win0_0.index t (1 : Fin 3) = 0 ∧ win0_0.index t (2 : Fin 3) = 0
    ∧ win0_1.index t (0 : Fin 3) = 0 ∧ win0_1.index t (1 : Fin 3) = 0 ∧ win0_1.index t (2 : Fin 3) = 0
    ∧ win0_2.index t (0 : Fin 2) = t.val ∧ win0_2.index t (1 : Fin 2) = 0 :=
  (by decide +kernel : ∀ t : Fin grid0.N, _)

/-! ## The body's loads, read back to the arguments -/

/-- Entry `(a, r + di, s + dj)` of the bordered block at point `t` is the bordered batch where tap `(di, dj)` of result
    pixel `(8t + a, r, s)` reads. -/
theorem load_bordered (c : Dev nD) (t : Fin cfg0.N) (y : S8x128x128.Idx) (di dj : Nat) (h1 : di + 128 ≤ 132)
    (h2 : dj + 128 ≤ 132) :
    View.ld (iblk m c 0 t) r0_0 (bix y di dj h1 h2)
      = padded (m ((c : Thread nD τ).loc main_arg0))
          (padIx (((cfg0.win 3).blk t).view.emb y) di dj (by omega) (by omega)) := by
  obtain ⟨e30, e31, e32, e00, e01, e02, -⟩ := block_rows t
  unfold iblk
  show V m c main_v0 _ = _
  rw [V_bordered]
  refine congrArg _ (idx3_ext ?_ ?_ ?_)
  · show win0_0.index t (0 : Fin 3) * 8 + 1 * (0 + 1 * (y 0).val) = win0_3.index t (0 : Fin 3) * 8 + 1 * (y 0).val
    omega
  · show win0_0.index t (1 : Fin 3) * 132 + 1 * (0 + 1 * ((y 1).val + di)) = win0_3.index t (1 : Fin 3) * 128 + 1 * (y 1).val + di
    omega
  · show win0_0.index t (2 : Fin 3) * 132 + 1 * (0 + 1 * ((y 2).val + dj)) = win0_3.index t (2 : Fin 3) * 128 + 1 * (y 2).val + dj
    omega

/-- Entry `(0, r, s)` of slab `n` of the re-laid weight table is the table at row `n`, column `128 r + s`. -/
theorem load_slab (c : Dev nD) (t : Fin cfg0.N) (y : S8x128x128.Idx) (n : Nat)
    (inb : ∀ a, (![n, 0, 0] : Fin 3 → Nat) a + S1x128x128.size a ≤ S25x128x128.size a) :
    View.ld (iblk m c 1 t) (Rect.unit (s := S25x128x128) ![n, 0, 0] S1x128x128.size inb) (kix y)
      = (m ((c : Thread nD τ).loc main_arg1) : S25x16384.Idx → F .f32)
          (kerIx (((cfg0.win 3).blk t).view.emb y) n (by have h : n + 1 ≤ 25 := inb 0; omega)) := by
  obtain ⟨e30, e31, e32, -, -, -, e10, e11, e12, -⟩ := block_rows t
  unfold iblk
  show V m c main_v1 _ = _
  rw [V_slabs]
  refine shapeCast_apply _ _ _ _ ?_
  show (S25x16384.rowMajor _).val = (S25x128x128.rowMajor _).val
  rw [Shape.rowMajor_val_two, Shape.rowMajor_val_three]
  have hy1 : (y 1).val < 128 := (y 1).isLt
  have hy2 : (y 2).val < 128 := (y 2).isLt
  show n * 16384 + ((win0_3.index t (1 : Fin 3) * 128 + 1 * (y 1).val) * 128 + (win0_3.index t (2 : Fin 3) * 128 + 1 * (y 2).val))
    = ((win0_1.index t (0 : Fin 3) * 25 + 1 * (n + 1 * 0)) * 128 + (win0_1.index t (1 : Fin 3) * 128 + 1 * (0 + 1 * (y 1).val))) * 128
      + (win0_1.index t (2 : Fin 3) * 128 + 1 * (0 + 1 * (y 2).val))
  omega

/-- Entry `(a, 0)` of the steps' block at point `t` is the step of image `8t + a`. -/
theorem load_step (c : Dev nD) (t : Fin cfg0.N) (y : S8x128x128.Idx) :
    View.ld (iblk m c 2 t) r0_26 (dix y)
      = (m ((c : Thread nD τ).loc main_arg2) : S256.Idx → F .f32) (dtIx (((cfg0.win 3).blk t).view.emb y)) := by
  obtain ⟨e30, -, -, -, -, -, -, -, -, e20, e21⟩ := block_rows t
  unfold iblk
  show V m c main_v2 _ = _
  rw [V_column]
  refine shapeCast_apply _ _ _ _ ?_
  show (S256.rowMajor _).val = (S256x1.rowMajor _).val
  rw [Shape.rowMajor_val_one, Shape.rowMajor_val_two]
  show win0_3.index t (0 : Fin 3) * 8 + 1 * (y 0).val
    = (win0_2.index t (0 : Fin 2) * 8 + 1 * (0 + 1 * (y 0).val)) * 1 + (win0_2.index t (1 : Fin 2) * 1 + 1 * (0 + 1 * 0))
  omega

/-! ## One point's block, and the whole array -/

theorem zero_offsets : (![0, 0, 0] : Fin 3 → Nat) = fun _ => 0 := funext fun a => by fin_cases a <;> rfl

/-- What the body stores at block index `y` at point `t` is `stencil` of the arguments at the array index of `y`. -/
theorem stored_eq (c : Dev nD) (t : Fin cfg0.N) (y : S8x128x128.Idx) :
    out0_3 (iblk m c 0 t) (iblk m c 1 t) (iblk m c 2 t) y
      = stencil (m ((c : Thread nD τ).loc main_arg0)) (m ((c : Thread nD τ).loc main_arg1))
          (m ((c : Thread nD τ).loc main_arg2)) (((cfg0.win 3).blk t).view.emb y) := by
  unfold out0_3
  rw [View.canon_unit_zero zero_offsets]
  simp only [pay1_apply, pay7_apply, pay6_apply, pay5_apply, pay4_apply, pay3_apply, pay2_eq, btap,
    load_bordered, load_slab, load_step]
  unfold stencil
  rw [← padded_inside (m ((c : Thread nD τ).loc main_arg0)) (((cfg0.win 3).blk t).view.emb y)]
  rfl

/-- Point `t` writes back block `t` of `stencil` of the arguments. -/
theorem flushed_eq (c : Dev nD) (t : Fin cfg0.N) :
    (dats m 0 c).flushed 3 t
      = ((cfg0.win 3).blk t).view.read (Elt F) (stencil (m ((c : Thread nD τ).loc main_arg0))
          (m ((c : Thread nD τ).loc main_arg1)) (m ((c : Thread nD τ).loc main_arg2))) := by
  show (cfg0.win 3).cut (grid0.coords t) ((dats m 0 c).after 3 t) = _
  rw [after0_3]
  funext y
  exact stored_eq m c t y

/-- An index of the result array is in point `t`'s block iff each coordinate is in the block's range on its axis. -/
theorem mem_block (t : Fin cfg0.N) (i : S256x128x128.Idx) :
    i ∈ ((cfg0.win 3).blk t).view.set
      ↔ ∀ a : Fin 3, win0_3.index t a * S8x128x128.size a ≤ (i a).val
          ∧ (i a).val < win0_3.index t a * S8x128x128.size a + S8x128x128.size a := by
  show i ∈ ((View.whole main_v3).slice (win0_3.rect t)).set ↔ _
  rw [View.set_slice_whole, Rect.mem_set_unit]
  exact Iff.rfl

/-- Image `b` lies in the block of point `b / 8`: the 32 blocks tile the result array. -/
theorem covered (i : S256x128x128.Idx) :
    ∃ t : Fin cfg0.N, (cfg0.win 3).flush t = true ∧ i ∈ ((cfg0.win 3).blk t).view.set := by
  have hi0 : (i 0).val < 256 := (i 0).isLt
  have hi1 : (i 1).val < 128 := (i 1).isLt
  have hi2 : (i 2).val < 128 := (i 2).isLt
  have hN : cfg0.N = 32 := N_0
  let t : Fin cfg0.N := ⟨(i 0).val / 8, by omega⟩
  obtain ⟨e30, e31, e32, -⟩ := block_rows t
  have ht : t.val = (i 0).val / 8 := rfl
  refine ⟨t, flush0_3 t, ?_⟩
  rw [mem_block]
  intro a
  match a with
  | ⟨0, _⟩ => show win0_3.index t (0 : Fin 3) * 8 ≤ (i 0).val ∧ (i 0).val < win0_3.index t (0 : Fin 3) * 8 + 8; omega
  | ⟨1, _⟩ => show win0_3.index t (1 : Fin 3) * 128 ≤ (i 1).val ∧ (i 1).val < win0_3.index t (1 : Fin 3) * 128 + 128; omega
  | ⟨2, _⟩ => show win0_3.index t (2 : Fin 3) * 128 ≤ (i 2).val ∧ (i 2).val < win0_3.index t (2 : Fin 3) * 128 + 128; omega

/-- The result array after the run is `stencil` of the three arguments. -/
theorem final (c : Dev nD) :
    (dats m 0 c).arrAt 3 cfg0.N
      = stencil (m ((c : Thread nD τ).loc main_arg0)) (m ((c : Thread nD τ).loc main_arg1))
          (m ((c : Thread nD τ).loc main_arg2)) :=
  (dats m 0 c).arrAt_eq_of_cover 3 _ (fun t _ => flushed_eq m c t) covered

/-- The kernel's run: every weakly fair execution terminates with the result array at `stencil` of the arguments and the
    arguments unchanged. -/
theorem run : θ_run defs (onTc (τ := τ) (main (F := F))) ⟨m, fun _ => 0, ρ⟩ fun r => ∀ c : Dev nD,
      r.2.mem ((c : Thread nD τ).loc main_v3)
        = stencil (m ((c : Thread nD τ).loc main_arg0)) (m ((c : Thread nD τ).loc main_arg1))
            (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h c).1 3).trans (final m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩)
    (run_main m ρ)

end Cert.KernelIdeal.Blocks

end
-- ==== Proof.ReferenceOps.lean ====
/-
  The reference program as a list of its host operations, cut where its mathematics cuts it: a prelude (border the
  images, re-lay the weight table as 5 x 5 x 128 x 128, start the running total at zero), one stretch of seven operations
  per tap, and a coda (multiply by the steps, add the images, clamp). Its @main is these 188 operations run in order.
-/
import proofs.«159623_j87746181857881_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The prelude: the bordered batch, the re-laid weight table, the zero the running total starts from. -/
abbrev prelude : List (HloOp τ sig (Elt F)) :=
  [ nullary main_c (constantI S_ 32 0#32),
    TRef.unary (TRef.of (T := ⟨S_, .i32⟩) main_c) (TRef.of (T := ⟨S_, .f32⟩) main_call0_v0) (sitofp .f32),
    TRef.binary (TRef.of (T := ⟨S256x128x128, .f32⟩) main_arg0) (TRef.of (T := ⟨S_, .f32⟩) main_call0_v0) (TRef.of (T := ⟨S256x132x132, .f32⟩) main_v0) (fun x v => pad S256x132x132 ![0, 2, 2] ![0, 2, 2] ![0, 0, 0] x v pads_S256x128x128_S256x132x132_000_220_220 h_S_),
    reshape main_arg1 main_v1 rfl shapeCasts_S25x16384_S5x5x128x128,
    nullary main_cst (constant S_ .f32 0x00000000#32),
    unary main_cst main_v2 (broadcastInDim S256x128x128 ![] bcast_S_S256x128x128 : (⟨S_, .f32⟩ : BufTy).Contents (Elt F) → (⟨S256x128x128, .f32⟩ : BufTy).Contents (Elt F)) ]

/-- Tap 0, offsets (0, 0): slice the bordered batch, take plane (0, 0) of the re-laid table and lay it under every image,
    multiply, add to the running total. -/
abbrev tapOps0 : List (HloOp τ sig (Elt F)) :=
  [ unary main_v0 main_v3 ((extractStridedSlice S256x128x128 ![0, 0, 0] · slices_S256x132x132_S256x128x128_0_0_0) : (⟨S256x132x132, .f32⟩ : BufTy).Contents (Elt F) → (⟨S256x128x128, .f32⟩ : BufTy).Contents (Elt F)),
    unary main_v1 main_v4 ((extractStridedSlice S1x1x128x128 ![0, 0, 0, 0] · slices_S5x5x128x128_S1x1x128x128_0_0_0_0) : (⟨S5x5x128x128, .f32⟩ : BufTy).Contents (Elt F) → (⟨S1x1x128x128, .f32⟩ : BufTy).Contents (Elt F)),
    reshape main_v4 main_v5 rfl shapeCasts_S1x1x128x128_S128x128,
    unary main_v5 main_v6 (broadcastInDim S1x128x128 ![1, 2] bcast_S128x128_S1x128x128_1_2 : (⟨S128x128, .f32⟩ : BufTy).Contents (Elt F) → (⟨S1x128x128, .f32⟩ : BufTy).Contents (Elt F)),
    unary main_v6 main_v7 (broadcastInDim S256x128x128 ![0, 1, 2] bcast_S1x128x128_S256x128x128_0_1_2 : (⟨S1x128x128, .f32⟩ : BufTy).Contents (Elt F) → (⟨S256x128x128, .f32⟩ : BufTy).Contents (Elt F)),
    binary main_v3 main_v7 main_v8 (mulf : (⟨S256x128x128, .f32⟩ : BufTy).Contents (Elt F) → (⟨S256x128x128, .f32⟩ : BufTy).Contents (Elt F) → (⟨S256x128x128, .f32⟩ : BufTy).Contents (Elt F)),
    binary main_v2 main_v8 main_v9 (addf : (⟨S256x128x128, .f32⟩ : BufTy).Contents (Elt F) → (⟨S256x128x128, .f32⟩ : BufTy).Contents (Elt F) → (⟨S256x128x128, .f32⟩ : BufTy).Contents (Elt F)) ]

/-- Tap 1, offsets (0, 1): slice the bordered batch, take plane (0, 1) of the re-laid table and lay it under every image,
    multiply, add to the running total. -/
abbrev tapOps1 : List (HloOp τ sig (Elt F)) :=
  [ unary main_v0 main_v10 ((extractStridedSlice S256x128x128 ![0, 0, 1] · slices_S256x132x132_S256x128x128_0_0_1) : (⟨S256x132x132, .f32⟩ : BufTy).Contents (Elt F) → (⟨S256x128x128, .f32⟩ : BufTy).Contents (Elt F)),
    unary main_v1 main_v11 ((extractStridedSlice S1x1x128x128 ![0, 1, 0, 0] · slices_S5x5x128x128_S1x1x128x128_0_1_0_0) : (⟨S5x5x128x128, .f32⟩ : BufTy).Contents (Elt F) → (⟨S1x1x128x128, .f32⟩ : BufTy).Contents (Elt F)),
    reshape main_v11 main_v12 rfl shapeCasts_S1x1x128x128_S128x128,
    unary main_v12 main_v13 (broadcastInDim S1x128x128 ![1, 2] bcast_S128x128_S1x128x128_1_2 : (⟨S128x128, .f32⟩ : BufTy).Contents (Elt F) → (⟨S1x128x128, .f32⟩ : BufTy).Contents (Elt F)),
    unary main_v13 main_v14 (broadcastInDim S256x128x128 ![0, 1, 2] bcast_S1x128x128_S256x128x128_0_1_2 : (⟨S1x128x128, .f32⟩ : BufTy).Contents (Elt F) → (⟨S256x128x128, .f32⟩ : BufTy).Contents (Elt F)),
    binary main_v10 main_v14 main_v15 (mulf : (⟨S256x128x128, .f32⟩ : BufTy).Contents (Elt F) → (⟨S256x128x128, .f32⟩ : BufTy).Contents (Elt F) → (⟨S256x128x128, .f32⟩ : BufTy).Contents (Elt F)),
    binary main_v9 main_v15 main_v16 (addf : (⟨S256x128x128, .f32⟩ : BufTy).Contents (Elt F) → (⟨S256x128x128, .f32⟩ : BufTy).Contents (Elt F) → (⟨S256x128x128, .f32⟩ : BufTy).Contents (Elt F)) ]

/-- Tap 2, offsets (0, 2): slice the bordered batch, take plane (0, 2) of the re-laid table and lay it under every image,
    multiply, add to the running total. -/
abbrev tapOps2 : List (HloOp τ sig (Elt F)) :=
  [ unary main_v0 main_v17 ((extractStridedSlice S256x128x128 ![0, 0, 2] · slices_S256x132x132_S256x128x128_0_0_2) : (⟨S256x132x132, .f32⟩ : BufTy).Contents (Elt F) → (⟨S256x128x128, .f32⟩ : BufTy).Contents (Elt F)),
    unary main_v1 main_v18 ((extractStridedSlice S1x1x128x128 ![0, 2, 0, 0] · slices_S5x5x128x128_S1x1x128x128_0_2_0_0) : (⟨S5x5x128x128, .f32⟩ : BufTy).Contents (Elt F) → (⟨S1x1x128x128, .f32⟩ : BufTy).Contents (Elt F)),
    reshape main_v18 main_v19 rfl shapeCasts_S1x1x128x128_S128x128,
    unary main_v19 main_v20 (broadcastInDim S1x128x128 ![1, 2] bcast_S128x128_S1x128x128_1_2 : (⟨S128x128, .f32⟩ : BufTy).Contents (Elt F) → (⟨S1x128x128, .f32⟩ : BufTy).Contents (Elt F)),
    unary main_v20 main_v21 (broadcastInDim S256x128x128 ![0, 1, 2] bcast_S1x128x128_S256x128x128_0_1_2 : (⟨S1x128x128, .f32⟩ : BufTy).Contents (Elt F) → (⟨S256x128x128, .f32⟩ : BufTy).Contents (Elt F)),
    binary main_v17 main_v21 main_v22 (mulf : (⟨S256x128x128, .f32⟩ : BufTy).Contents (Elt F) → (⟨S256x128x128, .f32⟩ : BufTy).Contents (Elt F) → (⟨S256x128x128, .f32⟩ : BufTy).Contents (Elt F)),
    binary main_v16 main_v22 main_v23 (addf : (⟨S256x128x128, .f32⟩ : BufTy).Contents (Elt F) → (⟨S256x128x128, .f32⟩ : BufTy).Contents (Elt F) → (⟨S256x128x128, .f32⟩ : BufTy).Contents (Elt F)) ]

/-- Tap 3, offsets (0, 3): slice the bordered batch, take plane (0, 3) of the re-laid table and lay it under every image,
    multiply, add to the running total. -/
abbrev tapOps3 : List (HloOp τ sig (Elt F)) :=
  [ unary main_v0 main_v24 ((extractStridedSlice S256x128x128 ![0, 0, 3] · slices_S256x132x132_S256x128x128_0_0_3) : (⟨S256x132x132, .f32⟩ : BufTy).Contents (Elt F) → (⟨S256x128x128, .f32⟩ : BufTy).Contents (Elt F)),
    unary main_v1 main_v25 ((extractStridedSlice S1x1x128x128 ![0, 3, 0, 0] · slices_S5x5x128x128_S1x1x128x128_0_3_0_0) : (⟨S5x5x128x128, .f32⟩ : BufTy).Contents (Elt F) → (⟨S1x1x128x128, .f32⟩ : BufTy).Contents (Elt F)),
    reshape main_v25 main_v26 rfl shapeCasts_S1x1x128x128_S128x128,
    unary main_v26 main_v27 (broadcastInDim S1x128x128 ![1, 2] bcast_S128x128_S1x128x128_1_2 : (⟨S128x128, .f32⟩ : BufTy).Contents (Elt F) → (⟨S1x128x128, .f32⟩ : BufTy).Contents (Elt F)),
    unary main_v27 main_v28 (broadcastInDim S256x128x128 ![0, 1, 2] bcast_S1x128x128_S256x128x128_0_1_2 : (⟨S1x128x128, .f32⟩ : BufTy).Contents (Elt F) → (⟨S256x128x128, .f32⟩ : BufTy).Contents (Elt F)),
    binary main_v24 main_v28 main_v29 (mulf : (⟨S256x128x128, .f32⟩ : BufTy).Contents (Elt F) → (⟨S256x128x128, .f32⟩ : BufTy).Contents (Elt F) → (⟨S256x128x128, .f32⟩ : BufTy).Contents (Elt F)),
    binary main_v23 main_v29 main_v30 (addf : (⟨S256x128x128, .f32⟩ : BufTy).Contents (Elt F) → (⟨S256x128x128, .f32⟩ : BufTy).Contents (Elt F) → (⟨S256x128x128, .f32⟩ : BufTy).Contents (Elt F)) ]

/-- Tap 4, offsets (0, 4): slice the bordered batch, take plane (0, 4) of the re-laid table and lay it under every image,
    multiply, add to the running total. -/
abbrev tapOps4 : List (HloOp τ sig (Elt F)) :=
  [ unary main_v0 main_v31 ((extractStridedSlice S256x128x128 ![0, 0, 4] · slices_S256x132x132_S256x128x128_0_0_4) : (⟨S256x132x132, .f32⟩ : BufTy).Contents (Elt F) → (⟨S256x128x128, .f32⟩ : BufTy).Contents (Elt F)),
    unary main_v1 main_v32 ((extractStridedSlice S1x1x128x128 ![0, 4, 0, 0] · slices_S5x5x128x128_S1x1x128x128_0_4_0_0) : (⟨S5x5x128x128, .f32⟩ : BufTy).Contents (Elt F) → (⟨S1x1x128x128, .f32⟩ : BufTy).Contents (Elt F)),
    reshape main_v32 main_v33 rfl shapeCasts_S1x1x128x128_S128x128,
    unary main_v33 main_v34 (broadcastInDim S1x128x128 ![1, 2] bcast_S128x128_S1x128x128_1_2 : (⟨S128x128, .f32⟩ : BufTy).Contents (Elt F) → (⟨S1x128x128, .f32⟩ : BufTy).Contents (Elt F)),
    unary main_v34 main_v35 (broadcastInDim S256x128x128 ![0, 1, 2] bcast_S1x128x128_S256x128x128_0_1_2 : (⟨S1x128x128, .f32⟩ : BufTy).Contents (Elt F) → (⟨S256x128x128, .f32⟩ : BufTy).Contents (Elt F)),
    binary main_v31 main_v35 main_v36 (mulf : (⟨S256x128x128, .f32⟩ : BufTy).Contents (Elt F) → (⟨S256x128x128, .f32⟩ : BufTy).Contents (Elt F) → (⟨S256x128x128, .f32⟩ : BufTy).Contents (Elt F)),
    binary main_v30 main_v36 main_v37 (addf : (⟨S256x128x128, .f32⟩ : BufTy).Contents (Elt F) → (⟨S256x128x128, .f32⟩ : BufTy).Contents (Elt F) → (⟨S256x128x128, .f32⟩ : BufTy).Contents (Elt F)) ]

/-- Tap 5, offsets (1, 0): slice the bordered batch, take plane (1, 0) of the re-laid table and lay it under every image,
    multiply, add to the running total. -/
abbrev tapOps5 : List (HloOp τ sig (Elt F)) :=
  [ unary main_v0 main_v38 ((extractStridedSlice S256x128x128 ![0, 1, 0] · slices_S256x132x132_S256x128x128_0_1_0) : (⟨S256x132x132, .f32⟩ : BufTy).Contents (Elt F) → (⟨S256x128x128, .f32⟩ : BufTy).Contents (Elt F)),
    unary main_v1 main_v39 ((extractStridedSlice S1x1x128x128 ![1, 0, 0, 0] · slices_S5x5x128x128_S1x1x128x128_1_0_0_0) : (⟨S5x5x128x128, .f32⟩ : BufTy).Contents (Elt F) → (⟨S1x1x128x128, .f32⟩ : BufTy).Contents (Elt F)),
    reshape main_v39 main_v40 rfl shapeCasts_S1x1x128x128_S128x128,
    unary main_v40 main_v41 (broadcastInDim S1x128x128 ![1, 2] bcast_S128x128_S1x128x128_1_2 : (⟨S128x128, .f32⟩ : BufTy).Contents (Elt F) → (⟨S1x128x128, .f32⟩ : BufTy).Contents (Elt F)),
    unary main_v41 main_v42 (broadcastInDim S256x128x128 ![0, 1, 2] bcast_S1x128x128_S256x128x128_0_1_2 : (⟨S1x128x128, .f32⟩ : BufTy).Contents (Elt F) → (⟨S256x128x128, .f32⟩ : BufTy).Contents (Elt F)),
    binary main_v38 main_v42 main_v43 (mulf : (⟨S256x128x128, .f32⟩ : BufTy).Contents (Elt F) → (⟨S256x128x128, .f32⟩ : BufTy).Contents (Elt F) → (⟨S256x128x128, .f32⟩ : BufTy).Contents (Elt F)),
    binary main_v37 main_v43 main_v44 (addf : (⟨S256x128x128, .f32⟩ : BufTy).Contents (Elt F) → (⟨S256x128x128, .f32⟩ : BufTy).Contents (Elt F) → (⟨S256x128x128, .f32⟩ : BufTy).Contents (Elt F)) ]

/-- Tap 6, offsets (1, 1): slice the bordered batch, take plane (1, 1) of the re-laid table and lay it under every image,
    multiply, add to the running total. -/
abbrev tapOps6 : List (HloOp τ sig (Elt F)) :=
  [ unary main_v0 main_v45 ((extractStridedSlice S256x128x128 ![0, 1, 1] · slices_S256x132x132_S256x128x128_0_1_1) : (⟨S256x132x132, .f32⟩ : BufTy).Contents (Elt F) → (⟨S256x128x128, .f32⟩ : BufTy).Contents (Elt F)),
    unary main_v1 main_v46 ((extractStridedSlice S1x1x128x128 ![1, 1, 0, 0] · slices_S5x5x128x128_S1x1x128x128_1_1_0_0) : (⟨S5x5x128x128, .f32⟩ : BufTy).Contents (Elt F) → (⟨S1x1x128x128, .f32⟩ : BufTy).Contents (Elt F)),
    reshape main_v46 main_v47 rfl shapeCasts_S1x1x128x128_S128x128,
    unary main_v47 main_v48 (broadcastInDim S1x128x128 ![1, 2] bcast_S128x128_S1x128x128_1_2 : (⟨S128x128, .f32⟩ : BufTy).Contents (Elt F) → (⟨S1x128x128, .f32⟩ : BufTy).Contents (Elt F)),
    unary main_v48 main_v49 (broadcastInDim S256x128x128 ![0, 1, 2] bcast_S1x128x128_S256x128x128_0_1_2 : (⟨S1x128x128, .f32⟩ : BufTy).Contents (Elt F) → (⟨S256x128x128, .f32⟩ : BufTy).Contents (Elt F)),
    binary main_v45 main_v49 main_v50 (mulf : (⟨S256x128x128, .f32⟩ : BufTy).Contents (Elt F) → (⟨S256x128x128, .f32⟩ : BufTy).Contents (Elt F) → (⟨S256x128x128, .f32⟩ : BufTy).Contents (Elt F)),
    binary main_v44 main_v50 main_v51 (addf : (⟨S256x128x128, .f32⟩ : BufTy).Contents (Elt F) → (⟨S256x128x128, .f32⟩ : BufTy).Contents (Elt F) → (⟨S256x128x128, .f32⟩ : BufTy).Contents (Elt F)) ]

/-- Tap 7, offsets (1, 2): slice the bordered batch, take plane (1, 2) of the re-laid table and lay it under every image,
    multiply, add to the running total. -/
abbrev tapOps7 : List (HloOp τ sig (Elt F)) :=
  [ unary main_v0 main_v52 ((extractStridedSlice S256x128x128 ![0, 1, 2] · slices_S256x132x132_S256x128x128_0_1_2) : (⟨S256x132x132, .f32⟩ : BufTy).Contents (Elt F) → (⟨S256x128x128, .f32⟩ : BufTy).Contents (Elt F)),
    unary main_v1 main_v53 ((extractStridedSlice S1x1x128x128 ![1, 2, 0, 0] · slices_S5x5x128x128_S1x1x128x128_1_2_0_0) : (⟨S5x5x128x128, .f32⟩ : BufTy).Contents (Elt F) → (⟨S1x1x128x128, .f32⟩ : BufTy).Contents (Elt F)),
    reshape main_v53 main_v54 rfl shapeCasts_S1x1x128x128_S128x128,
    unary main_v54 main_v55 (broadcastInDim S1x128x128 ![1, 2] bcast_S128x128_S1x128x128_1_2 : (⟨S128x128, .f32⟩ : BufTy).Contents (Elt F) → (⟨S1x128x128, .f32⟩ : BufTy).Contents (Elt F)),
    unary main_v55 main_v56 (broadcastInDim S256x128x128 ![0, 1, 2] bcast_S1x128x128_S256x128x128_0_1_2 : (⟨S1x128x128, .f32⟩ : BufTy).Contents (Elt F) → (⟨S256x128x128, .f32⟩ : BufTy).Contents (Elt F)),
    binary main_v52 main_v56 main_v57 (mulf : (⟨S256x128x128, .f32⟩ : BufTy).Contents (Elt F) → (⟨S256x128x128, .f32⟩ : BufTy).Contents (Elt F) → (⟨S256x128x128, .f32⟩ : BufTy).Contents (Elt F)),
    binary main_v51 main_v57 main_v58 (addf : (⟨S256x128x128, .f32⟩ : BufTy).Contents (Elt F) → (⟨S256x128x128, .f32⟩ : BufTy).Contents (Elt F) → (⟨S256x128x128, .f32⟩ : BufTy).Contents (Elt F)) ]

/-- Tap 8, offsets (1, 3): slice the bordered batch, take plane (1, 3) of the re-laid table and lay it under every image,
    multiply, add to the running total. -/
abbrev tapOps8 : List (HloOp τ sig (Elt F)) :=
  [ unary main_v0 main_v59 ((extractStridedSlice S256x128x128 ![0, 1, 3] · slices_S256x132x132_S256x128x128_0_1_3) : (⟨S256x132x132, .f32⟩ : BufTy).Contents (Elt F) → (⟨S256x128x128, .f32⟩ : BufTy).Contents (Elt F)),
    unary main_v1 main_v60 ((extractStridedSlice S1x1x128x128 ![1, 3, 0, 0] · slices_S5x5x128x128_S1x1x128x128_1_3_0_0) : (⟨S5x5x128x128, .f32⟩ : BufTy).Contents (Elt F) → (⟨S1x1x128x128, .f32⟩ : BufTy).Contents (Elt F)),
    reshape main_v60 main_v61 rfl shapeCasts_S1x1x128x128_S128x128,
    unary main_v61 main_v62 (broadcastInDim S1x128x128 ![1, 2] bcast_S128x128_S1x128x128_1_2 : (⟨S128x128, .f32⟩ : BufTy).Contents (Elt F) → (⟨S1x128x128, .f32⟩ : BufTy).Contents (Elt F)),
    unary main_v62 main_v63 (broadcastInDim S256x128x128 ![0, 1, 2] bcast_S1x128x128_S256x128x128_0_1_2 : (⟨S1x128x128, .f32⟩ : BufTy).Contents (Elt F) → (⟨S256x128x128, .f32⟩ : BufTy).Contents (Elt F)),
    binary main_v59 main_v63 main_v64 (mulf : (⟨S256x128x128, .f32⟩ : BufTy).Contents (Elt F) → (⟨S256x128x128, .f32⟩ : BufTy).Contents (Elt F) → (⟨S256x128x128, .f32⟩ : BufTy).Contents (Elt F)),
    binary main_v58 main_v64 main_v65 (addf : (⟨S256x128x128, .f32⟩ : BufTy).Contents (Elt F) → (⟨S256x128x128, .f32⟩ : BufTy).Contents (Elt F) → (⟨S256x128x128, .f32⟩ : BufTy).Contents (Elt F)) ]

/-- Tap 9, offsets (1, 4): slice the bordered batch, take plane (1, 4) of the re-laid table and lay it under every image,
    multiply, add to the running total. -/
abbrev tapOps9 : List (HloOp τ sig (Elt F)) :=
  [ unary main_v0 main_v66 ((extractStridedSlice S256x128x128 ![0, 1, 4] · slices_S256x132x132_S256x128x128_0_1_4) : (⟨S256x132x132, .f32⟩ : BufTy).Contents (Elt F) → (⟨S256x128x128, .f32⟩ : BufTy).Contents (Elt F)),
    unary main_v1 main_v67 ((extractStridedSlice S1x1x128x128 ![1, 4, 0, 0] · slices_S5x5x128x128_S1x1x128x128_1_4_0_0) : (⟨S5x5x128x128, .f32⟩ : BufTy).Contents (Elt F) → (⟨S1x1x128x128, .f32⟩ : BufTy).Contents (Elt F)),
    reshape main_v67 main_v68 rfl shapeCasts_S1x1x128x128_S128x128,
    unary main_v68 main_v69 (broadcastInDim S1x128x128 ![1, 2] bcast_S128x128_S1x128x128_1_2 : (⟨S128x128, .f32⟩ : BufTy).Contents (Elt F) → (⟨S1x128x128, .f32⟩ : BufTy).Contents (Elt F)),
    unary main_v69 main_v70 (broadcastInDim S256x128x128 ![0, 1, 2] bcast_S1x128x128_S256x128x128_0_1_2 : (⟨S1x128x128, .f32⟩ : BufTy).Contents (Elt F) → (⟨S256x128x128, .f32⟩ : BufTy).Contents (Elt F)),
    binary main_v66 main_v70 main_v71 (mulf : (⟨S256x128x128, .f32⟩ : BufTy).Contents (Elt F) → (⟨S256x128x128, .f32⟩ : BufTy).Contents (Elt F) → (⟨S256x128x128, .f32⟩ : BufTy).Contents (Elt F)),
    binary main_v65 main_v71 main_v72 (addf : (⟨S256x128x128, .f32⟩ : BufTy).Contents (Elt F) → (⟨S256x128x128, .f32⟩ : BufTy).Contents (Elt F) → (⟨S256x128x128, .f32⟩ : BufTy).Contents (Elt F)) ]

/-- Tap 10, offsets (2, 0): slice the bordered batch, take plane (2, 0) of the re-laid table and lay it under every image,
    multiply, add to the running total. -/
abbrev tapOps10 : List (HloOp τ sig (Elt F)) :=
  [ unary main_v0 main_v73 ((extractStridedSlice S256x128x128 ![0, 2, 0] · slices_S256x132x132_S256x128x128_0_2_0) : (⟨S256x132x132, .f32⟩ : BufTy).Contents (Elt F) → (⟨S256x128x128, .f32⟩ : BufTy).Contents (Elt F)),
    unary main_v1 main_v74 ((extractStridedSlice S1x1x128x128 ![2, 0, 0, 0] · slices_S5x5x128x128_S1x1x128x128_2_0_0_0) : (⟨S5x5x128x128, .f32⟩ : BufTy).Contents (Elt F) → (⟨S1x1x128x128, .f32⟩ : BufTy).Contents (Elt F)),
    reshape main_v74 main_v75 rfl shapeCasts_S1x1x128x128_S128x128,
    unary main_v75 main_v76 (broadcastInDim S1x128x128 ![1, 2] bcast_S128x128_S1x128x128_1_2 : (⟨S128x128, .f32⟩ : BufTy).Contents (Elt F) → (⟨S1x128x128, .f32⟩ : BufTy).Contents (Elt F)),
    unary main_v76 main_v77 (broadcastInDim S256x128x128 ![0, 1, 2] bcast_S1x128x128_S256x128x128_0_1_2 : (⟨S1x128x128, .f32⟩ : BufTy).Contents (Elt F) → (⟨S256x128x128, .f32⟩ : BufTy).Contents (Elt F)),
    binary main_v73 main_v77 main_v78 (mulf : (⟨S256x128x128, .f32⟩ : BufTy).Contents (Elt F) → (⟨S256x128x128, .f32⟩ : BufTy).Contents (Elt F) → (⟨S256x128x128, .f32⟩ : BufTy).Contents (Elt F)),
    binary main_v72 main_v78 main_v79 (addf : (⟨S256x128x128, .f32⟩ : BufTy).Contents (Elt F) → (⟨S256x128x128, .f32⟩ : BufTy).Contents (Elt F) → (⟨S256x128x128, .f32⟩ : BufTy).Contents (Elt F)) ]

/-- Tap 11, offsets (2, 1): slice the bordered batch, take plane (2, 1) of the re-laid table and lay it under every image,
    multiply, add to the running total. -/
abbrev tapOps11 : List (HloOp τ sig (Elt F)) :=
  [ unary main_v0 main_v80 ((extractStridedSlice S256x128x128 ![0, 2, 1] · slices_S256x132x132_S256x128x128_0_2_1) : (⟨S256x132x132, .f32⟩ : BufTy).Contents (Elt F) → (⟨S256x128x128, .f32⟩ : BufTy).Contents (Elt F)),
    unary main_v1 main_v81 ((extractStridedSlice S1x1x128x128 ![2, 1, 0, 0] · slices_S5x5x128x128_S1x1x128x128_2_1_0_0) : (⟨S5x5x128x128, .f32⟩ : BufTy).Contents (Elt F) → (⟨S1x1x128x128, .f32⟩ : BufTy).Contents (Elt F)),
    reshape main_v81 main_v82 rfl shapeCasts_S1x1x128x128_S128x128,
    unary main_v82 main_v83 (broadcastInDim S1x128x128 ![1, 2] bcast_S128x128_S1x128x128_1_2 : (⟨S128x128, .f32⟩ : BufTy).Contents (Elt F) → (⟨S1x128x128, .f32⟩ : BufTy).Contents (Elt F)),
    unary main_v83 main_v84 (broadcastInDim S256x128x128 ![0, 1, 2] bcast_S1x128x128_S256x128x128_0_1_2 : (⟨S1x128x128, .f32⟩ : BufTy).Contents (Elt F) → (⟨S256x128x128, .f32⟩ : BufTy).Contents (Elt F)),
    binary main_v80 main_v84 main_v85 (mulf : (⟨S256x128x128, .f32⟩ : BufTy).Contents (Elt F) → (⟨S256x128x128, .f32⟩ : BufTy).Contents (Elt F) → (⟨S256x128x128, .f32⟩ : BufTy).Contents (Elt F)),
    binary main_v79 main_v85 main_v86 (addf : (⟨S256x128x128, .f32⟩ : BufTy).Contents (Elt F) → (⟨S256x128x128, .f32⟩ : BufTy).Contents (Elt F) → (⟨S256x128x128, .f32⟩ : BufTy).Contents (Elt F)) ]

/-- Tap 12, offsets (2, 2): slice the bordered batch, take plane (2, 2) of the re-laid table and lay it under every image,
    multiply, add to the running total. -/
abbrev tapOps12 : List (HloOp τ sig (Elt F)) :=
  [ unary main_v0 main_v87 ((extractStridedSlice S256x128x128 ![0, 2, 2] · slices_S256x132x132_S256x128x128_0_2_2) : (⟨S256x132x132, .f32⟩ : BufTy).Contents (Elt F) → (⟨S256x128x128, .f32⟩ : BufTy).Contents (Elt F)),
    unary main_v1 main_v88 ((extractStridedSlice S1x1x128x128 ![2, 2, 0, 0] · slices_S5x5x128x128_S1x1x128x128_2_2_0_0) : (⟨S5x5x128x128, .f32⟩ : BufTy).Contents (Elt F) → (⟨S1x1x128x128, .f32⟩ : BufTy).Contents (Elt F)),
    reshape main_v88 main_v89 rfl shapeCasts_S1x1x128x128_S128x128,
    unary main_v89 main_v90 (broadcastInDim S1x128x128 ![1, 2] bcast_S128x128_S1x128x128_1_2 : (⟨S128x128, .f32⟩ : BufTy).Contents (Elt F) → (⟨S1x128x128, .f32⟩ : BufTy).Contents (Elt F)),
    unary main_v90 main_v91 (broadcastInDim S256x128x128 ![0, 1, 2] bcast_S1x128x128_S256x128x128_0_1_2 : (⟨S1x128x128, .f32⟩ : BufTy).Contents (Elt F) → (⟨S256x128x128, .f32⟩ : BufTy).Contents (Elt F)),
    binary main_v87 main_v91 main_v92 (mulf : (⟨S256x128x128, .f32⟩ : BufTy).Contents (Elt F) → (⟨S256x128x128, .f32⟩ : BufTy).Contents (Elt F) → (⟨S256x128x128, .f32⟩ : BufTy).Contents (Elt F)),
    binary main_v86 main_v92 main_v93 (addf : (⟨S256x128x128, .f32⟩ : BufTy).Contents (Elt F) → (⟨S256x128x128, .f32⟩ : BufTy).Contents (Elt F) → (⟨S256x128x128, .f32⟩ : BufTy).Contents (Elt F)) ]

/-- Tap 13, offsets (2, 3): slice the bordered batch, take plane (2, 3) of the re-laid table and lay it under every image,
    multiply, add to the running total. -/
abbrev tapOps13 : List (HloOp τ sig (Elt F)) :=
  [ unary main_v0 main_v94 ((extractStridedSlice S256x128x128 ![0, 2, 3] · slices_S256x132x132_S256x128x128_0_2_3) : (⟨S256x132x132, .f32⟩ : BufTy).Contents (Elt F) → (⟨S256x128x128, .f32⟩ : BufTy).Contents (Elt F)),
    unary main_v1 main_v95 ((extractStridedSlice S1x1x128x128 ![2, 3, 0, 0] · slices_S5x5x128x128_S1x1x128x128_2_3_0_0) : (⟨S5x5x128x128, .f32⟩ : BufTy).Contents (Elt F) → (⟨S1x1x128x128, .f32⟩ : BufTy).Contents (Elt F)),
    reshape main_v95 main_v96 rfl shapeCasts_S1x1x128x128_S128x128,
    unary main_v96 main_v97 (broadcastInDim S1x128x128 ![1, 2] bcast_S128x128_S1x128x128_1_2 : (⟨S128x128, .f32⟩ : BufTy).Contents (Elt F) → (⟨S1x128x128, .f32⟩ : BufTy).Contents (Elt F)),
    unary main_v97 main_v98 (broadcastInDim S256x128x128 ![0, 1, 2] bcast_S1x128x128_S256x128x128_0_1_2 : (⟨S1x128x128, .f32⟩ : BufTy).Contents (Elt F) → (⟨S256x128x128, .f32⟩ : BufTy).Contents (Elt F)),
    binary main_v94 main_v98 main_v99 (mulf : (⟨S256x128x128, .f32⟩ : BufTy).Contents (Elt F) → (⟨S256x128x128, .f32⟩ : BufTy).Contents (Elt F) → (⟨S256x128x128, .f32⟩ : BufTy).Contents (Elt F)),
    binary main_v93 main_v99 main_v100 (addf : (⟨S256x128x128, .f32⟩ : BufTy).Contents (Elt F) → (⟨S256x128x128, .f32⟩ : BufTy).Contents (Elt F) → (⟨S256x128x128, .f32⟩ : BufTy).Contents (Elt F)) ]

/-- Tap 14, offsets (2, 4): slice the bordered batch, take plane (2, 4) of the re-laid table and lay it under every image,
    multiply, add to the running total. -/
abbrev tapOps14 : List (HloOp τ sig (Elt F)) :=
  [ unary main_v0 main_v101 ((extractStridedSlice S256x128x128 ![0, 2, 4] · slices_S256x132x132_S256x128x128_0_2_4) : (⟨S256x132x132, .f32⟩ : BufTy).Contents (Elt F) → (⟨S256x128x128, .f32⟩ : BufTy).Contents (Elt F)),
    unary main_v1 main_v102 ((extractStridedSlice S1x1x128x128 ![2, 4, 0, 0] · slices_S5x5x128x128_S1x1x128x128_2_4_0_0) : (⟨S5x5x128x128, .f32⟩ : BufTy).Contents (Elt F) → (⟨S1x1x128x128, .f32⟩ : BufTy).Contents (Elt F)),
    reshape main_v102 main_v103 rfl shapeCasts_S1x1x128x128_S128x128,
    unary main_v103 main_v104 (broadcastInDim S1x128x128 ![1, 2] bcast_S128x128_S1x128x128_1_2 : (⟨S128x128, .f32⟩ : BufTy).Contents (Elt F) → (⟨S1x128x128, .f32⟩ : BufTy).Contents (Elt F)),
    unary main_v104 main_v105 (broadcastInDim S256x128x128 ![0, 1, 2] bcast_S1x128x128_S256x128x128_0_1_2 : (⟨S1x128x128, .f32⟩ : BufTy).Contents (Elt F) → (⟨S256x128x128, .f32⟩ : BufTy).Contents (Elt F)),
    binary main_v101 main_v105 main_v106 (mulf : (⟨S256x128x128, .f32⟩ : BufTy).Contents (Elt F) → (⟨S256x128x128, .f32⟩ : BufTy).Contents (Elt F) → (⟨S256x128x128, .f32⟩ : BufTy).Contents (Elt F)),
    binary main_v100 main_v106 main_v107 (addf : (⟨S256x128x128, .f32⟩ : BufTy).Contents (Elt F) → (⟨S256x128x128, .f32⟩ : BufTy).Contents (Elt F) → (⟨S256x128x128, .f32⟩ : BufTy).Contents (Elt F)) ]

/-- Tap 15, offsets (3, 0): slice the bordered batch, take plane (3, 0) of the re-laid table and lay it under every image,
    multiply, add to the running total. -/
abbrev tapOps15 : List (HloOp τ sig (Elt F)) :=
  [ unary main_v0 main_v108 ((extractStridedSlice S256x128x128 ![0, 3, 0] · slices_S256x132x132_S256x128x128_0_3_0) : (⟨S256x132x132, .f32⟩ : BufTy).Contents (Elt F) → (⟨S256x128x128, .f32⟩ : BufTy).Contents (Elt F)),
    unary main_v1 main_v109 ((extractStridedSlice S1x1x128x128 ![3, 0, 0, 0] · slices_S5x5x128x128_S1x1x128x128_3_0_0_0) : (⟨S5x5x128x128, .f32⟩ : BufTy).Contents (Elt F) → (⟨S1x1x128x128, .f32⟩ : BufTy).Contents (Elt F)),
    reshape main_v109 main_v110 rfl shapeCasts_S1x1x128x128_S128x128,
    unary main_v110 main_v111 (broadcastInDim S1x128x128 ![1, 2] bcast_S128x128_S1x128x128_1_2 : (⟨S128x128, .f32⟩ : BufTy).Contents (Elt F) → (⟨S1x128x128, .f32⟩ : BufTy).Contents (Elt F)),
    unary main_v111 main_v112 (broadcastInDim S256x128x128 ![0, 1, 2] bcast_S1x128x128_S256x128x128_0_1_2 : (⟨S1x128x128, .f32⟩ : BufTy).Contents (Elt F) → (⟨S256x128x128, .f32⟩ : BufTy).Contents (Elt F)),
    binary main_v108 main_v112 main_v113 (mulf : (⟨S256x128x128, .f32⟩ : BufTy).Contents (Elt F) → (⟨S256x128x128, .f32⟩ : BufTy).Contents (Elt F) → (⟨S256x128x128, .f32⟩ : BufTy).Contents (Elt F)),
    binary main_v107 main_v113 main_v114 (addf : (⟨S256x128x128, .f32⟩ : BufTy).Contents (Elt F) → (⟨S256x128x128, .f32⟩ : BufTy).Contents (Elt F) → (⟨S256x128x128, .f32⟩ : BufTy).Contents (Elt F)) ]

/-- Tap 16, offsets (3, 1): slice the bordered batch, take plane (3, 1) of the re-laid table and lay it under every image,
    multiply, add to the running total. -/
abbrev tapOps16 : List (HloOp τ sig (Elt F)) :=
  [ unary main_v0 main_v115 ((extractStridedSlice S256x128x128 ![0, 3, 1] · slices_S256x132x132_S256x128x128_0_3_1) : (⟨S256x132x132, .f32⟩ : BufTy).Contents (Elt F) → (⟨S256x128x128, .f32⟩ : BufTy).Contents (Elt F)),
    unary main_v1 main_v116 ((extractStridedSlice S1x1x128x128 ![3, 1, 0, 0] · slices_S5x5x128x128_S1x1x128x128_3_1_0_0) : (⟨S5x5x128x128, .f32⟩ : BufTy).Contents (Elt F) → (⟨S1x1x128x128, .f32⟩ : BufTy).Contents (Elt F)),
    reshape main_v116 main_v117 rfl shapeCasts_S1x1x128x128_S128x128,
    unary main_v117 main_v118 (broadcastInDim S1x128x128 ![1, 2] bcast_S128x128_S1x128x128_1_2 : (⟨S128x128, .f32⟩ : BufTy).Contents (Elt F) → (⟨S1x128x128, .f32⟩ : BufTy).Contents (Elt F)),
    unary main_v118 main_v119 (broadcastInDim S256x128x128 ![0, 1, 2] bcast_S1x128x128_S256x128x128_0_1_2 : (⟨S1x128x128, .f32⟩ : BufTy).Contents (Elt F) → (⟨S256x128x128, .f32⟩ : BufTy).Contents (Elt F)),
    binary main_v115 main_v119 main_v120 (mulf : (⟨S256x128x128, .f32⟩ : BufTy).Contents (Elt F) → (⟨S256x128x128, .f32⟩ : BufTy).Contents (Elt F) → (⟨S256x128x128, .f32⟩ : BufTy).Contents (Elt F)),
    binary main_v114 main_v120 main_v121 (addf : (⟨S256x128x128, .f32⟩ : BufTy).Contents (Elt F) → (⟨S256x128x128, .f32⟩ : BufTy).Contents (Elt F) → (⟨S256x128x128, .f32⟩ : BufTy).Contents (Elt F)) ]

/-- Tap 17, offsets (3, 2): slice the bordered batch, take plane (3, 2) of the re-laid table and lay it under every image,
    multiply, add to the running total. -/
abbrev tapOps17 : List (HloOp τ sig (Elt F)) :=
  [ unary main_v0 main_v122 ((extractStridedSlice S256x128x128 ![0, 3, 2] · slices_S256x132x132_S256x128x128_0_3_2) : (⟨S256x132x132, .f32⟩ : BufTy).Contents (Elt F) → (⟨S256x128x128, .f32⟩ : BufTy).Contents (Elt F)),
    unary main_v1 main_v123 ((extractStridedSlice S1x1x128x128 ![3, 2, 0, 0] · slices_S5x5x128x128_S1x1x128x128_3_2_0_0) : (⟨S5x5x128x128, .f32⟩ : BufTy).Contents (Elt F) → (⟨S1x1x128x128, .f32⟩ : BufTy).Contents (Elt F)),
    reshape main_v123 main_v124 rfl shapeCasts_S1x1x128x128_S128x128,
    unary main_v124 main_v125 (broadcastInDim S1x128x128 ![1, 2] bcast_S128x128_S1x128x128_1_2 : (⟨S128x128, .f32⟩ : BufTy).Contents (Elt F) → (⟨S1x128x128, .f32⟩ : BufTy).Contents (Elt F)),
    unary main_v125 main_v126 (broadcastInDim S256x128x128 ![0, 1, 2] bcast_S1x128x128_S256x128x128_0_1_2 : (⟨S1x128x128, .f32⟩ : BufTy).Contents (Elt F) → (⟨S256x128x128, .f32⟩ : BufTy).Contents (Elt F)),
    binary main_v122 main_v126 main_v127 (mulf : (⟨S256x128x128, .f32⟩ : BufTy).Contents (Elt F) → (⟨S256x128x128, .f32⟩ : BufTy).Contents (Elt F) → (⟨S256x128x128, .f32⟩ : BufTy).Contents (Elt F)),
    binary main_v121 main_v127 main_v128 (addf : (⟨S256x128x128, .f32⟩ : BufTy).Contents (Elt F) → (⟨S256x128x128, .f32⟩ : BufTy).Contents (Elt F) → (⟨S256x128x128, .f32⟩ : BufTy).Contents (Elt F)) ]

/-- Tap 18, offsets (3, 3): slice the bordered batch, take plane (3, 3) of the re-laid table and lay it under every image,
    multiply, add to the running total. -/
abbrev tapOps18 : List (HloOp τ sig (Elt F)) :=
  [ unary main_v0 main_v129 ((extractStridedSlice S256x128x128 ![0, 3, 3] · slices_S256x132x132_S256x128x128_0_3_3) : (⟨S256x132x132, .f32⟩ : BufTy).Contents (Elt F) → (⟨S256x128x128, .f32⟩ : BufTy).Contents (Elt F)),
    unary main_v1 main_v130 ((extractStridedSlice S1x1x128x128 ![3, 3, 0, 0] · slices_S5x5x128x128_S1x1x128x128_3_3_0_0) : (⟨S5x5x128x128, .f32⟩ : BufTy).Contents (Elt F) → (⟨S1x1x128x128, .f32⟩ : BufTy).Contents (Elt F)),
    reshape main_v130 main_v131 rfl shapeCasts_S1x1x128x128_S128x128,
    unary main_v131 main_v132 (broadcastInDim S1x128x128 ![1, 2] bcast_S128x128_S1x128x128_1_2 : (⟨S128x128, .f32⟩ : BufTy).Contents (Elt F) → (⟨S1x128x128, .f32⟩ : BufTy).Contents (Elt F)),
    unary main_v132 main_v133 (broadcastInDim S256x128x128 ![0, 1, 2] bcast_S1x128x128_S256x128x128_0_1_2 : (⟨S1x128x128, .f32⟩ : BufTy).Contents (Elt F) → (⟨S256x128x128, .f32⟩ : BufTy).Contents (Elt F)),
    binary main_v129 main_v133 main_v134 (mulf : (⟨S256x128x128, .f32⟩ : BufTy).Contents (Elt F) → (⟨S256x128x128, .f32⟩ : BufTy).Contents (Elt F) → (⟨S256x128x128, .f32⟩ : BufTy).Contents (Elt F)),
    binary main_v128 main_v134 main_v135 (addf : (⟨S256x128x128, .f32⟩ : BufTy).Contents (Elt F) → (⟨S256x128x128, .f32⟩ : BufTy).Contents (Elt F) → (⟨S256x128x128, .f32⟩ : BufTy).Contents (Elt F)) ]

/-- Tap 19, offsets (3, 4): slice the bordered batch, take plane (3, 4) of the re-laid table and lay it under every image,
    multiply, add to the running total. -/
abbrev tapOps19 : List (HloOp τ sig (Elt F)) :=
  [ unary main_v0 main_v136 ((extractStridedSlice S256x128x128 ![0, 3, 4] · slices_S256x132x132_S256x128x128_0_3_4) : (⟨S256x132x132, .f32⟩ : BufTy).Contents (Elt F) → (⟨S256x128x128, .f32⟩ : BufTy).Contents (Elt F)),
    unary main_v1 main_v137 ((extractStridedSlice S1x1x128x128 ![3, 4, 0, 0] · slices_S5x5x128x128_S1x1x128x128_3_4_0_0) : (⟨S5x5x128x128, .f32⟩ : BufTy).Contents (Elt F) → (⟨S1x1x128x128, .f32⟩ : BufTy).Contents (Elt F)),
    reshape main_v137 main_v138 rfl shapeCasts_S1x1x128x128_S128x128,
    unary main_v138 main_v139 (broadcastInDim S1x128x128 ![1, 2] bcast_S128x128_S1x128x128_1_2 : (⟨S128x128, .f32⟩ : BufTy).Contents (Elt F) → (⟨S1x128x128, .f32⟩ : BufTy).Contents (Elt F)),
    unary main_v139 main_v140 (broadcastInDim S256x128x128 ![0, 1, 2] bcast_S1x128x128_S256x128x128_0_1_2 : (⟨S1x128x128, .f32⟩ : BufTy).Contents (Elt F) → (⟨S256x128x128, .f32⟩ : BufTy).Contents (Elt F)),
    binary main_v136 main_v140 main_v141 (mulf : (⟨S256x128x128, .f32⟩ : BufTy).Contents (Elt F) → (⟨S256x128x128, .f32⟩ : BufTy).Contents (Elt F) → (⟨S256x128x128, .f32⟩ : BufTy).Contents (Elt F)),
    binary main_v135 main_v141 main_v142 (addf : (⟨S256x128x128, .f32⟩ : BufTy).Contents (Elt F) → (⟨S256x128x128, .f32⟩ : BufTy).Contents (Elt F) → (⟨S256x128x128, .f32⟩ : BufTy).Contents (Elt F)) ]

/-- Tap 20, offsets (4, 0): slice the bordered batch, take plane (4, 0) of the re-laid table and lay it under every image,
    multiply, add to the running total. -/
abbrev tapOps20 : List (HloOp τ sig (Elt F)) :=
  [ unary main_v0 main_v143 ((extractStridedSlice S256x128x128 ![0, 4, 0] · slices_S256x132x132_S256x128x128_0_4_0) : (⟨S256x132x132, .f32⟩ : BufTy).Contents (Elt F) → (⟨S256x128x128, .f32⟩ : BufTy).Contents (Elt F)),
    unary main_v1 main_v144 ((extractStridedSlice S1x1x128x128 ![4, 0, 0, 0] · slices_S5x5x128x128_S1x1x128x128_4_0_0_0) : (⟨S5x5x128x128, .f32⟩ : BufTy).Contents (Elt F) → (⟨S1x1x128x128, .f32⟩ : BufTy).Contents (Elt F)),
    reshape main_v144 main_v145 rfl shapeCasts_S1x1x128x128_S128x128,
    unary main_v145 main_v146 (broadcastInDim S1x128x128 ![1, 2] bcast_S128x128_S1x128x128_1_2 : (⟨S128x128, .f32⟩ : BufTy).Contents (Elt F) → (⟨S1x128x128, .f32⟩ : BufTy).Contents (Elt F)),
    unary main_v146 main_v147 (broadcastInDim S256x128x128 ![0, 1, 2] bcast_S1x128x128_S256x128x128_0_1_2 : (⟨S1x128x128, .f32⟩ : BufTy).Contents (Elt F) → (⟨S256x128x128, .f32⟩ : BufTy).Contents (Elt F)),
    binary main_v143 main_v147 main_v148 (mulf : (⟨S256x128x128, .f32⟩ : BufTy).Contents (Elt F) → (⟨S256x128x128, .f32⟩ : BufTy).Contents (Elt F) → (⟨S256x128x128, .f32⟩ : BufTy).Contents (Elt F)),
    binary main_v142 main_v148 main_v149 (addf : (⟨S256x128x128, .f32⟩ : BufTy).Contents (Elt F) → (⟨S256x128x128, .f32⟩ : BufTy).Contents (Elt F) → (⟨S256x128x128, .f32⟩ : BufTy).Contents (Elt F)) ]

/-- Tap 21, offsets (4, 1): slice the bordered batch, take plane (4, 1) of the re-laid table and lay it under every image,
    multiply, add to the running total. -/
abbrev tapOps21 : List (HloOp τ sig (Elt F)) :=
  [ unary main_v0 main_v150 ((extractStridedSlice S256x128x128 ![0, 4, 1] · slices_S256x132x132_S256x128x128_0_4_1) : (⟨S256x132x132, .f32⟩ : BufTy).Contents (Elt F) → (⟨S256x128x128, .f32⟩ : BufTy).Contents (Elt F)),
    unary main_v1 main_v151 ((extractStridedSlice S1x1x128x128 ![4, 1, 0, 0] · slices_S5x5x128x128_S1x1x128x128_4_1_0_0) : (⟨S5x5x128x128, .f32⟩ : BufTy).Contents (Elt F) → (⟨S1x1x128x128, .f32⟩ : BufTy).Contents (Elt F)),
    reshape main_v151 main_v152 rfl shapeCasts_S1x1x128x128_S128x128,
    unary main_v152 main_v153 (broadcastInDim S1x128x128 ![1, 2] bcast_S128x128_S1x128x128_1_2 : (⟨S128x128, .f32⟩ : BufTy).Contents (Elt F) → (⟨S1x128x128, .f32⟩ : BufTy).Contents (Elt F)),
    unary main_v153 main_v154 (broadcastInDim S256x128x128 ![0, 1, 2] bcast_S1x128x128_S256x128x128_0_1_2 : (⟨S1x128x128, .f32⟩ : BufTy).Contents (Elt F) → (⟨S256x128x128, .f32⟩ : BufTy).Contents (Elt F)),
    binary main_v150 main_v154 main_v155 (mulf : (⟨S256x128x128, .f32⟩ : BufTy).Contents (Elt F) → (⟨S256x128x128, .f32⟩ : BufTy).Contents (Elt F) → (⟨S256x128x128, .f32⟩ : BufTy).Contents (Elt F)),
    binary main_v149 main_v155 main_v156 (addf : (⟨S256x128x128, .f32⟩ : BufTy).Contents (Elt F) → (⟨S256x128x128, .f32⟩ : BufTy).Contents (Elt F) → (⟨S256x128x128, .f32⟩ : BufTy).Contents (Elt F)) ]

/-- Tap 22, offsets (4, 2): slice the bordered batch, take plane (4, 2) of the re-laid table and lay it under every image,
    multiply, add to the running total. -/
abbrev tapOps22 : List (HloOp τ sig (Elt F)) :=
  [ unary main_v0 main_v157 ((extractStridedSlice S256x128x128 ![0, 4, 2] · slices_S256x132x132_S256x128x128_0_4_2) : (⟨S256x132x132, .f32⟩ : BufTy).Contents (Elt F) → (⟨S256x128x128, .f32⟩ : BufTy).Contents (Elt F)),
    unary main_v1 main_v158 ((extractStridedSlice S1x1x128x128 ![4, 2, 0, 0] · slices_S5x5x128x128_S1x1x128x128_4_2_0_0) : (⟨S5x5x128x128, .f32⟩ : BufTy).Contents (Elt F) → (⟨S1x1x128x128, .f32⟩ : BufTy).Contents (Elt F)),
    reshape main_v158 main_v159 rfl shapeCasts_S1x1x128x128_S128x128,
    unary main_v159 main_v160 (broadcastInDim S1x128x128 ![1, 2] bcast_S128x128_S1x128x128_1_2 : (⟨S128x128, .f32⟩ : BufTy).Contents (Elt F) → (⟨S1x128x128, .f32⟩ : BufTy).Contents (Elt F)),
    unary main_v160 main_v161 (broadcastInDim S256x128x128 ![0, 1, 2] bcast_S1x128x128_S256x128x128_0_1_2 : (⟨S1x128x128, .f32⟩ : BufTy).Contents (Elt F) → (⟨S256x128x128, .f32⟩ : BufTy).Contents (Elt F)),
    binary main_v157 main_v161 main_v162 (mulf : (⟨S256x128x128, .f32⟩ : BufTy).Contents (Elt F) → (⟨S256x128x128, .f32⟩ : BufTy).Contents (Elt F) → (⟨S256x128x128, .f32⟩ : BufTy).Contents (Elt F)),
    binary main_v156 main_v162 main_v163 (addf : (⟨S256x128x128, .f32⟩ : BufTy).Contents (Elt F) → (⟨S256x128x128, .f32⟩ : BufTy).Contents (Elt F) → (⟨S256x128x128, .f32⟩ : BufTy).Contents (Elt F)) ]

/-- Tap 23, offsets (4, 3): slice the bordered batch, take plane (4, 3) of the re-laid table and lay it under every image,
    multiply, add to the running total. -/
abbrev tapOps23 : List (HloOp τ sig (Elt F)) :=
  [ unary main_v0 main_v164 ((extractStridedSlice S256x128x128 ![0, 4, 3] · slices_S256x132x132_S256x128x128_0_4_3) : (⟨S256x132x132, .f32⟩ : BufTy).Contents (Elt F) → (⟨S256x128x128, .f32⟩ : BufTy).Contents (Elt F)),
    unary main_v1 main_v165 ((extractStridedSlice S1x1x128x128 ![4, 3, 0, 0] · slices_S5x5x128x128_S1x1x128x128_4_3_0_0) : (⟨S5x5x128x128, .f32⟩ : BufTy).Contents (Elt F) → (⟨S1x1x128x128, .f32⟩ : BufTy).Contents (Elt F)),
    reshape main_v165 main_v166 rfl shapeCasts_S1x1x128x128_S128x128,
    unary main_v166 main_v167 (broadcastInDim S1x128x128 ![1, 2] bcast_S128x128_S1x128x128_1_2 : (⟨S128x128, .f32⟩ : BufTy).Contents (Elt F) → (⟨S1x128x128, .f32⟩ : BufTy).Contents (Elt F)),
    unary main_v167 main_v168 (broadcastInDim S256x128x128 ![0, 1, 2] bcast_S1x128x128_S256x128x128_0_1_2 : (⟨S1x128x128, .f32⟩ : BufTy).Contents (Elt F) → (⟨S256x128x128, .f32⟩ : BufTy).Contents (Elt F)),
    binary main_v164 main_v168 main_v169 (mulf : (⟨S256x128x128, .f32⟩ : BufTy).Contents (Elt F) → (⟨S256x128x128, .f32⟩ : BufTy).Contents (Elt F) → (⟨S256x128x128, .f32⟩ : BufTy).Contents (Elt F)),
    binary main_v163 main_v169 main_v170 (addf : (⟨S256x128x128, .f32⟩ : BufTy).Contents (Elt F) → (⟨S256x128x128, .f32⟩ : BufTy).Contents (Elt F) → (⟨S256x128x128, .f32⟩ : BufTy).Contents (Elt F)) ]

/-- Tap 24, offsets (4, 4): slice the bordered batch, take plane (4, 4) of the re-laid table and lay it under every image,
    multiply, add to the running total. -/
abbrev tapOps24 : List (HloOp τ sig (Elt F)) :=
  [ unary main_v0 main_v171 ((extractStridedSlice S256x128x128 ![0, 4, 4] · slices_S256x132x132_S256x128x128_0_4_4) : (⟨S256x132x132, .f32⟩ : BufTy).Contents (Elt F) → (⟨S256x128x128, .f32⟩ : BufTy).Contents (Elt F)),
    unary main_v1 main_v172 ((extractStridedSlice S1x1x128x128 ![4, 4, 0, 0] · slices_S5x5x128x128_S1x1x128x128_4_4_0_0) : (⟨S5x5x128x128, .f32⟩ : BufTy).Contents (Elt F) → (⟨S1x1x128x128, .f32⟩ : BufTy).Contents (Elt F)),
    reshape main_v172 main_v173 rfl shapeCasts_S1x1x128x128_S128x128,
    unary main_v173 main_v174 (broadcastInDim S1x128x128 ![1, 2] bcast_S128x128_S1x128x128_1_2 : (⟨S128x128, .f32⟩ : BufTy).Contents (Elt F) → (⟨S1x128x128, .f32⟩ : BufTy).Contents (Elt F)),
    unary main_v174 main_v175 (broadcastInDim S256x128x128 ![0, 1, 2] bcast_S1x128x128_S256x128x128_0_1_2 : (⟨S1x128x128, .f32⟩ : BufTy).Contents (Elt F) → (⟨S256x128x128, .f32⟩ : BufTy).Contents (Elt F)),
    binary main_v171 main_v175 main_v176 (mulf : (⟨S256x128x128, .f32⟩ : BufTy).Contents (Elt F) → (⟨S256x128x128, .f32⟩ : BufTy).Contents (Elt F) → (⟨S256x128x128, .f32⟩ : BufTy).Contents (Elt F)),
    binary main_v170 main_v176 main_v177 (addf : (⟨S256x128x128, .f32⟩ : BufTy).Contents (Elt F) → (⟨S256x128x128, .f32⟩ : BufTy).Contents (Elt F) → (⟨S256x128x128, .f32⟩ : BufTy).Contents (Elt F)) ]

/-- The coda: the total times each image's step, plus the image, clamped below at zero. -/
abbrev coda : List (HloOp τ sig (Elt F)) :=
  [ unary main_arg2 main_v178 (broadcastInDim S256x1x1 ![0] bcast_S256_S256x1x1_0 : (⟨S256, .f32⟩ : BufTy).Contents (Elt F) → (⟨S256x1x1, .f32⟩ : BufTy).Contents (Elt F)),
    unary main_v178 main_v179 (broadcastInDim S256x128x128 ![0, 1, 2] bcast_S256x1x1_S256x128x128_0_1_2 : (⟨S256x1x1, .f32⟩ : BufTy).Contents (Elt F) → (⟨S256x128x128, .f32⟩ : BufTy).Contents (Elt F)),
    binary main_v177 main_v179 main_v180 (mulf : (⟨S256x128x128, .f32⟩ : BufTy).Contents (Elt F) → (⟨S256x128x128, .f32⟩ : BufTy).Contents (Elt F) → (⟨S256x128x128, .f32⟩ : BufTy).Contents (Elt F)),
    binary main_arg0 main_v180 main_v181 (addf : (⟨S256x128x128, .f32⟩ : BufTy).Contents (Elt F) → (⟨S256x128x128, .f32⟩ : BufTy).Contents (Elt F) → (⟨S256x128x128, .f32⟩ : BufTy).Contents (Elt F)),
    nullary main_cst_0 (constant S_ .f32 0x00000000#32),
    unary main_cst_0 main_v182 (broadcastInDim S256x128x128 ![] bcast_S_S256x128x128 : (⟨S_, .f32⟩ : BufTy).Contents (Elt F) → (⟨S256x128x128, .f32⟩ : BufTy).Contents (Elt F)),
    binary main_v181 main_v182 main_v183 (maximumf : (⟨S256x128x128, .f32⟩ : BufTy).Contents (Elt F) → (⟨S256x128x128, .f32⟩ : BufTy).Contents (Elt F) → (⟨S256x128x128, .f32⟩ : BufTy).Contents (Elt F)) ]

/-- The 175 operations of the 25 taps, in order. -/
abbrev tapsOps : List (HloOp τ sig (Elt F)) :=
  tapOps0 ++ tapOps1 ++ tapOps2 ++ tapOps3 ++ tapOps4 ++ tapOps5 ++ tapOps6 ++ tapOps7 ++ tapOps8 ++ tapOps9 ++ tapOps10 ++ tapOps11 ++ tapOps12 ++ tapOps13 ++ tapOps14 ++ tapOps15 ++ tapOps16 ++ tapOps17 ++ tapOps18 ++ tapOps19 ++ tapOps20 ++ tapOps21 ++ tapOps22 ++ tapOps23 ++ tapOps24

theorem scopedRefs_eq : (Finset.univ.filter fun b : Ref sig .tc => b.isScoped) = ∅ := by decide
theorem scopedSems_eq : (Finset.univ.filter fun sm : SemLoc sig => sm.isScoped .tc) = ∅ := by decide

end Cert.ReferenceIdeal.Hand

end
-- ==== Proof.LibStretches.lean ====
/-
  A long straight-line program matched against its list of operations one piece at a time.

  A host program is a list of operations run in order (`StableHlo.seq`). When the program is printed as four pieces run in
  order, and each piece is the operations of its stretch run in order, the program is the four stretches' operations run
  in order as one list — so the program and its list need never be compared as wholes.
-/
import Idealize.ShloMosaic.Lib.StableHlo.Run

noncomputable section

namespace Cert.LibStretches

open Idealize.ShloMosaic Idealize.ShloMosaic.StableHlo Idealize.SL.Sem

variable {nD : Nat} {τ : Topo} {sig : RefSig} {Val : EltTy → Type} {Λ : Labels}

/-- Four pieces run in order, each the operations of its stretch run in order, are the four stretches' operations run in
    order as one list. -/
theorem seq_four (p₀ p₁ p₂ p₃ : Prog (TpuEff nD τ sig Val Λ .tc) PUnit) (w₀ w₁ w₂ w₃ : List (HloOp τ sig Val))
    (h₀ : p₀ = seq w₀) (h₁ : p₁ = seq w₁) (h₂ : p₂ = seq w₂) (h₃ : p₃ = seq w₃) :
    (p₀ >>= fun _ => p₁ >>= fun _ => p₂ >>= fun _ => p₃) = seq (w₀ ++ w₁ ++ w₂ ++ w₃) := by
  subst h₀ h₁ h₂ h₃
  rw [seq_append, seq_append, seq_append]
  simp only [bind_assoc]

end Cert.LibStretches

end
-- ==== Proof.ReferenceMain.lean ====
/-
  The reference's @main IS its 188 operations run in order. It is printed as four windows of statements; each window is
  its stretch of the list, and the four stretches one after another are the prelude, the 25 taps and the coda (the window
  boundaries fall inside taps 7 and 16, which are cut there).
-/
import proofs.«159623_j87746181857881_2_alg».proof.Proof.ReferenceOps
import proofs.«159623_j87746181857881_2_alg».proof.Proof.LibStretches

noncomputable section

namespace Cert.ReferenceIdeal.Hand

open Cert.LibStretches Cert.ReferenceIdeal Cert.ReferenceIdeal.Gen Idealize.ShloMosaic Idealize.ShloMosaic.TcCoe Idealize.SL.Sem Idealize.ShloMosaic.StableHlo

variable {F : FTy → Type} [FloatOps F]

/-! ## The four printed windows -/

/-- Operations 1 … 61 of @main: its first printed window. -/
abbrev windowOps0 : List (HloOp τ sig (Elt F)) :=
  [ nullary main_c (constantI S_ 32 0#32),
    TRef.unary (TRef.of (T := ⟨S_, .i32⟩) main_c) (TRef.of (T := ⟨S_, .f32⟩) main_call0_v0) (sitofp .f32),
    TRef.binary (TRef.of (T := ⟨S256x128x128, .f32⟩) main_arg0) (TRef.of (T := ⟨S_, .f32⟩) main_call0_v0) (TRef.of (T := ⟨S256x132x132, .f32⟩) main_v0) (fun x v => pad S256x132x132 ![0, 2, 2] ![0, 2, 2] ![0, 0, 0] x v pads_S256x128x128_S256x132x132_000_220_220 h_S_),
    reshape main_arg1 main_v1 rfl shapeCasts_S25x16384_S5x5x128x128,
    nullary main_cst (constant S_ .f32 0x00000000#32),
    unary main_cst main_v2 (broadcastInDim S256x128x128 ![] bcast_S_S256x128x128 : (⟨S_, .f32⟩ : BufTy).Contents (Elt F) → (⟨S256x128x128, .f32⟩ : BufTy).Contents (Elt F)),
    unary main_v0 main_v3 ((extractStridedSlice S256x128x128 ![0, 0, 0] · slices_S256x132x132_S256x128x128_0_0_0) : (⟨S256x132x132, .f32⟩ : BufTy).Contents (Elt F) → (⟨S256x128x128, .f32⟩ : BufTy).Contents (Elt F)),
    unary main_v1 main_v4 ((extractStridedSlice S1x1x128x128 ![0, 0, 0, 0] · slices_S5x5x128x128_S1x1x128x128_0_0_0_0) : (⟨S5x5x128x128, .f32⟩ : BufTy).Contents (Elt F) → (⟨S1x1x128x128, .f32⟩ : BufTy).Contents (Elt F)),
    reshape main_v4 main_v5 rfl shapeCasts_S1x1x128x128_S128x128,
    unary main_v5 main_v6 (broadcastInDim S1x128x128 ![1, 2] bcast_S128x128_S1x128x128_1_2 : (⟨S128x128, .f32⟩ : BufTy).Contents (Elt F) → (⟨S1x128x128, .f32⟩ : BufTy).Contents (Elt F)),
    unary main_v6 main_v7 (broadcastInDim S256x128x128 ![0, 1, 2] bcast_S1x128x128_S256x128x128_0_1_2 : (⟨S1x128x128, .f32⟩ : BufTy).Contents (Elt F) → (⟨S256x128x128, .f32⟩ : BufTy).Contents (Elt F)),
    binary main_v3 main_v7 main_v8 (mulf : (⟨S256x128x128, .f32⟩ : BufTy).Contents (Elt F) → (⟨S256x128x128, .f32⟩ : BufTy).Contents (Elt F) → (⟨S256x128x128, .f32⟩ : BufTy).Contents (Elt F)),
    binary main_v2 main_v8 main_v9 (addf : (⟨S256x128x128, .f32⟩ : BufTy).Contents (Elt F) → (⟨S256x128x128, .f32⟩ : BufTy).Contents (Elt F) → (⟨S256x128x128, .f32⟩ : BufTy).Contents (Elt F)),
    unary main_v0 main_v10 ((extractStridedSlice S256x128x128 ![0, 0, 1] · slices_S256x132x132_S256x128x128_0_0_1) : (⟨S256x132x132, .f32⟩ : BufTy).Contents (Elt F) → (⟨S256x128x128, .f32⟩ : BufTy).Contents (Elt F)),
    unary main_v1 main_v11 ((extractStridedSlice S1x1x128x128 ![0, 1, 0, 0] · slices_S5x5x128x128_S1x1x128x128_0_1_0_0) : (⟨S5x5x128x128, .f32⟩ : BufTy).Contents (Elt F) → (⟨S1x1x128x128, .f32⟩ : BufTy).Contents (Elt F)),
    reshape main_v11 main_v12 rfl shapeCasts_S1x1x128x128_S128x128,
    unary main_v12 main_v13 (broadcastInDim S1x128x128 ![1, 2] bcast_S128x128_S1x128x128_1_2 : (⟨S128x128, .f32⟩ : BufTy).Contents (Elt F) → (⟨S1x128x128, .f32⟩ : BufTy).Contents (Elt F)),
    unary main_v13 main_v14 (broadcastInDim S256x128x128 ![0, 1, 2] bcast_S1x128x128_S256x128x128_0_1_2 : (⟨S1x128x128, .f32⟩ : BufTy).Contents (Elt F) → (⟨S256x128x128, .f32⟩ : BufTy).Contents (Elt F)),
    binary main_v10 main_v14 main_v15 (mulf : (⟨S256x128x128, .f32⟩ : BufTy).Contents (Elt F) → (⟨S256x128x128, .f32⟩ : BufTy).Contents (Elt F) → (⟨S256x128x128, .f32⟩ : BufTy).Contents (Elt F)),
    binary main_v9 main_v15 main_v16 (addf : (⟨S256x128x128, .f32⟩ : BufTy).Contents (Elt F) → (⟨S256x128x128, .f32⟩ : BufTy).Contents (Elt F) → (⟨S256x128x128, .f32⟩ : BufTy).Contents (Elt F)),
    unary main_v0 main_v17 ((extractStridedSlice S256x128x128 ![0, 0, 2] · slices_S256x132x132_S256x128x128_0_0_2) : (⟨S256x132x132, .f32⟩ : BufTy).Contents (Elt F) → (⟨S256x128x128, .f32⟩ : BufTy).Contents (Elt F)),
    unary main_v1 main_v18 ((extractStridedSlice S1x1x128x128 ![0, 2, 0, 0] · slices_S5x5x128x128_S1x1x128x128_0_2_0_0) : (⟨S5x5x128x128, .f32⟩ : BufTy).Contents (Elt F) → (⟨S1x1x128x128, .f32⟩ : BufTy).Contents (Elt F)),
    reshape main_v18 main_v19 rfl shapeCasts_S1x1x128x128_S128x128,
    unary main_v19 main_v20 (broadcastInDim S1x128x128 ![1, 2] bcast_S128x128_S1x128x128_1_2 : (⟨S128x128, .f32⟩ : BufTy).Contents (Elt F) → (⟨S1x128x128, .f32⟩ : BufTy).Contents (Elt F)),
    unary main_v20 main_v21 (broadcastInDim S256x128x128 ![0, 1, 2] bcast_S1x128x128_S256x128x128_0_1_2 : (⟨S1x128x128, .f32⟩ : BufTy).Contents (Elt F) → (⟨S256x128x128, .f32⟩ : BufTy).Contents (Elt F)),
    binary main_v17 main_v21 main_v22 (mulf : (⟨S256x128x128, .f32⟩ : BufTy).Contents (Elt F) → (⟨S256x128x128, .f32⟩ : BufTy).Contents (Elt F) → (⟨S256x128x128, .f32⟩ : BufTy).Contents (Elt F)),
    binary main_v16 main_v22 main_v23 (addf : (⟨S256x128x128, .f32⟩ : BufTy).Contents (Elt F) → (⟨S256x128x128, .f32⟩ : BufTy).Contents (Elt F) → (⟨S256x128x128, .f32⟩ : BufTy).Contents (Elt F)),
    unary main_v0 main_v24 ((extractStridedSlice S256x128x128 ![0, 0, 3] · slices_S256x132x132_S256x128x128_0_0_3) : (⟨S256x132x132, .f32⟩ : BufTy).Contents (Elt F) → (⟨S256x128x128, .f32⟩ : BufTy).Contents (Elt F)),
    unary main_v1 main_v25 ((extractStridedSlice S1x1x128x128 ![0, 3, 0, 0] · slices_S5x5x128x128_S1x1x128x128_0_3_0_0) : (⟨S5x5x128x128, .f32⟩ : BufTy).Contents (Elt F) → (⟨S1x1x128x128, .f32⟩ : BufTy).Contents (Elt F)),
    reshape main_v25 main_v26 rfl shapeCasts_S1x1x128x128_S128x128,
    unary main_v26 main_v27 (broadcastInDim S1x128x128 ![1, 2] bcast_S128x128_S1x128x128_1_2 : (⟨S128x128, .f32⟩ : BufTy).Contents (Elt F) → (⟨S1x128x128, .f32⟩ : BufTy).Contents (Elt F)),
    unary main_v27 main_v28 (broadcastInDim S256x128x128 ![0, 1, 2] bcast_S1x128x128_S256x128x128_0_1_2 : (⟨S1x128x128, .f32⟩ : BufTy).Contents (Elt F) → (⟨S256x128x128, .f32⟩ : BufTy).Contents (Elt F)),
    binary main_v24 main_v28 main_v29 (mulf : (⟨S256x128x128, .f32⟩ : BufTy).Contents (Elt F) → (⟨S256x128x128, .f32⟩ : BufTy).Contents (Elt F) → (⟨S256x128x128, .f32⟩ : BufTy).Contents (Elt F)),
    binary main_v23 main_v29 main_v30 (addf : (⟨S256x128x128, .f32⟩ : BufTy).Contents (Elt F) → (⟨S256x128x128, .f32⟩ : BufTy).Contents (Elt F) → (⟨S256x128x128, .f32⟩ : BufTy).Contents (Elt F)),
    unary main_v0 main_v31 ((extractStridedSlice S256x128x128 ![0, 0, 4] · slices_S256x132x132_S256x128x128_0_0_4) : (⟨S256x132x132, .f32⟩ : BufTy).Contents (Elt F) → (⟨S256x128x128, .f32⟩ : BufTy).Contents (Elt F)),
    unary main_v1 main_v32 ((extractStridedSlice S1x1x128x128 ![0, 4, 0, 0] · slices_S5x5x128x128_S1x1x128x128_0_4_0_0) : (⟨S5x5x128x128, .f32⟩ : BufTy).Contents (Elt F) → (⟨S1x1x128x128, .f32⟩ : BufTy).Contents (Elt F)),
    reshape main_v32 main_v33 rfl shapeCasts_S1x1x128x128_S128x128,
    unary main_v33 main_v34 (broadcastInDim S1x128x128 ![1, 2] bcast_S128x128_S1x128x128_1_2 : (⟨S128x128, .f32⟩ : BufTy).Contents (Elt F) → (⟨S1x128x128, .f32⟩ : BufTy).Contents (Elt F)),
    unary main_v34 main_v35 (broadcastInDim S256x128x128 ![0, 1, 2] bcast_S1x128x128_S256x128x128_0_1_2 : (⟨S1x128x128, .f32⟩ : BufTy).Contents (Elt F) → (⟨S256x128x128, .f32⟩ : BufTy).Contents (Elt F)),
    binary main_v31 main_v35 main_v36 (mulf : (⟨S256x128x128, .f32⟩ : BufTy).Contents (Elt F) → (⟨S256x128x128, .f32⟩ : BufTy).Contents (Elt F) → (⟨S256x128x128, .f32⟩ : BufTy).Contents (Elt F)),
    binary main_v30 main_v36 main_v37 (addf : (⟨S256x128x128, .f32⟩ : BufTy).Contents (Elt F) → (⟨S256x128x128, .f32⟩ : BufTy).Contents (Elt F) → (⟨S256x128x128, .f32⟩ : BufTy).Contents (Elt F)),
    unary main_v0 main_v38 ((extractStridedSlice S256x128x128 ![0, 1, 0] · slices_S256x132x132_S256x128x128_0_1_0) : (⟨S256x132x132, .f32⟩ : BufTy).Contents (Elt F) → (⟨S256x128x128, .f32⟩ : BufTy).Contents (Elt F)),
    unary main_v1 main_v39 ((extractStridedSlice S1x1x128x128 ![1, 0, 0, 0] · slices_S5x5x128x128_S1x1x128x128_1_0_0_0) : (⟨S5x5x128x128, .f32⟩ : BufTy).Contents (Elt F) → (⟨S1x1x128x128, .f32⟩ : BufTy).Contents (Elt F)),
    reshape main_v39 main_v40 rfl shapeCasts_S1x1x128x128_S128x128,
    unary main_v40 main_v41 (broadcastInDim S1x128x128 ![1, 2] bcast_S128x128_S1x128x128_1_2 : (⟨S128x128, .f32⟩ : BufTy).Contents (Elt F) → (⟨S1x128x128, .f32⟩ : BufTy).Contents (Elt F)),
    unary main_v41 main_v42 (broadcastInDim S256x128x128 ![0, 1, 2] bcast_S1x128x128_S256x128x128_0_1_2 : (⟨S1x128x128, .f32⟩ : BufTy).Contents (Elt F) → (⟨S256x128x128, .f32⟩ : BufTy).Contents (Elt F)),
    binary main_v38 main_v42 main_v43 (mulf : (⟨S256x128x128, .f32⟩ : BufTy).Contents (Elt F) → (⟨S256x128x128, .f32⟩ : BufTy).Contents (Elt F) → (⟨S256x128x128, .f32⟩ : BufTy).Contents (Elt F)),
    binary main_v37 main_v43 main_v44 (addf : (⟨S256x128x128, .f32⟩ : BufTy).Contents (Elt F) → (⟨S256x128x128, .f32⟩ : BufTy).Contents (Elt F) → (⟨S256x128x128, .f32⟩ : BufTy).Contents (Elt F)),
    unary main_v0 main_v45 ((extractStridedSlice S256x128x128 ![0, 1, 1] · slices_S256x132x132_S256x128x128_0_1_1) : (⟨S256x132x132, .f32⟩ : BufTy).Contents (Elt F) → (⟨S256x128x128, .f32⟩ : BufTy).Contents (Elt F)),
    unary main_v1 main_v46 ((extractStridedSlice S1x1x128x128 ![1, 1, 0, 0] · slices_S5x5x128x128_S1x1x128x128_1_1_0_0) : (⟨S5x5x128x128, .f32⟩ : BufTy).Contents (Elt F) → (⟨S1x1x128x128, .f32⟩ : BufTy).Contents (Elt F)),
    reshape main_v46 main_v47 rfl shapeCasts_S1x1x128x128_S128x128,
    unary main_v47 main_v48 (broadcastInDim S1x128x128 ![1, 2] bcast_S128x128_S1x128x128_1_2 : (⟨S128x128, .f32⟩ : BufTy).Contents (Elt F) → (⟨S1x128x128, .f32⟩ : BufTy).Contents (Elt F)),
    unary main_v48 main_v49 (broadcastInDim S256x128x128 ![0, 1, 2] bcast_S1x128x128_S256x128x128_0_1_2 : (⟨S1x128x128, .f32⟩ : BufTy).Contents (Elt F) → (⟨S256x128x128, .f32⟩ : BufTy).Contents (Elt F)),
    binary main_v45 main_v49 main_v50 (mulf : (⟨S256x128x128, .f32⟩ : BufTy).Contents (Elt F) → (⟨S256x128x128, .f32⟩ : BufTy).Contents (Elt F) → (⟨S256x128x128, .f32⟩ : BufTy).Contents (Elt F)),
    binary main_v44 main_v50 main_v51 (addf : (⟨S256x128x128, .f32⟩ : BufTy).Contents (Elt F) → (⟨S256x128x128, .f32⟩ : BufTy).Contents (Elt F) → (⟨S256x128x128, .f32⟩ : BufTy).Contents (Elt F)),
    unary main_v0 main_v52 ((extractStridedSlice S256x128x128 ![0, 1, 2] · slices_S256x132x132_S256x128x128_0_1_2) : (⟨S256x132x132, .f32⟩ : BufTy).Contents (Elt F) → (⟨S256x128x128, .f32⟩ : BufTy).Contents (Elt F)),
    unary main_v1 main_v53 ((extractStridedSlice S1x1x128x128 ![1, 2, 0, 0] · slices_S5x5x128x128_S1x1x128x128_1_2_0_0) : (⟨S5x5x128x128, .f32⟩ : BufTy).Contents (Elt F) → (⟨S1x1x128x128, .f32⟩ : BufTy).Contents (Elt F)),
    reshape main_v53 main_v54 rfl shapeCasts_S1x1x128x128_S128x128,
    unary main_v54 main_v55 (broadcastInDim S1x128x128 ![1, 2] bcast_S128x128_S1x128x128_1_2 : (⟨S128x128, .f32⟩ : BufTy).Contents (Elt F) → (⟨S1x128x128, .f32⟩ : BufTy).Contents (Elt F)),
    unary main_v55 main_v56 (broadcastInDim S256x128x128 ![0, 1, 2] bcast_S1x128x128_S256x128x128_0_1_2 : (⟨S1x128x128, .f32⟩ : BufTy).Contents (Elt F) → (⟨S256x128x128, .f32⟩ : BufTy).Contents (Elt F)),
    binary main_v52 main_v56 main_v57 (mulf : (⟨S256x128x128, .f32⟩ : BufTy).Contents (Elt F) → (⟨S256x128x128, .f32⟩ : BufTy).Contents (Elt F) → (⟨S256x128x128, .f32⟩ : BufTy).Contents (Elt F)) ]

set_option maxRecDepth 8192 in
set_option maxHeartbeats 4000000 in
theorem window0_eq (c : Dev nD) : main_part0 (F := F) c = seq windowOps0 := rfl

set_option maxRecDepth 8192 in
theorem window0_sub : (windowOps0 : List (HloOp τ sig (Elt F))).Forall fun op => op.bufs ⊆ tcRefs τ sig :=
  ⟨nullary_bufs_sub .., unary_bufs_sub .., binary_bufs_sub .., reshape_bufs_sub .., nullary_bufs_sub .., unary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub ..⟩

set_option maxRecDepth 8192 in
theorem window0_fresh : ∀ op ∈ (windowOps0 : List (HloOp τ sig (Elt F))), op.fresh = ∅ := by
  intro _ h
  (repeat (cases h with | head => rfl | tail _ h => ?_))
  exact nomatch h

/-- Operations 62 … 121 of @main: its second printed window. -/
abbrev windowOps1 : List (HloOp τ sig (Elt F)) :=
  [ binary main_v51 main_v57 main_v58 (addf : (⟨S256x128x128, .f32⟩ : BufTy).Contents (Elt F) → (⟨S256x128x128, .f32⟩ : BufTy).Contents (Elt F) → (⟨S256x128x128, .f32⟩ : BufTy).Contents (Elt F)),
    unary main_v0 main_v59 ((extractStridedSlice S256x128x128 ![0, 1, 3] · slices_S256x132x132_S256x128x128_0_1_3) : (⟨S256x132x132, .f32⟩ : BufTy).Contents (Elt F) → (⟨S256x128x128, .f32⟩ : BufTy).Contents (Elt F)),
    unary main_v1 main_v60 ((extractStridedSlice S1x1x128x128 ![1, 3, 0, 0] · slices_S5x5x128x128_S1x1x128x128_1_3_0_0) : (⟨S5x5x128x128, .f32⟩ : BufTy).Contents (Elt F) → (⟨S1x1x128x128, .f32⟩ : BufTy).Contents (Elt F)),
    reshape main_v60 main_v61 rfl shapeCasts_S1x1x128x128_S128x128,
    unary main_v61 main_v62 (broadcastInDim S1x128x128 ![1, 2] bcast_S128x128_S1x128x128_1_2 : (⟨S128x128, .f32⟩ : BufTy).Contents (Elt F) → (⟨S1x128x128, .f32⟩ : BufTy).Contents (Elt F)),
    unary main_v62 main_v63 (broadcastInDim S256x128x128 ![0, 1, 2] bcast_S1x128x128_S256x128x128_0_1_2 : (⟨S1x128x128, .f32⟩ : BufTy).Contents (Elt F) → (⟨S256x128x128, .f32⟩ : BufTy).Contents (Elt F)),
    binary main_v59 main_v63 main_v64 (mulf : (⟨S256x128x128, .f32⟩ : BufTy).Contents (Elt F) → (⟨S256x128x128, .f32⟩ : BufTy).Contents (Elt F) → (⟨S256x128x128, .f32⟩ : BufTy).Contents (Elt F)),
    binary main_v58 main_v64 main_v65 (addf : (⟨S256x128x128, .f32⟩ : BufTy).Contents (Elt F) → (⟨S256x128x128, .f32⟩ : BufTy).Contents (Elt F) → (⟨S256x128x128, .f32⟩ : BufTy).Contents (Elt F)),
    unary main_v0 main_v66 ((extractStridedSlice S256x128x128 ![0, 1, 4] · slices_S256x132x132_S256x128x128_0_1_4) : (⟨S256x132x132, .f32⟩ : BufTy).Contents (Elt F) → (⟨S256x128x128, .f32⟩ : BufTy).Contents (Elt F)),
    unary main_v1 main_v67 ((extractStridedSlice S1x1x128x128 ![1, 4, 0, 0] · slices_S5x5x128x128_S1x1x128x128_1_4_0_0) : (⟨S5x5x128x128, .f32⟩ : BufTy).Contents (Elt F) → (⟨S1x1x128x128, .f32⟩ : BufTy).Contents (Elt F)),
    reshape main_v67 main_v68 rfl shapeCasts_S1x1x128x128_S128x128,
    unary main_v68 main_v69 (broadcastInDim S1x128x128 ![1, 2] bcast_S128x128_S1x128x128_1_2 : (⟨S128x128, .f32⟩ : BufTy).Contents (Elt F) → (⟨S1x128x128, .f32⟩ : BufTy).Contents (Elt F)),
    unary main_v69 main_v70 (broadcastInDim S256x128x128 ![0, 1, 2] bcast_S1x128x128_S256x128x128_0_1_2 : (⟨S1x128x128, .f32⟩ : BufTy).Contents (Elt F) → (⟨S256x128x128, .f32⟩ : BufTy).Contents (Elt F)),
    binary main_v66 main_v70 main_v71 (mulf : (⟨S256x128x128, .f32⟩ : BufTy).Contents (Elt F) → (⟨S256x128x128, .f32⟩ : BufTy).Contents (Elt F) → (⟨S256x128x128, .f32⟩ : BufTy).Contents (Elt F)),
    binary main_v65 main_v71 main_v72 (addf : (⟨S256x128x128, .f32⟩ : BufTy).Contents (Elt F) → (⟨S256x128x128, .f32⟩ : BufTy).Contents (Elt F) → (⟨S256x128x128, .f32⟩ : BufTy).Contents (Elt F)),
    unary main_v0 main_v73 ((extractStridedSlice S256x128x128 ![0, 2, 0] · slices_S256x132x132_S256x128x128_0_2_0) : (⟨S256x132x132, .f32⟩ : BufTy).Contents (Elt F) → (⟨S256x128x128, .f32⟩ : BufTy).Contents (Elt F)),
    unary main_v1 main_v74 ((extractStridedSlice S1x1x128x128 ![2, 0, 0, 0] · slices_S5x5x128x128_S1x1x128x128_2_0_0_0) : (⟨S5x5x128x128, .f32⟩ : BufTy).Contents (Elt F) → (⟨S1x1x128x128, .f32⟩ : BufTy).Contents (Elt F)),
    reshape main_v74 main_v75 rfl shapeCasts_S1x1x128x128_S128x128,
    unary main_v75 main_v76 (broadcastInDim S1x128x128 ![1, 2] bcast_S128x128_S1x128x128_1_2 : (⟨S128x128, .f32⟩ : BufTy).Contents (Elt F) → (⟨S1x128x128, .f32⟩ : BufTy).Contents (Elt F)),
    unary main_v76 main_v77 (broadcastInDim S256x128x128 ![0, 1, 2] bcast_S1x128x128_S256x128x128_0_1_2 : (⟨S1x128x128, .f32⟩ : BufTy).Contents (Elt F) → (⟨S256x128x128, .f32⟩ : BufTy).Contents (Elt F)),
    binary main_v73 main_v77 main_v78 (mulf : (⟨S256x128x128, .f32⟩ : BufTy).Contents (Elt F) → (⟨S256x128x128, .f32⟩ : BufTy).Contents (Elt F) → (⟨S256x128x128, .f32⟩ : BufTy).Contents (Elt F)),
    binary main_v72 main_v78 main_v79 (addf : (⟨S256x128x128, .f32⟩ : BufTy).Contents (Elt F) → (⟨S256x128x128, .f32⟩ : BufTy).Contents (Elt F) → (⟨S256x128x128, .f32⟩ : BufTy).Contents (Elt F)),
    unary main_v0 main_v80 ((extractStridedSlice S256x128x128 ![0, 2, 1] · slices_S256x132x132_S256x128x128_0_2_1) : (⟨S256x132x132, .f32⟩ : BufTy).Contents (Elt F) → (⟨S256x128x128, .f32⟩ : BufTy).Contents (Elt F)),
    unary main_v1 main_v81 ((extractStridedSlice S1x1x128x128 ![2, 1, 0, 0] · slices_S5x5x128x128_S1x1x128x128_2_1_0_0) : (⟨S5x5x128x128, .f32⟩ : BufTy).Contents (Elt F) → (⟨S1x1x128x128, .f32⟩ : BufTy).Contents (Elt F)),
    reshape main_v81 main_v82 rfl shapeCasts_S1x1x128x128_S128x128,
    unary main_v82 main_v83 (broadcastInDim S1x128x128 ![1, 2] bcast_S128x128_S1x128x128_1_2 : (⟨S128x128, .f32⟩ : BufTy).Contents (Elt F) → (⟨S1x128x128, .f32⟩ : BufTy).Contents (Elt F)),
    unary main_v83 main_v84 (broadcastInDim S256x128x128 ![0, 1, 2] bcast_S1x128x128_S256x128x128_0_1_2 : (⟨S1x128x128, .f32⟩ : BufTy).Contents (Elt F) → (⟨S256x128x128, .f32⟩ : BufTy).Contents (Elt F)),
    binary main_v80 main_v84 main_v85 (mulf : (⟨S256x128x128, .f32⟩ : BufTy).Contents (Elt F) → (⟨S256x128x128, .f32⟩ : BufTy).Contents (Elt F) → (⟨S256x128x128, .f32⟩ : BufTy).Contents (Elt F)),
    binary main_v79 main_v85 main_v86 (addf : (⟨S256x128x128, .f32⟩ : BufTy).Contents (Elt F) → (⟨S256x128x128, .f32⟩ : BufTy).Contents (Elt F) → (⟨S256x128x128, .f32⟩ : BufTy).Contents (Elt F)),
    unary main_v0 main_v87 ((extractStridedSlice S256x128x128 ![0, 2, 2] · slices_S256x132x132_S256x128x128_0_2_2) : (⟨S256x132x132, .f32⟩ : BufTy).Contents (Elt F) → (⟨S256x128x128, .f32⟩ : BufTy).Contents (Elt F)),
    unary main_v1 main_v88 ((extractStridedSlice S1x1x128x128 ![2, 2, 0, 0] · slices_S5x5x128x128_S1x1x128x128_2_2_0_0) : (⟨S5x5x128x128, .f32⟩ : BufTy).Contents (Elt F) → (⟨S1x1x128x128, .f32⟩ : BufTy).Contents (Elt F)),
    reshape main_v88 main_v89 rfl shapeCasts_S1x1x128x128_S128x128,
    unary main_v89 main_v90 (broadcastInDim S1x128x128 ![1, 2] bcast_S128x128_S1x128x128_1_2 : (⟨S128x128, .f32⟩ : BufTy).Contents (Elt F) → (⟨S1x128x128, .f32⟩ : BufTy).Contents (Elt F)),
    unary main_v90 main_v91 (broadcastInDim S256x128x128 ![0, 1, 2] bcast_S1x128x128_S256x128x128_0_1_2 : (⟨S1x128x128, .f32⟩ : BufTy).Contents (Elt F) → (⟨S256x128x128, .f32⟩ : BufTy).Contents (Elt F)),
    binary main_v87 main_v91 main_v92 (mulf : (⟨S256x128x128, .f32⟩ : BufTy).Contents (Elt F) → (⟨S256x128x128, .f32⟩ : BufTy).Contents (Elt F) → (⟨S256x128x128, .f32⟩ : BufTy).Contents (Elt F)),
    binary main_v86 main_v92 main_v93 (addf : (⟨S256x128x128, .f32⟩ : BufTy).Contents (Elt F) → (⟨S256x128x128, .f32⟩ : BufTy).Contents (Elt F) → (⟨S256x128x128, .f32⟩ : BufTy).Contents (Elt F)),
    unary main_v0 main_v94 ((extractStridedSlice S256x128x128 ![0, 2, 3] · slices_S256x132x132_S256x128x128_0_2_3) : (⟨S256x132x132, .f32⟩ : BufTy).Contents (Elt F) → (⟨S256x128x128, .f32⟩ : BufTy).Contents (Elt F)),
    unary main_v1 main_v95 ((extractStridedSlice S1x1x128x128 ![2, 3, 0, 0] · slices_S5x5x128x128_S1x1x128x128_2_3_0_0) : (⟨S5x5x128x128, .f32⟩ : BufTy).Contents (Elt F) → (⟨S1x1x128x128, .f32⟩ : BufTy).Contents (Elt F)),
    reshape main_v95 main_v96 rfl shapeCasts_S1x1x128x128_S128x128,
    unary main_v96 main_v97 (broadcastInDim S1x128x128 ![1, 2] bcast_S128x128_S1x128x128_1_2 : (⟨S128x128, .f32⟩ : BufTy).Contents (Elt F) → (⟨S1x128x128, .f32⟩ : BufTy).Contents (Elt F)),
    unary main_v97 main_v98 (broadcastInDim S256x128x128 ![0, 1, 2] bcast_S1x128x128_S256x128x128_0_1_2 : (⟨S1x128x128, .f32⟩ : BufTy).Contents (Elt F) → (⟨S256x128x128, .f32⟩ : BufTy).Contents (Elt F)),
    binary main_v94 main_v98 main_v99 (mulf : (⟨S256x128x128, .f32⟩ : BufTy).Contents (Elt F) → (⟨S256x128x128, .f32⟩ : BufTy).Contents (Elt F) → (⟨S256x128x128, .f32⟩ : BufTy).Contents (Elt F)),
    binary main_v93 main_v99 main_v100 (addf : (⟨S256x128x128, .f32⟩ : BufTy).Contents (Elt F) → (⟨S256x128x128, .f32⟩ : BufTy).Contents (Elt F) → (⟨S256x128x128, .f32⟩ : BufTy).Contents (Elt F)),
    unary main_v0 main_v101 ((extractStridedSlice S256x128x128 ![0, 2, 4] · slices_S256x132x132_S256x128x128_0_2_4) : (⟨S256x132x132, .f32⟩ : BufTy).Contents (Elt F) → (⟨S256x128x128, .f32⟩ : BufTy).Contents (Elt F)),
    unary main_v1 main_v102 ((extractStridedSlice S1x1x128x128 ![2, 4, 0, 0] · slices_S5x5x128x128_S1x1x128x128_2_4_0_0) : (⟨S5x5x128x128, .f32⟩ : BufTy).Contents (Elt F) → (⟨S1x1x128x128, .f32⟩ : BufTy).Contents (Elt F)),
    reshape main_v102 main_v103 rfl shapeCasts_S1x1x128x128_S128x128,
    unary main_v103 main_v104 (broadcastInDim S1x128x128 ![1, 2] bcast_S128x128_S1x128x128_1_2 : (⟨S128x128, .f32⟩ : BufTy).Contents (Elt F) → (⟨S1x128x128, .f32⟩ : BufTy).Contents (Elt F)),
    unary main_v104 main_v105 (broadcastInDim S256x128x128 ![0, 1, 2] bcast_S1x128x128_S256x128x128_0_1_2 : (⟨S1x128x128, .f32⟩ : BufTy).Contents (Elt F) → (⟨S256x128x128, .f32⟩ : BufTy).Contents (Elt F)),
    binary main_v101 main_v105 main_v106 (mulf : (⟨S256x128x128, .f32⟩ : BufTy).Contents (Elt F) → (⟨S256x128x128, .f32⟩ : BufTy).Contents (Elt F) → (⟨S256x128x128, .f32⟩ : BufTy).Contents (Elt F)),
    binary main_v100 main_v106 main_v107 (addf : (⟨S256x128x128, .f32⟩ : BufTy).Contents (Elt F) → (⟨S256x128x128, .f32⟩ : BufTy).Contents (Elt F) → (⟨S256x128x128, .f32⟩ : BufTy).Contents (Elt F)),
    unary main_v0 main_v108 ((extractStridedSlice S256x128x128 ![0, 3, 0] · slices_S256x132x132_S256x128x128_0_3_0) : (⟨S256x132x132, .f32⟩ : BufTy).Contents (Elt F) → (⟨S256x128x128, .f32⟩ : BufTy).Contents (Elt F)),
    unary main_v1 main_v109 ((extractStridedSlice S1x1x128x128 ![3, 0, 0, 0] · slices_S5x5x128x128_S1x1x128x128_3_0_0_0) : (⟨S5x5x128x128, .f32⟩ : BufTy).Contents (Elt F) → (⟨S1x1x128x128, .f32⟩ : BufTy).Contents (Elt F)),
    reshape main_v109 main_v110 rfl shapeCasts_S1x1x128x128_S128x128,
    unary main_v110 main_v111 (broadcastInDim S1x128x128 ![1, 2] bcast_S128x128_S1x128x128_1_2 : (⟨S128x128, .f32⟩ : BufTy).Contents (Elt F) → (⟨S1x128x128, .f32⟩ : BufTy).Contents (Elt F)),
    unary main_v111 main_v112 (broadcastInDim S256x128x128 ![0, 1, 2] bcast_S1x128x128_S256x128x128_0_1_2 : (⟨S1x128x128, .f32⟩ : BufTy).Contents (Elt F) → (⟨S256x128x128, .f32⟩ : BufTy).Contents (Elt F)),
    binary main_v108 main_v112 main_v113 (mulf : (⟨S256x128x128, .f32⟩ : BufTy).Contents (Elt F) → (⟨S256x128x128, .f32⟩ : BufTy).Contents (Elt F) → (⟨S256x128x128, .f32⟩ : BufTy).Contents (Elt F)),
    binary main_v107 main_v113 main_v114 (addf : (⟨S256x128x128, .f32⟩ : BufTy).Contents (Elt F) → (⟨S256x128x128, .f32⟩ : BufTy).Contents (Elt F) → (⟨S256x128x128, .f32⟩ : BufTy).Contents (Elt F)),
    unary main_v0 main_v115 ((extractStridedSlice S256x128x128 ![0, 3, 1] · slices_S256x132x132_S256x128x128_0_3_1) : (⟨S256x132x132, .f32⟩ : BufTy).Contents (Elt F) → (⟨S256x128x128, .f32⟩ : BufTy).Contents (Elt F)),
    unary main_v1 main_v116 ((extractStridedSlice S1x1x128x128 ![3, 1, 0, 0] · slices_S5x5x128x128_S1x1x128x128_3_1_0_0) : (⟨S5x5x128x128, .f32⟩ : BufTy).Contents (Elt F) → (⟨S1x1x128x128, .f32⟩ : BufTy).Contents (Elt F)),
    reshape main_v116 main_v117 rfl shapeCasts_S1x1x128x128_S128x128 ]

set_option maxRecDepth 8192 in
set_option maxHeartbeats 4000000 in
theorem window1_eq (c : Dev nD) : main_part1 (F := F) c = seq windowOps1 := rfl

set_option maxRecDepth 8192 in
theorem window1_sub : (windowOps1 : List (HloOp τ sig (Elt F))).Forall fun op => op.bufs ⊆ tcRefs τ sig :=
  ⟨binary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub .., unary_bufs_sub .., unary_bufs_sub .., reshape_bufs_sub ..⟩

set_option maxRecDepth 8192 in
theorem window1_fresh : ∀ op ∈ (windowOps1 : List (HloOp τ sig (Elt F))), op.fresh = ∅ := by
  intro _ h
  (repeat (cases h with | head => rfl | tail _ h => ?_))
  exact nomatch h

/-- Operations 122 … 181 of @main: its third printed window. -/
abbrev windowOps2 : List (HloOp τ sig (Elt F)) :=
  [ unary main_v117 main_v118 (broadcastInDim S1x128x128 ![1, 2] bcast_S128x128_S1x128x128_1_2 : (⟨S128x128, .f32⟩ : BufTy).Contents (Elt F) → (⟨S1x128x128, .f32⟩ : BufTy).Contents (Elt F)),
    unary main_v118 main_v119 (broadcastInDim S256x128x128 ![0, 1, 2] bcast_S1x128x128_S256x128x128_0_1_2 : (⟨S1x128x128, .f32⟩ : BufTy).Contents (Elt F) → (⟨S256x128x128, .f32⟩ : BufTy).Contents (Elt F)),
    binary main_v115 main_v119 main_v120 (mulf : (⟨S256x128x128, .f32⟩ : BufTy).Contents (Elt F) → (⟨S256x128x128, .f32⟩ : BufTy).Contents (Elt F) → (⟨S256x128x128, .f32⟩ : BufTy).Contents (Elt F)),
    binary main_v114 main_v120 main_v121 (addf : (⟨S256x128x128, .f32⟩ : BufTy).Contents (Elt F) → (⟨S256x128x128, .f32⟩ : BufTy).Contents (Elt F) → (⟨S256x128x128, .f32⟩ : BufTy).Contents (Elt F)),
    unary main_v0 main_v122 ((extractStridedSlice S256x128x128 ![0, 3, 2] · slices_S256x132x132_S256x128x128_0_3_2) : (⟨S256x132x132, .f32⟩ : BufTy).Contents (Elt F) → (⟨S256x128x128, .f32⟩ : BufTy).Contents (Elt F)),
    unary main_v1 main_v123 ((extractStridedSlice S1x1x128x128 ![3, 2, 0, 0] · slices_S5x5x128x128_S1x1x128x128_3_2_0_0) : (⟨S5x5x128x128, .f32⟩ : BufTy).Contents (Elt F) → (⟨S1x1x128x128, .f32⟩ : BufTy).Contents (Elt F)),
    reshape main_v123 main_v124 rfl shapeCasts_S1x1x128x128_S128x128,
    unary main_v124 main_v125 (broadcastInDim S1x128x128 ![1, 2] bcast_S128x128_S1x128x128_1_2 : (⟨S128x128, .f32⟩ : BufTy).Contents (Elt F) → (⟨S1x128x128, .f32⟩ : BufTy).Contents (Elt F)),
    unary main_v125 main_v126 (broadcastInDim S256x128x128 ![0, 1, 2] bcast_S1x128x128_S256x128x128_0_1_2 : (⟨S1x128x128, .f32⟩ : BufTy).Contents (Elt F) → (⟨S256x128x128, .f32⟩ : BufTy).Contents (Elt F)),
    binary main_v122 main_v126 main_v127 (mulf : (⟨S256x128x128, .f32⟩ : BufTy).Contents (Elt F) → (⟨S256x128x128, .f32⟩ : BufTy).Contents (Elt F) → (⟨S256x128x128, .f32⟩ : BufTy).Contents (Elt F)),
    binary main_v121 main_v127 main_v128 (addf : (⟨S256x128x128, .f32⟩ : BufTy).Contents (Elt F) → (⟨S256x128x128, .f32⟩ : BufTy).Contents (Elt F) → (⟨S256x128x128, .f32⟩ : BufTy).Contents (Elt F)),
    unary main_v0 main_v129 ((extractStridedSlice S256x128x128 ![0, 3, 3] · slices_S256x132x132_S256x128x128_0_3_3) : (⟨S256x132x132, .f32⟩ : BufTy).Contents (Elt F) → (⟨S256x128x128, .f32⟩ : BufTy).Contents (Elt F)),
    unary main_v1 main_v130 ((extractStridedSlice S1x1x128x128 ![3, 3, 0, 0] · slices_S5x5x128x128_S1x1x128x128_3_3_0_0) : (⟨S5x5x128x128, .f32⟩ : BufTy).Contents (Elt F) → (⟨S1x1x128x128, .f32⟩ : BufTy).Contents (Elt F)),
    reshape main_v130 main_v131 rfl shapeCasts_S1x1x128x128_S128x128,
    unary main_v131 main_v132 (broadcastInDim S1x128x128 ![1, 2] bcast_S128x128_S1x128x128_1_2 : (⟨S128x128, .f32⟩ : BufTy).Contents (Elt F) → (⟨S1x128x128, .f32⟩ : BufTy).Contents (Elt F)),
    unary main_v132 main_v133 (broadcastInDim S256x128x128 ![0, 1, 2] bcast_S1x128x128_S256x128x128_0_1_2 : (⟨S1x128x128, .f32⟩ : BufTy).Contents (Elt F) → (⟨S256x128x128, .f32⟩ : BufTy).Contents (Elt F)),
    binary main_v129 main_v133 main_v134 (mulf : (⟨S256x128x128, .f32⟩ : BufTy).Contents (Elt F) → (⟨S256x128x128, .f32⟩ : BufTy).Contents (Elt F) → (⟨S256x128x128, .f32⟩ : BufTy).Contents (Elt F)),
    binary main_v128 main_v134 main_v135 (addf : (⟨S256x128x128, .f32⟩ : BufTy).Contents (Elt F) → (⟨S256x128x128, .f32⟩ : BufTy).Contents (Elt F) → (⟨S256x128x128, .f32⟩ : BufTy).Contents (Elt F)),
    unary main_v0 main_v136 ((extractStridedSlice S256x128x128 ![0, 3, 4] · slices_S256x132x132_S256x128x128_0_3_4) : (⟨S256x132x132, .f32⟩ : BufTy).Contents (Elt F) → (⟨S256x128x128, .f32⟩ : BufTy).Contents (Elt F)),
    unary main_v1 main_v137 ((extractStridedSlice S1x1x128x128 ![3, 4, 0, 0] · slices_S5x5x128x128_S1x1x128x128_3_4_0_0) : (⟨S5x5x128x128, .f32⟩ : BufTy).Contents (Elt F) → (⟨S1x1x128x128, .f32⟩ : BufTy).Contents (Elt F)),
    reshape main_v137 main_v138 rfl shapeCasts_S1x1x128x128_S128x128,
    unary main_v138 main_v139 (broadcastInDim S1x128x128 ![1, 2] bcast_S128x128_S1x128x128_1_2 : (⟨S128x128, .f32⟩ : BufTy).Contents (Elt F) → (⟨S1x128x128, .f32⟩ : BufTy).Contents (Elt F)),
    unary main_v139 main_v140 (broadcastInDim S256x128x128 ![0, 1, 2] bcast_S1x128x128_S256x128x128_0_1_2 : (⟨S1x128x128, .f32⟩ : BufTy).Contents (Elt F) → (⟨S256x128x128, .f32⟩ : BufTy).Contents (Elt F)),
    binary main_v136 main_v140 main_v141 (mulf : (⟨S256x128x128, .f32⟩ : BufTy).Contents (Elt F) → (⟨S256x128x128, .f32⟩ : BufTy).Contents (Elt F) → (⟨S256x128x128, .f32⟩ : BufTy).Contents (Elt F)),
    binary main_v135 main_v141 main_v142 (addf : (⟨S256x128x128, .f32⟩ : BufTy).Contents (Elt F) → (⟨S256x128x128, .f32⟩ : BufTy).Contents (Elt F) → (⟨S256x128x128, .f32⟩ : BufTy).Contents (Elt F)),
    unary main_v0 main_v143 ((extractStridedSlice S256x128x128 ![0, 4, 0] · slices_S256x132x132_S256x128x128_0_4_0) : (⟨S256x132x132, .f32⟩ : BufTy).Contents (Elt F) → (⟨S256x128x128, .f32⟩ : BufTy).Contents (Elt F)),
    unary main_v1 main_v144 ((extractStridedSlice S1x1x128x128 ![4, 0, 0, 0] · slices_S5x5x128x128_S1x1x128x128_4_0_0_0) : (⟨S5x5x128x128, .f32⟩ : BufTy).Contents (Elt F) → (⟨S1x1x128x128, .f32⟩ : BufTy).Contents (Elt F)),
    reshape main_v144 main_v145 rfl shapeCasts_S1x1x128x128_S128x128,
    unary main_v145 main_v146 (broadcastInDim S1x128x128 ![1, 2] bcast_S128x128_S1x128x128_1_2 : (⟨S128x128, .f32⟩ : BufTy).Contents (Elt F) → (⟨S1x128x128, .f32⟩ : BufTy).Contents (Elt F)),
    unary main_v146 main_v147 (broadcastInDim S256x128x128 ![0, 1, 2] bcast_S1x128x128_S256x128x128_0_1_2 : (⟨S1x128x128, .f32⟩ : BufTy).Contents (Elt F) → (⟨S256x128x128, .f32⟩ : BufTy).Contents (Elt F)),
    binary main_v143 main_v147 main_v148 (mulf : (⟨S256x128x128, .f32⟩ : BufTy).Contents (Elt F) → (⟨S256x128x128, .f32⟩ : BufTy).Contents (Elt F) → (⟨S256x128x128, .f32⟩ : BufTy).Contents (Elt F)),
    binary main_v142 main_v148 main_v149 (addf : (⟨S256x128x128, .f32⟩ : BufTy).Contents (Elt F) → (⟨S256x128x128, .f32⟩ : BufTy).Contents (Elt F) → (⟨S256x128x128, .f32⟩ : BufTy).Contents (Elt F)),
    unary main_v0 main_v150 ((extractStridedSlice S256x128x128 ![0, 4, 1] · slices_S256x132x132_S256x128x128_0_4_1) : (⟨S256x132x132, .f32⟩ : BufTy).Contents (Elt F) → (⟨S256x128x128, .f32⟩ : BufTy).Contents (Elt F)),
    unary main_v1 main_v151 ((extractStridedSlice S1x1x128x128 ![4, 1, 0, 0] · slices_S5x5x128x128_S1x1x128x128_4_1_0_0) : (⟨S5x5x128x128, .f32⟩ : BufTy).Contents (Elt F) → (⟨S1x1x128x128, .f32⟩ : BufTy).Contents (Elt F)),
    reshape main_v151 main_v152 rfl shapeCasts_S1x1x128x128_S128x128,
    unary main_v152 main_v153 (broadcastInDim S1x128x128 ![1, 2] bcast_S128x128_S1x128x128_1_2 : (⟨S128x128, .f32⟩ : BufTy).Contents (Elt F) → (⟨S1x128x128, .f32⟩ : BufTy).Contents (Elt F)),
    unary main_v153 main_v154 (broadcastInDim S256x128x128 ![0, 1, 2] bcast_S1x128x128_S256x128x128_0_1_2 : (⟨S1x128x128, .f32⟩ : BufTy).Contents (Elt F) → (⟨S256x128x128, .f32⟩ : BufTy).Contents (Elt F)),
    binary main_v150 main_v154 main_v155 (mulf : (⟨S256x128x128, .f32⟩ : BufTy).Contents (Elt F) → (⟨S256x128x128, .f32⟩ : BufTy).Contents (Elt F) → (⟨S256x128x128, .f32⟩ : BufTy).Contents (Elt F)),
    binary main_v149 main_v155 main_v156 (addf : (⟨S256x128x128, .f32⟩ : BufTy).Contents (Elt F) → (⟨S256x128x128, .f32⟩ : BufTy).Contents (Elt F) → (⟨S256x128x128, .f32⟩ : BufTy).Contents (Elt F)),
    unary main_v0 main_v157 ((extractStridedSlice S256x128x128 ![0, 4, 2] · slices_S256x132x132_S256x128x128_0_4_2) : (⟨S256x132x132, .f32⟩ : BufTy).Contents (Elt F) → (⟨S256x128x128, .f32⟩ : BufTy).Contents (Elt F)),
    unary main_v1 main_v158 ((extractStridedSlice S1x1x128x128 ![4, 2, 0, 0] · slices_S5x5x128x128_S1x1x128x128_4_2_0_0) : (⟨S5x5x128x128, .f32⟩ : BufTy).Contents (Elt F) → (⟨S1x1x128x128, .f32⟩ : BufTy).Contents (Elt F)),
    reshape main_v158 main_v159 rfl shapeCasts_S1x1x128x128_S128x128,
    unary main_v159 main_v160 (broadcastInDim S1x128x128 ![1, 2] bcast_S128x128_S1x128x128_1_2 : (⟨S128x128, .f32⟩ : BufTy).Contents (Elt F) → (⟨S1x128x128, .f32⟩ : BufTy).Contents (Elt F)),
    unary main_v160 main_v161 (broadcastInDim S256x128x128 ![0, 1, 2] bcast_S1x128x128_S256x128x128_0_1_2 : (⟨S1x128x128, .f32⟩ : BufTy).Contents (Elt F) → (⟨S256x128x128, .f32⟩ : BufTy).Contents (Elt F)),
    binary main_v157 main_v161 main_v162 (mulf : (⟨S256x128x128, .f32⟩ : BufTy).Contents (Elt F) → (⟨S256x128x128, .f32⟩ : BufTy).Contents (Elt F) → (⟨S256x128x128, .f32⟩ : BufTy).Contents (Elt F)),
    binary main_v156 main_v162 main_v163 (addf : (⟨S256x128x128, .f32⟩ : BufTy).Contents (Elt F) → (⟨S256x128x128, .f32⟩ : BufTy).Contents (Elt F) → (⟨S256x128x128, .f32⟩ : BufTy).Contents (Elt F)),
    unary main_v0 main_v164 ((extractStridedSlice S256x128x128 ![0, 4, 3] · slices_S256x132x132_S256x128x128_0_4_3) : (⟨S256x132x132, .f32⟩ : BufTy).Contents (Elt F) → (⟨S256x128x128, .f32⟩ : BufTy).Contents (Elt F)),
    unary main_v1 main_v165 ((extractStridedSlice S1x1x128x128 ![4, 3, 0, 0] · slices_S5x5x128x128_S1x1x128x128_4_3_0_0) : (⟨S5x5x128x128, .f32⟩ : BufTy).Contents (Elt F) → (⟨S1x1x128x128, .f32⟩ : BufTy).Contents (Elt F)),
    reshape main_v165 main_v166 rfl shapeCasts_S1x1x128x128_S128x128,
    unary main_v166 main_v167 (broadcastInDim S1x128x128 ![1, 2] bcast_S128x128_S1x128x128_1_2 : (⟨S128x128, .f32⟩ : BufTy).Contents (Elt F) → (⟨S1x128x128, .f32⟩ : BufTy).Contents (Elt F)),
    unary main_v167 main_v168 (broadcastInDim S256x128x128 ![0, 1, 2] bcast_S1x128x128_S256x128x128_0_1_2 : (⟨S1x128x128, .f32⟩ : BufTy).Contents (Elt F) → (⟨S256x128x128, .f32⟩ : BufTy).Contents (Elt F)),
    binary main_v164 main_v168 main_v169 (mulf : (⟨S256x128x128, .f32⟩ : BufTy).Contents (Elt F) → (⟨S256x128x128, .f32⟩ : BufTy).Contents (Elt F) → (⟨S256x128x128, .f32⟩ : BufTy).Contents (Elt F)),
    binary main_v163 main_v169 main_v170 (addf : (⟨S256x128x128, .f32⟩ : BufTy).Contents (Elt F) → (⟨S256x128x128, .f32⟩ : BufTy).Contents (Elt F) → (⟨S256x128x128, .f32⟩ : BufTy).Contents (Elt F)),
    unary main_v0 main_v171 ((extractStridedSlice S256x128x128 ![0, 4, 4] · slices_S256x132x132_S256x128x128_0_4_4) : (⟨S256x132x132, .f32⟩ : BufTy).Contents (Elt F) → (⟨S256x128x128, .f32⟩ : BufTy).Contents (Elt F)),
    unary main_v1 main_v172 ((extractStridedSlice S1x1x128x128 ![4, 4, 0, 0] · slices_S5x5x128x128_S1x1x128x128_4_4_0_0) : (⟨S5x5x128x128, .f32⟩ : BufTy).Contents (Elt F) → (⟨S1x1x128x128, .f32⟩ : BufTy).Contents (Elt F)),
    reshape main_v172 main_v173 rfl shapeCasts_S1x1x128x128_S128x128,
    unary main_v173 main_v174 (broadcastInDim S1x128x128 ![1, 2] bcast_S128x128_S1x128x128_1_2 : (⟨S128x128, .f32⟩ : BufTy).Contents (Elt F) → (⟨S1x128x128, .f32⟩ : BufTy).Contents (Elt F)),
    unary main_v174 main_v175 (broadcastInDim S256x128x128 ![0, 1, 2] bcast_S1x128x128_S256x128x128_0_1_2 : (⟨S1x128x128, .f32⟩ : BufTy).Contents (Elt F) → (⟨S256x128x128, .f32⟩ : BufTy).Contents (Elt F)),
    binary main_v171 main_v175 main_v176 (mulf : (⟨S256x128x128, .f32⟩ : BufTy).Contents (Elt F) → (⟨S256x128x128, .f32⟩ : BufTy).Contents (Elt F) → (⟨S256x128x128, .f32⟩ : BufTy).Contents (Elt F)),
    binary main_v170 main_v176 main_v177 (addf : (⟨S256x128x128, .f32⟩ : BufTy).Contents (Elt F) → (⟨S256x128x128, .f32⟩ : BufTy).Contents (Elt F) → (⟨S256x128x128, .f32⟩ : BufTy).Contents (Elt F)) ]

set_option maxRecDepth 8192 in
set_option maxHeartbeats 4000000 in
theorem window2_eq (c : Dev nD) : main_part2 (F := F) c = seq windowOps2 := rfl

set_option maxRecDepth 8192 in
theorem window2_sub : (windowOps2 : List (HloOp τ sig (Elt F))).Forall fun op => op.bufs ⊆ tcRefs τ sig :=
  ⟨unary_bufs_sub .., unary_bufs_sub .., binary_bufs_sub .., binary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub ..⟩

set_option maxRecDepth 8192 in
theorem window2_fresh : ∀ op ∈ (windowOps2 : List (HloOp τ sig (Elt F))), op.fresh = ∅ := by
  intro _ h
  (repeat (cases h with | head => rfl | tail _ h => ?_))
  exact nomatch h

/-- Operations 182 … 188 of @main: its fourth printed window. -/
abbrev windowOps3 : List (HloOp τ sig (Elt F)) :=
  [ unary main_arg2 main_v178 (broadcastInDim S256x1x1 ![0] bcast_S256_S256x1x1_0 : (⟨S256, .f32⟩ : BufTy).Contents (Elt F) → (⟨S256x1x1, .f32⟩ : BufTy).Contents (Elt F)),
    unary main_v178 main_v179 (broadcastInDim S256x128x128 ![0, 1, 2] bcast_S256x1x1_S256x128x128_0_1_2 : (⟨S256x1x1, .f32⟩ : BufTy).Contents (Elt F) → (⟨S256x128x128, .f32⟩ : BufTy).Contents (Elt F)),
    binary main_v177 main_v179 main_v180 (mulf : (⟨S256x128x128, .f32⟩ : BufTy).Contents (Elt F) → (⟨S256x128x128, .f32⟩ : BufTy).Contents (Elt F) → (⟨S256x128x128, .f32⟩ : BufTy).Contents (Elt F)),
    binary main_arg0 main_v180 main_v181 (addf : (⟨S256x128x128, .f32⟩ : BufTy).Contents (Elt F) → (⟨S256x128x128, .f32⟩ : BufTy).Contents (Elt F) → (⟨S256x128x128, .f32⟩ : BufTy).Contents (Elt F)),
    nullary main_cst_0 (constant S_ .f32 0x00000000#32),
    unary main_cst_0 main_v182 (broadcastInDim S256x128x128 ![] bcast_S_S256x128x128 : (⟨S_, .f32⟩ : BufTy).Contents (Elt F) → (⟨S256x128x128, .f32⟩ : BufTy).Contents (Elt F)),
    binary main_v181 main_v182 main_v183 (maximumf : (⟨S256x128x128, .f32⟩ : BufTy).Contents (Elt F) → (⟨S256x128x128, .f32⟩ : BufTy).Contents (Elt F) → (⟨S256x128x128, .f32⟩ : BufTy).Contents (Elt F)) ]

set_option maxRecDepth 8192 in
set_option maxHeartbeats 4000000 in
theorem window3_eq (c : Dev nD) : main_part3 (F := F) c = seq windowOps3 := rfl

set_option maxRecDepth 8192 in
theorem window3_sub : (windowOps3 : List (HloOp τ sig (Elt F))).Forall fun op => op.bufs ⊆ tcRefs τ sig :=
  ⟨unary_bufs_sub .., unary_bufs_sub .., binary_bufs_sub .., binary_bufs_sub .., nullary_bufs_sub .., unary_bufs_sub .., binary_bufs_sub ..⟩

set_option maxRecDepth 8192 in
theorem window3_fresh : ∀ op ∈ (windowOps3 : List (HloOp τ sig (Elt F))), op.fresh = ∅ := by
  intro _ h
  (repeat (cases h with | head => rfl | tail _ h => ?_))
  exact nomatch h

/-! ## The windows are the prelude, the taps and the coda -/

/-- Tap 7 up to its product: the part in the first window. -/
abbrev tapOps7a : List (HloOp τ sig (Elt F)) :=
  [ unary main_v0 main_v52 ((extractStridedSlice S256x128x128 ![0, 1, 2] · slices_S256x132x132_S256x128x128_0_1_2) : (⟨S256x132x132, .f32⟩ : BufTy).Contents (Elt F) → (⟨S256x128x128, .f32⟩ : BufTy).Contents (Elt F)),
    unary main_v1 main_v53 ((extractStridedSlice S1x1x128x128 ![1, 2, 0, 0] · slices_S5x5x128x128_S1x1x128x128_1_2_0_0) : (⟨S5x5x128x128, .f32⟩ : BufTy).Contents (Elt F) → (⟨S1x1x128x128, .f32⟩ : BufTy).Contents (Elt F)),
    reshape main_v53 main_v54 rfl shapeCasts_S1x1x128x128_S128x128,
    unary main_v54 main_v55 (broadcastInDim S1x128x128 ![1, 2] bcast_S128x128_S1x128x128_1_2 : (⟨S128x128, .f32⟩ : BufTy).Contents (Elt F) → (⟨S1x128x128, .f32⟩ : BufTy).Contents (Elt F)),
    unary main_v55 main_v56 (broadcastInDim S256x128x128 ![0, 1, 2] bcast_S1x128x128_S256x128x128_0_1_2 : (⟨S1x128x128, .f32⟩ : BufTy).Contents (Elt F) → (⟨S256x128x128, .f32⟩ : BufTy).Contents (Elt F)),
    binary main_v52 main_v56 main_v57 (mulf : (⟨S256x128x128, .f32⟩ : BufTy).Contents (Elt F) → (⟨S256x128x128, .f32⟩ : BufTy).Contents (Elt F) → (⟨S256x128x128, .f32⟩ : BufTy).Contents (Elt F)) ]
/-- Tap 7's addition: the part in the second window. -/
abbrev tapOps7b : List (HloOp τ sig (Elt F)) :=
  [ binary main_v51 main_v57 main_v58 (addf : (⟨S256x128x128, .f32⟩ : BufTy).Contents (Elt F) → (⟨S256x128x128, .f32⟩ : BufTy).Contents (Elt F) → (⟨S256x128x128, .f32⟩ : BufTy).Contents (Elt F)) ]
/-- Tap 16's two slices and the reshape: the part in the second window. -/
abbrev tapOps16a : List (HloOp τ sig (Elt F)) :=
  [ unary main_v0 main_v115 ((extractStridedSlice S256x128x128 ![0, 3, 1] · slices_S256x132x132_S256x128x128_0_3_1) : (⟨S256x132x132, .f32⟩ : BufTy).Contents (Elt F) → (⟨S256x128x128, .f32⟩ : BufTy).Contents (Elt F)),
    unary main_v1 main_v116 ((extractStridedSlice S1x1x128x128 ![3, 1, 0, 0] · slices_S5x5x128x128_S1x1x128x128_3_1_0_0) : (⟨S5x5x128x128, .f32⟩ : BufTy).Contents (Elt F) → (⟨S1x1x128x128, .f32⟩ : BufTy).Contents (Elt F)),
    reshape main_v116 main_v117 rfl shapeCasts_S1x1x128x128_S128x128 ]
/-- The rest of tap 16: the part in the third window. -/
abbrev tapOps16b : List (HloOp τ sig (Elt F)) :=
  [ unary main_v117 main_v118 (broadcastInDim S1x128x128 ![1, 2] bcast_S128x128_S1x128x128_1_2 : (⟨S128x128, .f32⟩ : BufTy).Contents (Elt F) → (⟨S1x128x128, .f32⟩ : BufTy).Contents (Elt F)),
    unary main_v118 main_v119 (broadcastInDim S256x128x128 ![0, 1, 2] bcast_S1x128x128_S256x128x128_0_1_2 : (⟨S1x128x128, .f32⟩ : BufTy).Contents (Elt F) → (⟨S256x128x128, .f32⟩ : BufTy).Contents (Elt F)),
    binary main_v115 main_v119 main_v120 (mulf : (⟨S256x128x128, .f32⟩ : BufTy).Contents (Elt F) → (⟨S256x128x128, .f32⟩ : BufTy).Contents (Elt F) → (⟨S256x128x128, .f32⟩ : BufTy).Contents (Elt F)),
    binary main_v114 main_v120 main_v121 (addf : (⟨S256x128x128, .f32⟩ : BufTy).Contents (Elt F) → (⟨S256x128x128, .f32⟩ : BufTy).Contents (Elt F) → (⟨S256x128x128, .f32⟩ : BufTy).Contents (Elt F)) ]

theorem tap7_cut : (tapOps7 : List (HloOp τ sig (Elt F))) = tapOps7a ++ tapOps7b := rfl
theorem tap16_cut : (tapOps16 : List (HloOp τ sig (Elt F))) = tapOps16a ++ tapOps16b := rfl

theorem window0_stretch : (windowOps0 : List (HloOp τ sig (Elt F)))
    = prelude ++ tapOps0 ++ tapOps1 ++ tapOps2 ++ tapOps3 ++ tapOps4 ++ tapOps5 ++ tapOps6 ++ tapOps7a := rfl
theorem window1_stretch : (windowOps1 : List (HloOp τ sig (Elt F)))
    = tapOps7b ++ tapOps8 ++ tapOps9 ++ tapOps10 ++ tapOps11 ++ tapOps12 ++ tapOps13 ++ tapOps14 ++ tapOps15 ++ tapOps16a := rfl
theorem window2_stretch : (windowOps2 : List (HloOp τ sig (Elt F)))
    = tapOps16b ++ tapOps17 ++ tapOps18 ++ tapOps19 ++ tapOps20 ++ tapOps21 ++ tapOps22 ++ tapOps23 ++ tapOps24 := rfl
theorem window3_stretch : (windowOps3 : List (HloOp τ sig (Elt F))) = coda := rfl

/-- @main's 188 operations, in order: the four windows one after another. -/
abbrev ops : List (HloOp τ sig (Elt F)) := windowOps0 ++ windowOps1 ++ windowOps2 ++ windowOps3

/-- They are the prelude, the 25 taps and the coda. -/
theorem ops_eq : (ops : List (HloOp τ sig (Elt F))) = prelude ++ tapsOps ++ coda := by
  show windowOps0 ++ windowOps1 ++ windowOps2 ++ windowOps3
    = prelude ++ (tapOps0 ++ tapOps1 ++ tapOps2 ++ tapOps3 ++ tapOps4 ++ tapOps5 ++ tapOps6 ++ tapOps7 ++ tapOps8 ++ tapOps9 ++ tapOps10 ++ tapOps11 ++ tapOps12 ++ tapOps13 ++ tapOps14 ++ tapOps15 ++ tapOps16 ++ tapOps17 ++ tapOps18 ++ tapOps19 ++ tapOps20 ++ tapOps21 ++ tapOps22 ++ tapOps23 ++ tapOps24) ++ coda
  rw [window0_stretch, window1_stretch, window2_stretch, window3_stretch, tap7_cut, tap16_cut]
  simp only [List.append_assoc]

/-- @main runs them in order: it runs its four windows in order, and each is its stretch. -/
theorem main_eq (c : Dev nD) : main (F := F) c = seq ops :=
  seq_four _ _ _ _ _ _ _ _ (window0_eq c) (window1_eq c) (window2_eq c) (window3_eq c)

theorem ops_sub : (ops : List (HloOp τ sig (Elt F))).Forall fun op => op.bufs ⊆ tcRefs τ sig := by
  rw [List.forall_iff_forall_mem]
  intro op h
  rcases List.mem_append.mp h with h | h
  · rcases List.mem_append.mp h with h | h
    · rcases List.mem_append.mp h with h | h
      · exact List.forall_iff_forall_mem.mp window0_sub op h
      · exact List.forall_iff_forall_mem.mp window1_sub op h
    · exact List.forall_iff_forall_mem.mp window2_sub op h
  · exact List.forall_iff_forall_mem.mp window3_sub op h

theorem ops_fresh : ∀ op ∈ (ops : List (HloOp τ sig (Elt F))), op.fresh = ∅ := by
  intro op h
  rcases List.mem_append.mp h with h | h
  · rcases List.mem_append.mp h with h | h
    · rcases List.mem_append.mp h with h | h
      · exact window0_fresh op h
      · exact window1_fresh op h
    · exact window2_fresh op h
  · exact window3_fresh op h

end Cert.ReferenceIdeal.Hand

end
-- ==== Proof.ReferenceTaps.lean ====
/-
  The reference's 25 taps, one after another.

  Each tap is a stretch of seven operations: it slices the bordered batch at offsets (0, di, dj), takes plane (di, dj) of
  the weight table re-laid as 5 x 5 x 128 x 128, lays it under every image, multiplies and adds the product to the running
  total; it leaves the bordered batch and the re-laid table as they were. At output pixel (b, r, s) the slice is the
  bordered batch at (b, r + di, s + dj), and plane (di, dj) at (r, s) is the weight table at row 5 di + dj, column 128 r + s
  (both are position ((5 di + dj) * 128 + r) * 128 + s of the flat table): one tap of `stencil`. So after n taps the running
  total is the first n taps of `stencil` added to what the total started from.
-/
import proofs.«159623_j87746181857881_2_alg».proof.Proof.ReferenceOps
import proofs.«159623_j87746181857881_2_alg».proof.Proof.LocalStencil
import Idealize.ShloMosaic.Lib.Pipeline.Value
import Idealize.ShloMosaic.Lib.ValueIdx

noncomputable section

namespace Cert.ReferenceIdeal.Hand

open Cert.ReferenceIdeal Cert.ReferenceIdeal.Gen Idealize.ShloMosaic Idealize.ShloMosaic.TcCoe Idealize.SL.Sem Idealize.ShloMosaic.StableHlo
open Idealize.ShloMosaic.ValueIdx Cert.LocalStencil

variable {F : FTy → Type} [FloatOps F]

/-- One tap as a function of the bordered batch and the re-laid weight table: the batch sliced at `(0, di, dj)` times
    plane `(di, dj)` of the table laid under every image. -/
def tapVec (P : S256x132x132.Idx → F .f32) (K5 : S5x5x128x128.Idx → F .f32) (di dj : Nat)
    (hs1 : S256x132x132.Slices ![0, di, dj] S256x128x128) (hs2 : S5x5x128x128.Slices ![di, dj, 0, 0] S1x1x128x128) :
    S256x128x128.Idx → F .f32 :=
  mulf (extractStridedSlice S256x128x128 ![0, di, dj] P hs1)
    (broadcastInDim S256x128x128 ![0, 1, 2] bcast_S1x128x128_S256x128x128_0_1_2
      (broadcastInDim S1x128x128 ![1, 2] bcast_S128x128_S1x128x128_1_2
        (shapeCast S128x128 (extractStridedSlice S1x1x128x128 ![di, dj, 0, 0] K5 hs2) shapeCasts_S1x1x128x128_S128x128)))

/-- At output pixel `i` a tap of the reference is `stencil`'s tap `(di, dj)`. -/
theorem tap_apply (P : S256x132x132.Idx → F .f32) (k : S25x16384.Idx → F .f32) (di dj : Nat) (hdi : di < 5) (hdj : dj < 5)
    (hs1 : S256x132x132.Slices ![0, di, dj] S256x128x128) (hs2 : S5x5x128x128.Slices ![di, dj, 0, 0] S1x1x128x128)
    (i : S256x128x128.Idx) :
    tapVec P (shapeCast S5x5x128x128 k shapeCasts_S25x16384_S5x5x128x128) di dj hs1 hs2 i = tap P k i di dj hdi hdj := by
  have hi1 : (i 1).val < 128 := (i 1).isLt
  have hi2 : (i 2).val < 128 := (i 2).isLt
  unfold tap tapVec
  refine congrArg₂ FloatOps.mulf ?_ ?_
  · refine extractStridedSlice_apply ![0, di, dj] P hs1 i (padIx i di dj hdi hdj) (fun a => ?_)
    match a with
    | ⟨0, _⟩ => show (i 0).val = 0 + (i 0).val; omega
    | ⟨1, _⟩ => show (i 1).val + di = di + (i 1).val; omega
    | ⟨2, _⟩ => show (i 2).val + dj = dj + (i 2).val; omega
  · rw [broadcastInDim_apply _ bcast_S1x128x128_S256x128x128_0_1_2 _ i
        (ix3 (n0 := 1) (n1 := 128) (n2 := 128) ⟨0, Nat.one_pos⟩ ⟨(i 1).val, hi1⟩ ⟨(i 2).val, hi2⟩) (fun a => by
          match a with
          | ⟨0, _⟩ => show 0 = if (1 : Nat) = 1 then 0 else (i 0).val; rw [if_pos rfl]
          | ⟨1, _⟩ => show (i 1).val = if (128 : Nat) = 1 then 0 else (i 1).val; rw [if_neg (by decide)]
          | ⟨2, _⟩ => show (i 2).val = if (128 : Nat) = 1 then 0 else (i 2).val; rw [if_neg (by decide)]),
      broadcastInDim_apply _ bcast_S128x128_S1x128x128_1_2 _ _
        (ix2 (n0 := 128) (n1 := 128) ⟨(i 1).val, hi1⟩ ⟨(i 2).val, hi2⟩) (fun a => by
          match a with
          | ⟨0, _⟩ => show (i 1).val = if (128 : Nat) = 1 then 0 else (i 1).val; rw [if_neg (by decide)]
          | ⟨1, _⟩ => show (i 2).val = if (128 : Nat) = 1 then 0 else (i 2).val; rw [if_neg (by decide)]),
      shapeCast_apply _ shapeCasts_S1x1x128x128_S128x128 _
        (ix4 (n0 := 1) (n1 := 1) (n2 := 128) (n3 := 128) ⟨0, Nat.one_pos⟩ ⟨0, Nat.one_pos⟩ ⟨(i 1).val, hi1⟩ ⟨(i 2).val, hi2⟩) (by
          rw [Shape.rowMajor_val_four, Shape.rowMajor_val_two]
          show ((0 * 1 + 0) * 128 + (i 1).val) * 128 + (i 2).val = (i 1).val * 128 + (i 2).val
          omega),
      extractStridedSlice_apply ![di, dj, 0, 0] _ hs2 _
        (ix4 (n0 := 5) (n1 := 5) (n2 := 128) (n3 := 128) ⟨di, hdi⟩ ⟨dj, hdj⟩ ⟨(i 1).val, hi1⟩ ⟨(i 2).val, hi2⟩) (fun a => by
          match a with
          | ⟨0, _⟩ => show di = di + 0; omega
          | ⟨1, _⟩ => show dj = dj + 0; omega
          | ⟨2, _⟩ => show (i 1).val = 0 + (i 1).val; omega
          | ⟨3, _⟩ => show (i 2).val = 0 + (i 2).val; omega)]
    refine shapeCast_apply k shapeCasts_S25x16384_S5x5x128x128 _ (kerIx i (di * 5 + dj) (by omega)) ?_
    rw [Shape.rowMajor_val_two, Shape.rowMajor_val_four]
    show (di * 5 + dj) * 16384 + ((i 1).val * 128 + (i 2).val) = ((di * 5 + dj) * 128 + (i 1).val) * 128 + (i 2).val
    omega

/-! ## What one tap's stretch leaves: the new total; the bordered batch, the re-laid table and the arguments untouched -/

theorem tap0_after (W : Valuation τ sig (Elt F)) :
    after tapOps0 W main_v9
        = addf (W main_v2) (tapVec (W main_v0) (W main_v1) 0 0 slices_S256x132x132_S256x128x128_0_0_0 slices_S5x5x128x128_S1x1x128x128_0_0_0_0)
      ∧ after tapOps0 W main_v0 = W main_v0 ∧ after tapOps0 W main_v1 = W main_v1
      ∧ after tapOps0 W main_arg0 = W main_arg0 ∧ after tapOps0 W main_arg1 = W main_arg1
      ∧ after tapOps0 W main_arg2 = W main_arg2 := by
  refine ⟨?_, ?_, ?_, ?_, ?_, ?_⟩
  · after_results; rfl
  all_goals after_results

theorem tap1_after (W : Valuation τ sig (Elt F)) :
    after tapOps1 W main_v16
        = addf (W main_v9) (tapVec (W main_v0) (W main_v1) 0 1 slices_S256x132x132_S256x128x128_0_0_1 slices_S5x5x128x128_S1x1x128x128_0_1_0_0)
      ∧ after tapOps1 W main_v0 = W main_v0 ∧ after tapOps1 W main_v1 = W main_v1
      ∧ after tapOps1 W main_arg0 = W main_arg0 ∧ after tapOps1 W main_arg1 = W main_arg1
      ∧ after tapOps1 W main_arg2 = W main_arg2 := by
  refine ⟨?_, ?_, ?_, ?_, ?_, ?_⟩
  · after_results; rfl
  all_goals after_results

theorem tap2_after (W : Valuation τ sig (Elt F)) :
    after tapOps2 W main_v23
        = addf (W main_v16) (tapVec (W main_v0) (W main_v1) 0 2 slices_S256x132x132_S256x128x128_0_0_2 slices_S5x5x128x128_S1x1x128x128_0_2_0_0)
      ∧ after tapOps2 W main_v0 = W main_v0 ∧ after tapOps2 W main_v1 = W main_v1
      ∧ after tapOps2 W main_arg0 = W main_arg0 ∧ after tapOps2 W main_arg1 = W main_arg1
      ∧ after tapOps2 W main_arg2 = W main_arg2 := by
  refine ⟨?_, ?_, ?_, ?_, ?_, ?_⟩
  · after_results; rfl
  all_goals after_results

theorem tap3_after (W : Valuation τ sig (Elt F)) :
    after tapOps3 W main_v30
        = addf (W main_v23) (tapVec (W main_v0) (W main_v1) 0 3 slices_S256x132x132_S256x128x128_0_0_3 slices_S5x5x128x128_S1x1x128x128_0_3_0_0)
      ∧ after tapOps3 W main_v0 = W main_v0 ∧ after tapOps3 W main_v1 = W main_v1
      ∧ after tapOps3 W main_arg0 = W main_arg0 ∧ after tapOps3 W main_arg1 = W main_arg1
      ∧ after tapOps3 W main_arg2 = W main_arg2 := by
  refine ⟨?_, ?_, ?_, ?_, ?_, ?_⟩
  · after_results; rfl
  all_goals after_results

theorem tap4_after (W : Valuation τ sig (Elt F)) :
    after tapOps4 W main_v37
        = addf (W main_v30) (tapVec (W main_v0) (W main_v1) 0 4 slices_S256x132x132_S256x128x128_0_0_4 slices_S5x5x128x128_S1x1x128x128_0_4_0_0)
      ∧ after tapOps4 W main_v0 = W main_v0 ∧ after tapOps4 W main_v1 = W main_v1
      ∧ after tapOps4 W main_arg0 = W main_arg0 ∧ after tapOps4 W main_arg1 = W main_arg1
      ∧ after tapOps4 W main_arg2 = W main_arg2 := by
  refine ⟨?_, ?_, ?_, ?_, ?_, ?_⟩
  · after_results; rfl
  all_goals after_results

theorem tap5_after (W : Valuation τ sig (Elt F)) :
    after tapOps5 W main_v44
        = addf (W main_v37) (tapVec (W main_v0) (W main_v1) 1 0 slices_S256x132x132_S256x128x128_0_1_0 slices_S5x5x128x128_S1x1x128x128_1_0_0_0)
      ∧ after tapOps5 W main_v0 = W main_v0 ∧ after tapOps5 W main_v1 = W main_v1
      ∧ after tapOps5 W main_arg0 = W main_arg0 ∧ after tapOps5 W main_arg1 = W main_arg1
      ∧ after tapOps5 W main_arg2 = W main_arg2 := by
  refine ⟨?_, ?_, ?_, ?_, ?_, ?_⟩
  · after_results; rfl
  all_goals after_results

theorem tap6_after (W : Valuation τ sig (Elt F)) :
    after tapOps6 W main_v51
        = addf (W main_v44) (tapVec (W main_v0) (W main_v1) 1 1 slices_S256x132x132_S256x128x128_0_1_1 slices_S5x5x128x128_S1x1x128x128_1_1_0_0)
      ∧ after tapOps6 W main_v0 = W main_v0 ∧ after tapOps6 W main_v1 = W main_v1
      ∧ after tapOps6 W main_arg0 = W main_arg0 ∧ after tapOps6 W main_arg1 = W main_arg1
      ∧ after tapOps6 W main_arg2 = W main_arg2 := by
  refine ⟨?_, ?_, ?_, ?_, ?_, ?_⟩
  · after_results; rfl
  all_goals after_results

theorem tap7_after (W : Valuation τ sig (Elt F)) :
    after tapOps7 W main_v58
        = addf (W main_v51) (tapVec (W main_v0) (W main_v1) 1 2 slices_S256x132x132_S256x128x128_0_1_2 slices_S5x5x128x128_S1x1x128x128_1_2_0_0)
      ∧ after tapOps7 W main_v0 = W main_v0 ∧ after tapOps7 W main_v1 = W main_v1
      ∧ after tapOps7 W main_arg0 = W main_arg0 ∧ after tapOps7 W main_arg1 = W main_arg1
      ∧ after tapOps7 W main_arg2 = W main_arg2 := by
  refine ⟨?_, ?_, ?_, ?_, ?_, ?_⟩
  · after_results; rfl
  all_goals after_results

theorem tap8_after (W : Valuation τ sig (Elt F)) :
    after tapOps8 W main_v65
        = addf (W main_v58) (tapVec (W main_v0) (W main_v1) 1 3 slices_S256x132x132_S256x128x128_0_1_3 slices_S5x5x128x128_S1x1x128x128_1_3_0_0)
      ∧ after tapOps8 W main_v0 = W main_v0 ∧ after tapOps8 W main_v1 = W main_v1
      ∧ after tapOps8 W main_arg0 = W main_arg0 ∧ after tapOps8 W main_arg1 = W main_arg1
      ∧ after tapOps8 W main_arg2 = W main_arg2 := by
  refine ⟨?_, ?_, ?_, ?_, ?_, ?_⟩
  · after_results; rfl
  all_goals after_results

theorem tap9_after (W : Valuation τ sig (Elt F)) :
    after tapOps9 W main_v72
        = addf (W main_v65) (tapVec (W main_v0) (W main_v1) 1 4 slices_S256x132x132_S256x128x128_0_1_4 slices_S5x5x128x128_S1x1x128x128_1_4_0_0)
      ∧ after tapOps9 W main_v0 = W main_v0 ∧ after tapOps9 W main_v1 = W main_v1
      ∧ after tapOps9 W main_arg0 = W main_arg0 ∧ after tapOps9 W main_arg1 = W main_arg1
      ∧ after tapOps9 W main_arg2 = W main_arg2 := by
  refine ⟨?_, ?_, ?_, ?_, ?_, ?_⟩
  · after_results; rfl
  all_goals after_results

theorem tap10_after (W : Valuation τ sig (Elt F)) :
    after tapOps10 W main_v79
        = addf (W main_v72) (tapVec (W main_v0) (W main_v1) 2 0 slices_S256x132x132_S256x128x128_0_2_0 slices_S5x5x128x128_S1x1x128x128_2_0_0_0)
      ∧ after tapOps10 W main_v0 = W main_v0 ∧ after tapOps10 W main_v1 = W main_v1
      ∧ after tapOps10 W main_arg0 = W main_arg0 ∧ after tapOps10 W main_arg1 = W main_arg1
      ∧ after tapOps10 W main_arg2 = W main_arg2 := by
  refine ⟨?_, ?_, ?_, ?_, ?_, ?_⟩
  · after_results; rfl
  all_goals after_results

theorem tap11_after (W : Valuation τ sig (Elt F)) :
    after tapOps11 W main_v86
        = addf (W main_v79) (tapVec (W main_v0) (W main_v1) 2 1 slices_S256x132x132_S256x128x128_0_2_1 slices_S5x5x128x128_S1x1x128x128_2_1_0_0)
      ∧ after tapOps11 W main_v0 = W main_v0 ∧ after tapOps11 W main_v1 = W main_v1
      ∧ after tapOps11 W main_arg0 = W main_arg0 ∧ after tapOps11 W main_arg1 = W main_arg1
      ∧ after tapOps11 W main_arg2 = W main_arg2 := by
  refine ⟨?_, ?_, ?_, ?_, ?_, ?_⟩
  · after_results; rfl
  all_goals after_results

theorem tap12_after (W : Valuation τ sig (Elt F)) :
    after tapOps12 W main_v93
        = addf (W main_v86) (tapVec (W main_v0) (W main_v1) 2 2 slices_S256x132x132_S256x128x128_0_2_2 slices_S5x5x128x128_S1x1x128x128_2_2_0_0)
      ∧ after tapOps12 W main_v0 = W main_v0 ∧ after tapOps12 W main_v1 = W main_v1
      ∧ after tapOps12 W main_arg0 = W main_arg0 ∧ after tapOps12 W main_arg1 = W main_arg1
      ∧ after tapOps12 W main_arg2 = W main_arg2 := by
  refine ⟨?_, ?_, ?_, ?_, ?_, ?_⟩
  · after_results; rfl
  all_goals after_results

theorem tap13_after (W : Valuation τ sig (Elt F)) :
    after tapOps13 W main_v100
        = addf (W main_v93) (tapVec (W main_v0) (W main_v1) 2 3 slices_S256x132x132_S256x128x128_0_2_3 slices_S5x5x128x128_S1x1x128x128_2_3_0_0)
      ∧ after tapOps13 W main_v0 = W main_v0 ∧ after tapOps13 W main_v1 = W main_v1
      ∧ after tapOps13 W main_arg0 = W main_arg0 ∧ after tapOps13 W main_arg1 = W main_arg1
      ∧ after tapOps13 W main_arg2 = W main_arg2 := by
  refine ⟨?_, ?_, ?_, ?_, ?_, ?_⟩
  · after_results; rfl
  all_goals after_results

theorem tap14_after (W : Valuation τ sig (Elt F)) :
    after tapOps14 W main_v107
        = addf (W main_v100) (tapVec (W main_v0) (W main_v1) 2 4 slices_S256x132x132_S256x128x128_0_2_4 slices_S5x5x128x128_S1x1x128x128_2_4_0_0)
      ∧ after tapOps14 W main_v0 = W main_v0 ∧ after tapOps14 W main_v1 = W main_v1
      ∧ after tapOps14 W main_arg0 = W main_arg0 ∧ after tapOps14 W main_arg1 = W main_arg1
      ∧ after tapOps14 W main_arg2 = W main_arg2 := by
  refine ⟨?_, ?_, ?_, ?_, ?_, ?_⟩
  · after_results; rfl
  all_goals after_results

theorem tap15_after (W : Valuation τ sig (Elt F)) :
    after tapOps15 W main_v114
        = addf (W main_v107) (tapVec (W main_v0) (W main_v1) 3 0 slices_S256x132x132_S256x128x128_0_3_0 slices_S5x5x128x128_S1x1x128x128_3_0_0_0)
      ∧ after tapOps15 W main_v0 = W main_v0 ∧ after tapOps15 W main_v1 = W main_v1
      ∧ after tapOps15 W main_arg0 = W main_arg0 ∧ after tapOps15 W main_arg1 = W main_arg1
      ∧ after tapOps15 W main_arg2 = W main_arg2 := by
  refine ⟨?_, ?_, ?_, ?_, ?_, ?_⟩
  · after_results; rfl
  all_goals after_results

theorem tap16_after (W : Valuation τ sig (Elt F)) :
    after tapOps16 W main_v121
        = addf (W main_v114) (tapVec (W main_v0) (W main_v1) 3 1 slices_S256x132x132_S256x128x128_0_3_1 slices_S5x5x128x128_S1x1x128x128_3_1_0_0)
      ∧ after tapOps16 W main_v0 = W main_v0 ∧ after tapOps16 W main_v1 = W main_v1
      ∧ after tapOps16 W main_arg0 = W main_arg0 ∧ after tapOps16 W main_arg1 = W main_arg1
      ∧ after tapOps16 W main_arg2 = W main_arg2 := by
  refine ⟨?_, ?_, ?_, ?_, ?_, ?_⟩
  · after_results; rfl
  all_goals after_results

theorem tap17_after (W : Valuation τ sig (Elt F)) :
    after tapOps17 W main_v128
        = addf (W main_v121) (tapVec (W main_v0) (W main_v1) 3 2 slices_S256x132x132_S256x128x128_0_3_2 slices_S5x5x128x128_S1x1x128x128_3_2_0_0)
      ∧ after tapOps17 W main_v0 = W main_v0 ∧ after tapOps17 W main_v1 = W main_v1
      ∧ after tapOps17 W main_arg0 = W main_arg0 ∧ after tapOps17 W main_arg1 = W main_arg1
      ∧ after tapOps17 W main_arg2 = W main_arg2 := by
  refine ⟨?_, ?_, ?_, ?_, ?_, ?_⟩
  · after_results; rfl
  all_goals after_results

theorem tap18_after (W : Valuation τ sig (Elt F)) :
    after tapOps18 W main_v135
        = addf (W main_v128) (tapVec (W main_v0) (W main_v1) 3 3 slices_S256x132x132_S256x128x128_0_3_3 slices_S5x5x128x128_S1x1x128x128_3_3_0_0)
      ∧ after tapOps18 W main_v0 = W main_v0 ∧ after tapOps18 W main_v1 = W main_v1
      ∧ after tapOps18 W main_arg0 = W main_arg0 ∧ after tapOps18 W main_arg1 = W main_arg1
      ∧ after tapOps18 W main_arg2 = W main_arg2 := by
  refine ⟨?_, ?_, ?_, ?_, ?_, ?_⟩
  · after_results; rfl
  all_goals after_results

theorem tap19_after (W : Valuation τ sig (Elt F)) :
    after tapOps19 W main_v142
        = addf (W main_v135) (tapVec (W main_v0) (W main_v1) 3 4 slices_S256x132x132_S256x128x128_0_3_4 slices_S5x5x128x128_S1x1x128x128_3_4_0_0)
      ∧ after tapOps19 W main_v0 = W main_v0 ∧ after tapOps19 W main_v1 = W main_v1
      ∧ after tapOps19 W main_arg0 = W main_arg0 ∧ after tapOps19 W main_arg1 = W main_arg1
      ∧ after tapOps19 W main_arg2 = W main_arg2 := by
  refine ⟨?_, ?_, ?_, ?_, ?_, ?_⟩
  · after_results; rfl
  all_goals after_results

theorem tap20_after (W : Valuation τ sig (Elt F)) :
    after tapOps20 W main_v149
        = addf (W main_v142) (tapVec (W main_v0) (W main_v1) 4 0 slices_S256x132x132_S256x128x128_0_4_0 slices_S5x5x128x128_S1x1x128x128_4_0_0_0)
      ∧ after tapOps20 W main_v0 = W main_v0 ∧ after tapOps20 W main_v1 = W main_v1
      ∧ after tapOps20 W main_arg0 = W main_arg0 ∧ after tapOps20 W main_arg1 = W main_arg1
      ∧ after tapOps20 W main_arg2 = W main_arg2 := by
  refine ⟨?_, ?_, ?_, ?_, ?_, ?_⟩
  · after_results; rfl
  all_goals after_results

theorem tap21_after (W : Valuation τ sig (Elt F)) :
    after tapOps21 W main_v156
        = addf (W main_v149) (tapVec (W main_v0) (W main_v1) 4 1 slices_S256x132x132_S256x128x128_0_4_1 slices_S5x5x128x128_S1x1x128x128_4_1_0_0)
      ∧ after tapOps21 W main_v0 = W main_v0 ∧ after tapOps21 W main_v1 = W main_v1
      ∧ after tapOps21 W main_arg0 = W main_arg0 ∧ after tapOps21 W main_arg1 = W main_arg1
      ∧ after tapOps21 W main_arg2 = W main_arg2 := by
  refine ⟨?_, ?_, ?_, ?_, ?_, ?_⟩
  · after_results; rfl
  all_goals after_results

theorem tap22_after (W : Valuation τ sig (Elt F)) :
    after tapOps22 W main_v163
        = addf (W main_v156) (tapVec (W main_v0) (W main_v1) 4 2 slices_S256x132x132_S256x128x128_0_4_2 slices_S5x5x128x128_S1x1x128x128_4_2_0_0)
      ∧ after tapOps22 W main_v0 = W main_v0 ∧ after tapOps22 W main_v1 = W main_v1
      ∧ after tapOps22 W main_arg0 = W main_arg0 ∧ after tapOps22 W main_arg1 = W main_arg1
      ∧ after tapOps22 W main_arg2 = W main_arg2 := by
  refine ⟨?_, ?_, ?_, ?_, ?_, ?_⟩
  · after_results; rfl
  all_goals after_results

theorem tap23_after (W : Valuation τ sig (Elt F)) :
    after tapOps23 W main_v170
        = addf (W main_v163) (tapVec (W main_v0) (W main_v1) 4 3 slices_S256x132x132_S256x128x128_0_4_3 slices_S5x5x128x128_S1x1x128x128_4_3_0_0)
      ∧ after tapOps23 W main_v0 = W main_v0 ∧ after tapOps23 W main_v1 = W main_v1
      ∧ after tapOps23 W main_arg0 = W main_arg0 ∧ after tapOps23 W main_arg1 = W main_arg1
      ∧ after tapOps23 W main_arg2 = W main_arg2 := by
  refine ⟨?_, ?_, ?_, ?_, ?_, ?_⟩
  · after_results; rfl
  all_goals after_results

theorem tap24_after (W : Valuation τ sig (Elt F)) :
    after tapOps24 W main_v177
        = addf (W main_v170) (tapVec (W main_v0) (W main_v1) 4 4 slices_S256x132x132_S256x128x128_0_4_4 slices_S5x5x128x128_S1x1x128x128_4_4_0_0)
      ∧ after tapOps24 W main_v0 = W main_v0 ∧ after tapOps24 W main_v1 = W main_v1
      ∧ after tapOps24 W main_arg0 = W main_arg0 ∧ after tapOps24 W main_arg1 = W main_arg1
      ∧ after tapOps24 W main_arg2 = W main_arg2 := by
  refine ⟨?_, ?_, ?_, ?_, ?_, ?_⟩
  · after_results; rfl
  all_goals after_results

/-! ## The running total after n taps -/

/-- No tap yet. -/
abbrev upTo0 : List (HloOp τ sig (Elt F)) := []

theorem chain0 (W : Valuation τ sig (Elt F)) (k : S25x16384.Idx → F .f32)
    (hK : W main_v1 = shapeCast S5x5x128x128 k shapeCasts_S25x16384_S5x5x128x128) :
    (∀ i, after upTo0 W main_v2 i = addTaps (W main_v0) k i (tapOrder.take 0) (W main_v2 i))
      ∧ after upTo0 W main_v0 = W main_v0 ∧ after upTo0 W main_v1 = W main_v1
      ∧ after upTo0 W main_arg0 = W main_arg0 ∧ after upTo0 W main_arg1 = W main_arg1
      ∧ after upTo0 W main_arg2 = W main_arg2 :=
  ⟨fun _ => rfl, rfl, rfl, rfl, rfl, rfl⟩

/-- After 1 tap. -/
abbrev upTo1 : List (HloOp τ sig (Elt F)) := upTo0 ++ tapOps0

theorem chain1 (W : Valuation τ sig (Elt F)) (k : S25x16384.Idx → F .f32)
    (hK : W main_v1 = shapeCast S5x5x128x128 k shapeCasts_S25x16384_S5x5x128x128) :
    (∀ i, after upTo1 W main_v9 i = addTaps (W main_v0) k i (tapOrder.take 1) (W main_v2 i))
      ∧ after upTo1 W main_v0 = W main_v0 ∧ after upTo1 W main_v1 = W main_v1
      ∧ after upTo1 W main_arg0 = W main_arg0 ∧ after upTo1 W main_arg1 = W main_arg1
      ∧ after upTo1 W main_arg2 = W main_arg2 := by
  obtain ⟨ha, h0, h1, g0, g1, g2⟩ := chain0 W k hK
  obtain ⟨ta, t0, t1, s0, s1, s2⟩ := tap0_after (after upTo0 W)
  refine ⟨fun i => ?_, ?_, ?_, ?_, ?_, ?_⟩
  · show after (upTo0 ++ tapOps0) W main_v9 i = _
    rw [after_append, ta]
    show FloatOps.addf (after upTo0 W main_v2 i) (tapVec (after upTo0 W main_v0) (after upTo0 W main_v1) 0 0 _ _ i) = _
    rw [ha i, h0, h1, hK, tap_apply _ _ 0 0 (by omega) (by omega)]
    rfl
  · show after (upTo0 ++ tapOps0) W main_v0 = _
    rw [after_append, t0, h0]
  · show after (upTo0 ++ tapOps0) W main_v1 = _
    rw [after_append, t1, h1]
  · show after (upTo0 ++ tapOps0) W main_arg0 = _
    rw [after_append, s0, g0]
  · show after (upTo0 ++ tapOps0) W main_arg1 = _
    rw [after_append, s1, g1]
  · show after (upTo0 ++ tapOps0) W main_arg2 = _
    rw [after_append, s2, g2]

/-- After 2 taps. -/
abbrev upTo2 : List (HloOp τ sig (Elt F)) := upTo1 ++ tapOps1

theorem chain2 (W : Valuation τ sig (Elt F)) (k : S25x16384.Idx → F .f32)
    (hK : W main_v1 = shapeCast S5x5x128x128 k shapeCasts_S25x16384_S5x5x128x128) :
    (∀ i, after upTo2 W main_v16 i = addTaps (W main_v0) k i (tapOrder.take 2) (W main_v2 i))
      ∧ after upTo2 W main_v0 = W main_v0 ∧ after upTo2 W main_v1 = W main_v1
      ∧ after upTo2 W main_arg0 = W main_arg0 ∧ after upTo2 W main_arg1 = W main_arg1
      ∧ after upTo2 W main_arg2 = W main_arg2 := by
  obtain ⟨ha, h0, h1, g0, g1, g2⟩ := chain1 W k hK
  obtain ⟨ta, t0, t1, s0, s1, s2⟩ := tap1_after (after upTo1 W)
  refine ⟨fun i => ?_, ?_, ?_, ?_, ?_, ?_⟩
  · show after (upTo1 ++ tapOps1) W main_v16 i = _
    rw [after_append, ta]
    show FloatOps.addf (after upTo1 W main_v9 i) (tapVec (after upTo1 W main_v0) (after upTo1 W main_v1) 0 1 _ _ i) = _
    rw [ha i, h0, h1, hK, tap_apply _ _ 0 1 (by omega) (by omega)]
    rfl
  · show after (upTo1 ++ tapOps1) W main_v0 = _
    rw [after_append, t0, h0]
  · show after (upTo1 ++ tapOps1) W main_v1 = _
    rw [after_append, t1, h1]
  · show after (upTo1 ++ tapOps1) W main_arg0 = _
    rw [after_append, s0, g0]
  · show after (upTo1 ++ tapOps1) W main_arg1 = _
    rw [after_append, s1, g1]
  · show after (upTo1 ++ tapOps1) W main_arg2 = _
    rw [after_append, s2, g2]

/-- After 3 taps. -/
abbrev upTo3 : List (HloOp τ sig (Elt F)) := upTo2 ++ tapOps2

theorem chain3 (W : Valuation τ sig (Elt F)) (k : S25x16384.Idx → F .f32)
    (hK : W main_v1 = shapeCast S5x5x128x128 k shapeCasts_S25x16384_S5x5x128x128) :
    (∀ i, after upTo3 W main_v23 i = addTaps (W main_v0) k i (tapOrder.take 3) (W main_v2 i))
      ∧ after upTo3 W main_v0 = W main_v0 ∧ after upTo3 W main_v1 = W main_v1
      ∧ after upTo3 W main_arg0 = W main_arg0 ∧ after upTo3 W main_arg1 = W main_arg1
      ∧ after upTo3 W main_arg2 = W main_arg2 := by
  obtain ⟨ha, h0, h1, g0, g1, g2⟩ := chain2 W k hK
  obtain ⟨ta, t0, t1, s0, s1, s2⟩ := tap2_after (after upTo2 W)
  refine ⟨fun i => ?_, ?_, ?_, ?_, ?_, ?_⟩
  · show after (upTo2 ++ tapOps2) W main_v23 i = _
    rw [after_append, ta]
    show FloatOps.addf (after upTo2 W main_v16 i) (tapVec (after upTo2 W main_v0) (after upTo2 W main_v1) 0 2 _ _ i) = _
    rw [ha i, h0, h1, hK, tap_apply _ _ 0 2 (by omega) (by omega)]
    rfl
  · show after (upTo2 ++ tapOps2) W main_v0 = _
    rw [after_append, t0, h0]
  · show after (upTo2 ++ tapOps2) W main_v1 = _
    rw [after_append, t1, h1]
  · show after (upTo2 ++ tapOps2) W main_arg0 = _
    rw [after_append, s0, g0]
  · show after (upTo2 ++ tapOps2) W main_arg1 = _
    rw [after_append, s1, g1]
  · show after (upTo2 ++ tapOps2) W main_arg2 = _
    rw [after_append, s2, g2]

/-- After 4 taps. -/
abbrev upTo4 : List (HloOp τ sig (Elt F)) := upTo3 ++ tapOps3

theorem chain4 (W : Valuation τ sig (Elt F)) (k : S25x16384.Idx → F .f32)
    (hK : W main_v1 = shapeCast S5x5x128x128 k shapeCasts_S25x16384_S5x5x128x128) :
    (∀ i, after upTo4 W main_v30 i = addTaps (W main_v0) k i (tapOrder.take 4) (W main_v2 i))
      ∧ after upTo4 W main_v0 = W main_v0 ∧ after upTo4 W main_v1 = W main_v1
      ∧ after upTo4 W main_arg0 = W main_arg0 ∧ after upTo4 W main_arg1 = W main_arg1
      ∧ after upTo4 W main_arg2 = W main_arg2 := by
  obtain ⟨ha, h0, h1, g0, g1, g2⟩ := chain3 W k hK
  obtain ⟨ta, t0, t1, s0, s1, s2⟩ := tap3_after (after upTo3 W)
  refine ⟨fun i => ?_, ?_, ?_, ?_, ?_, ?_⟩
  · show after (upTo3 ++ tapOps3) W main_v30 i = _
    rw [after_append, ta]
    show FloatOps.addf (after upTo3 W main_v23 i) (tapVec (after upTo3 W main_v0) (after upTo3 W main_v1) 0 3 _ _ i) = _
    rw [ha i, h0, h1, hK, tap_apply _ _ 0 3 (by omega) (by omega)]
    rfl
  · show after (upTo3 ++ tapOps3) W main_v0 = _
    rw [after_append, t0, h0]
  · show after (upTo3 ++ tapOps3) W main_v1 = _
    rw [after_append, t1, h1]
  · show after (upTo3 ++ tapOps3) W main_arg0 = _
    rw [after_append, s0, g0]
  · show after (upTo3 ++ tapOps3) W main_arg1 = _
    rw [after_append, s1, g1]
  · show after (upTo3 ++ tapOps3) W main_arg2 = _
    rw [after_append, s2, g2]

/-- After 5 taps. -/
abbrev upTo5 : List (HloOp τ sig (Elt F)) := upTo4 ++ tapOps4

theorem chain5 (W : Valuation τ sig (Elt F)) (k : S25x16384.Idx → F .f32)
    (hK : W main_v1 = shapeCast S5x5x128x128 k shapeCasts_S25x16384_S5x5x128x128) :
    (∀ i, after upTo5 W main_v37 i = addTaps (W main_v0) k i (tapOrder.take 5) (W main_v2 i))
      ∧ after upTo5 W main_v0 = W main_v0 ∧ after upTo5 W main_v1 = W main_v1
      ∧ after upTo5 W main_arg0 = W main_arg0 ∧ after upTo5 W main_arg1 = W main_arg1
      ∧ after upTo5 W main_arg2 = W main_arg2 := by
  obtain ⟨ha, h0, h1, g0, g1, g2⟩ := chain4 W k hK
  obtain ⟨ta, t0, t1, s0, s1, s2⟩ := tap4_after (after upTo4 W)
  refine ⟨fun i => ?_, ?_, ?_, ?_, ?_, ?_⟩
  · show after (upTo4 ++ tapOps4) W main_v37 i = _
    rw [after_append, ta]
    show FloatOps.addf (after upTo4 W main_v30 i) (tapVec (after upTo4 W main_v0) (after upTo4 W main_v1) 0 4 _ _ i) = _
    rw [ha i, h0, h1, hK, tap_apply _ _ 0 4 (by omega) (by omega)]
    rfl
  · show after (upTo4 ++ tapOps4) W main_v0 = _
    rw [after_append, t0, h0]
  · show after (upTo4 ++ tapOps4) W main_v1 = _
    rw [after_append, t1, h1]
  · show after (upTo4 ++ tapOps4) W main_arg0 = _
    rw [after_append, s0, g0]
  · show after (upTo4 ++ tapOps4) W main_arg1 = _
    rw [after_append, s1, g1]
  · show after (upTo4 ++ tapOps4) W main_arg2 = _
    rw [after_append, s2, g2]

/-- After 6 taps. -/
abbrev upTo6 : List (HloOp τ sig (Elt F)) := upTo5 ++ tapOps5

theorem chain6 (W : Valuation τ sig (Elt F)) (k : S25x16384.Idx → F .f32)
    (hK : W main_v1 = shapeCast S5x5x128x128 k shapeCasts_S25x16384_S5x5x128x128) :
    (∀ i, after upTo6 W main_v44 i = addTaps (W main_v0) k i (tapOrder.take 6) (W main_v2 i))
      ∧ after upTo6 W main_v0 = W main_v0 ∧ after upTo6 W main_v1 = W main_v1
      ∧ after upTo6 W main_arg0 = W main_arg0 ∧ after upTo6 W main_arg1 = W main_arg1
      ∧ after upTo6 W main_arg2 = W main_arg2 := by
  obtain ⟨ha, h0, h1, g0, g1, g2⟩ := chain5 W k hK
  obtain ⟨ta, t0, t1, s0, s1, s2⟩ := tap5_after (after upTo5 W)
  refine ⟨fun i => ?_, ?_, ?_, ?_, ?_, ?_⟩
  · show after (upTo5 ++ tapOps5) W main_v44 i = _
    rw [after_append, ta]
    show FloatOps.addf (after upTo5 W main_v37 i) (tapVec (after upTo5 W main_v0) (after upTo5 W main_v1) 1 0 _ _ i) = _
    rw [ha i, h0, h1, hK, tap_apply _ _ 1 0 (by omega) (by omega)]
    rfl
  · show after (upTo5 ++ tapOps5) W main_v0 = _
    rw [after_append, t0, h0]
  · show after (upTo5 ++ tapOps5) W main_v1 = _
    rw [after_append, t1, h1]
  · show after (upTo5 ++ tapOps5) W main_arg0 = _
    rw [after_append, s0, g0]
  · show after (upTo5 ++ tapOps5) W main_arg1 = _
    rw [after_append, s1, g1]
  · show after (upTo5 ++ tapOps5) W main_arg2 = _
    rw [after_append, s2, g2]

/-- After 7 taps. -/
abbrev upTo7 : List (HloOp τ sig (Elt F)) := upTo6 ++ tapOps6

theorem chain7 (W : Valuation τ sig (Elt F)) (k : S25x16384.Idx → F .f32)
    (hK : W main_v1 = shapeCast S5x5x128x128 k shapeCasts_S25x16384_S5x5x128x128) :
    (∀ i, after upTo7 W main_v51 i = addTaps (W main_v0) k i (tapOrder.take 7) (W main_v2 i))
      ∧ after upTo7 W main_v0 = W main_v0 ∧ after upTo7 W main_v1 = W main_v1
      ∧ after upTo7 W main_arg0 = W main_arg0 ∧ after upTo7 W main_arg1 = W main_arg1
      ∧ after upTo7 W main_arg2 = W main_arg2 := by
  obtain ⟨ha, h0, h1, g0, g1, g2⟩ := chain6 W k hK
  obtain ⟨ta, t0, t1, s0, s1, s2⟩ := tap6_after (after upTo6 W)
  refine ⟨fun i => ?_, ?_, ?_, ?_, ?_, ?_⟩
  · show after (upTo6 ++ tapOps6) W main_v51 i = _
    rw [after_append, ta]
    show FloatOps.addf (after upTo6 W main_v44 i) (tapVec (after upTo6 W main_v0) (after upTo6 W main_v1) 1 1 _ _ i) = _
    rw [ha i, h0, h1, hK, tap_apply _ _ 1 1 (by omega) (by omega)]
    rfl
  · show after (upTo6 ++ tapOps6) W main_v0 = _
    rw [after_append, t0, h0]
  · show after (upTo6 ++ tapOps6) W main_v1 = _
    rw [after_append, t1, h1]
  · show after (upTo6 ++ tapOps6) W main_arg0 = _
    rw [after_append, s0, g0]
  · show after (upTo6 ++ tapOps6) W main_arg1 = _
    rw [after_append, s1, g1]
  · show after (upTo6 ++ tapOps6) W main_arg2 = _
    rw [after_append, s2, g2]

/-- After 8 taps. -/
abbrev upTo8 : List (HloOp τ sig (Elt F)) := upTo7 ++ tapOps7

theorem chain8 (W : Valuation τ sig (Elt F)) (k : S25x16384.Idx → F .f32)
    (hK : W main_v1 = shapeCast S5x5x128x128 k shapeCasts_S25x16384_S5x5x128x128) :
    (∀ i, after upTo8 W main_v58 i = addTaps (W main_v0) k i (tapOrder.take 8) (W main_v2 i))
      ∧ after upTo8 W main_v0 = W main_v0 ∧ after upTo8 W main_v1 = W main_v1
      ∧ after upTo8 W main_arg0 = W main_arg0 ∧ after upTo8 W main_arg1 = W main_arg1
      ∧ after upTo8 W main_arg2 = W main_arg2 := by
  obtain ⟨ha, h0, h1, g0, g1, g2⟩ := chain7 W k hK
  obtain ⟨ta, t0, t1, s0, s1, s2⟩ := tap7_after (after upTo7 W)
  refine ⟨fun i => ?_, ?_, ?_, ?_, ?_, ?_⟩
  · show after (upTo7 ++ tapOps7) W main_v58 i = _
    rw [after_append, ta]
    show FloatOps.addf (after upTo7 W main_v51 i) (tapVec (after upTo7 W main_v0) (after upTo7 W main_v1) 1 2 _ _ i) = _
    rw [ha i, h0, h1, hK, tap_apply _ _ 1 2 (by omega) (by omega)]
    rfl
  · show after (upTo7 ++ tapOps7) W main_v0 = _
    rw [after_append, t0, h0]
  · show after (upTo7 ++ tapOps7) W main_v1 = _
    rw [after_append, t1, h1]
  · show after (upTo7 ++ tapOps7) W main_arg0 = _
    rw [after_append, s0, g0]
  · show after (upTo7 ++ tapOps7) W main_arg1 = _
    rw [after_append, s1, g1]
  · show after (upTo7 ++ tapOps7) W main_arg2 = _
    rw [after_append, s2, g2]

/-- After 9 taps. -/
abbrev upTo9 : List (HloOp τ sig (Elt F)) := upTo8 ++ tapOps8

theorem chain9 (W : Valuation τ sig (Elt F)) (k : S25x16384.Idx → F .f32)
    (hK : W main_v1 = shapeCast S5x5x128x128 k shapeCasts_S25x16384_S5x5x128x128) :
    (∀ i, after upTo9 W main_v65 i = addTaps (W main_v0) k i (tapOrder.take 9) (W main_v2 i))
      ∧ after upTo9 W main_v0 = W main_v0 ∧ after upTo9 W main_v1 = W main_v1
      ∧ after upTo9 W main_arg0 = W main_arg0 ∧ after upTo9 W main_arg1 = W main_arg1
      ∧ after upTo9 W main_arg2 = W main_arg2 := by
  obtain ⟨ha, h0, h1, g0, g1, g2⟩ := chain8 W k hK
  obtain ⟨ta, t0, t1, s0, s1, s2⟩ := tap8_after (after upTo8 W)
  refine ⟨fun i => ?_, ?_, ?_, ?_, ?_, ?_⟩
  · show after (upTo8 ++ tapOps8) W main_v65 i = _
    rw [after_append, ta]
    show FloatOps.addf (after upTo8 W main_v58 i) (tapVec (after upTo8 W main_v0) (after upTo8 W main_v1) 1 3 _ _ i) = _
    rw [ha i, h0, h1, hK, tap_apply _ _ 1 3 (by omega) (by omega)]
    rfl
  · show after (upTo8 ++ tapOps8) W main_v0 = _
    rw [after_append, t0, h0]
  · show after (upTo8 ++ tapOps8) W main_v1 = _
    rw [after_append, t1, h1]
  · show after (upTo8 ++ tapOps8) W main_arg0 = _
    rw [after_append, s0, g0]
  · show after (upTo8 ++ tapOps8) W main_arg1 = _
    rw [after_append, s1, g1]
  · show after (upTo8 ++ tapOps8) W main_arg2 = _
    rw [after_append, s2, g2]

/-- After 10 taps. -/
abbrev upTo10 : List (HloOp τ sig (Elt F)) := upTo9 ++ tapOps9

theorem chain10 (W : Valuation τ sig (Elt F)) (k : S25x16384.Idx → F .f32)
    (hK : W main_v1 = shapeCast S5x5x128x128 k shapeCasts_S25x16384_S5x5x128x128) :
    (∀ i, after upTo10 W main_v72 i = addTaps (W main_v0) k i (tapOrder.take 10) (W main_v2 i))
      ∧ after upTo10 W main_v0 = W main_v0 ∧ after upTo10 W main_v1 = W main_v1
      ∧ after upTo10 W main_arg0 = W main_arg0 ∧ after upTo10 W main_arg1 = W main_arg1
      ∧ after upTo10 W main_arg2 = W main_arg2 := by
  obtain ⟨ha, h0, h1, g0, g1, g2⟩ := chain9 W k hK
  obtain ⟨ta, t0, t1, s0, s1, s2⟩ := tap9_after (after upTo9 W)
  refine ⟨fun i => ?_, ?_, ?_, ?_, ?_, ?_⟩
  · show after (upTo9 ++ tapOps9) W main_v72 i = _
    rw [after_append, ta]
    show FloatOps.addf (after upTo9 W main_v65 i) (tapVec (after upTo9 W main_v0) (after upTo9 W main_v1) 1 4 _ _ i) = _
    rw [ha i, h0, h1, hK, tap_apply _ _ 1 4 (by omega) (by omega)]
    rfl
  · show after (upTo9 ++ tapOps9) W main_v0 = _
    rw [after_append, t0, h0]
  · show after (upTo9 ++ tapOps9) W main_v1 = _
    rw [after_append, t1, h1]
  · show after (upTo9 ++ tapOps9) W main_arg0 = _
    rw [after_append, s0, g0]
  · show after (upTo9 ++ tapOps9) W main_arg1 = _
    rw [after_append, s1, g1]
  · show after (upTo9 ++ tapOps9) W main_arg2 = _
    rw [after_append, s2, g2]

/-- After 11 taps. -/
abbrev upTo11 : List (HloOp τ sig (Elt F)) := upTo10 ++ tapOps10

theorem chain11 (W : Valuation τ sig (Elt F)) (k : S25x16384.Idx → F .f32)
    (hK : W main_v1 = shapeCast S5x5x128x128 k shapeCasts_S25x16384_S5x5x128x128) :
    (∀ i, after upTo11 W main_v79 i = addTaps (W main_v0) k i (tapOrder.take 11) (W main_v2 i))
      ∧ after upTo11 W main_v0 = W main_v0 ∧ after upTo11 W main_v1 = W main_v1
      ∧ after upTo11 W main_arg0 = W main_arg0 ∧ after upTo11 W main_arg1 = W main_arg1
      ∧ after upTo11 W main_arg2 = W main_arg2 := by
  obtain ⟨ha, h0, h1, g0, g1, g2⟩ := chain10 W k hK
  obtain ⟨ta, t0, t1, s0, s1, s2⟩ := tap10_after (after upTo10 W)
  refine ⟨fun i => ?_, ?_, ?_, ?_, ?_, ?_⟩
  · show after (upTo10 ++ tapOps10) W main_v79 i = _
    rw [after_append, ta]
    show FloatOps.addf (after upTo10 W main_v72 i) (tapVec (after upTo10 W main_v0) (after upTo10 W main_v1) 2 0 _ _ i) = _
    rw [ha i, h0, h1, hK, tap_apply _ _ 2 0 (by omega) (by omega)]
    rfl
  · show after (upTo10 ++ tapOps10) W main_v0 = _
    rw [after_append, t0, h0]
  · show after (upTo10 ++ tapOps10) W main_v1 = _
    rw [after_append, t1, h1]
  · show after (upTo10 ++ tapOps10) W main_arg0 = _
    rw [after_append, s0, g0]
  · show after (upTo10 ++ tapOps10) W main_arg1 = _
    rw [after_append, s1, g1]
  · show after (upTo10 ++ tapOps10) W main_arg2 = _
    rw [after_append, s2, g2]

/-- After 12 taps. -/
abbrev upTo12 : List (HloOp τ sig (Elt F)) := upTo11 ++ tapOps11

theorem chain12 (W : Valuation τ sig (Elt F)) (k : S25x16384.Idx → F .f32)
    (hK : W main_v1 = shapeCast S5x5x128x128 k shapeCasts_S25x16384_S5x5x128x128) :
    (∀ i, after upTo12 W main_v86 i = addTaps (W main_v0) k i (tapOrder.take 12) (W main_v2 i))
      ∧ after upTo12 W main_v0 = W main_v0 ∧ after upTo12 W main_v1 = W main_v1
      ∧ after upTo12 W main_arg0 = W main_arg0 ∧ after upTo12 W main_arg1 = W main_arg1
      ∧ after upTo12 W main_arg2 = W main_arg2 := by
  obtain ⟨ha, h0, h1, g0, g1, g2⟩ := chain11 W k hK
  obtain ⟨ta, t0, t1, s0, s1, s2⟩ := tap11_after (after upTo11 W)
  refine ⟨fun i => ?_, ?_, ?_, ?_, ?_, ?_⟩
  · show after (upTo11 ++ tapOps11) W main_v86 i = _
    rw [after_append, ta]
    show FloatOps.addf (after upTo11 W main_v79 i) (tapVec (after upTo11 W main_v0) (after upTo11 W main_v1) 2 1 _ _ i) = _
    rw [ha i, h0, h1, hK, tap_apply _ _ 2 1 (by omega) (by omega)]
    rfl
  · show after (upTo11 ++ tapOps11) W main_v0 = _
    rw [after_append, t0, h0]
  · show after (upTo11 ++ tapOps11) W main_v1 = _
    rw [after_append, t1, h1]
  · show after (upTo11 ++ tapOps11) W main_arg0 = _
    rw [after_append, s0, g0]
  · show after (upTo11 ++ tapOps11) W main_arg1 = _
    rw [after_append, s1, g1]
  · show after (upTo11 ++ tapOps11) W main_arg2 = _
    rw [after_append, s2, g2]

/-- After 13 taps. -/
abbrev upTo13 : List (HloOp τ sig (Elt F)) := upTo12 ++ tapOps12

theorem chain13 (W : Valuation τ sig (Elt F)) (k : S25x16384.Idx → F .f32)
    (hK : W main_v1 = shapeCast S5x5x128x128 k shapeCasts_S25x16384_S5x5x128x128) :
    (∀ i, after upTo13 W main_v93 i = addTaps (W main_v0) k i (tapOrder.take 13) (W main_v2 i))
      ∧ after upTo13 W main_v0 = W main_v0 ∧ after upTo13 W main_v1 = W main_v1
      ∧ after upTo13 W main_arg0 = W main_arg0 ∧ after upTo13 W main_arg1 = W main_arg1
      ∧ after upTo13 W main_arg2 = W main_arg2 := by
  obtain ⟨ha, h0, h1, g0, g1, g2⟩ := chain12 W k hK
  obtain ⟨ta, t0, t1, s0, s1, s2⟩ := tap12_after (after upTo12 W)
  refine ⟨fun i => ?_, ?_, ?_, ?_, ?_, ?_⟩
  · show after (upTo12 ++ tapOps12) W main_v93 i = _
    rw [after_append, ta]
    show FloatOps.addf (after upTo12 W main_v86 i) (tapVec (after upTo12 W main_v0) (after upTo12 W main_v1) 2 2 _ _ i) = _
    rw [ha i, h0, h1, hK, tap_apply _ _ 2 2 (by omega) (by omega)]
    rfl
  · show after (upTo12 ++ tapOps12) W main_v0 = _
    rw [after_append, t0, h0]
  · show after (upTo12 ++ tapOps12) W main_v1 = _
    rw [after_append, t1, h1]
  · show after (upTo12 ++ tapOps12) W main_arg0 = _
    rw [after_append, s0, g0]
  · show after (upTo12 ++ tapOps12) W main_arg1 = _
    rw [after_append, s1, g1]
  · show after (upTo12 ++ tapOps12) W main_arg2 = _
    rw [after_append, s2, g2]

/-- After 14 taps. -/
abbrev upTo14 : List (HloOp τ sig (Elt F)) := upTo13 ++ tapOps13

theorem chain14 (W : Valuation τ sig (Elt F)) (k : S25x16384.Idx → F .f32)
    (hK : W main_v1 = shapeCast S5x5x128x128 k shapeCasts_S25x16384_S5x5x128x128) :
    (∀ i, after upTo14 W main_v100 i = addTaps (W main_v0) k i (tapOrder.take 14) (W main_v2 i))
      ∧ after upTo14 W main_v0 = W main_v0 ∧ after upTo14 W main_v1 = W main_v1
      ∧ after upTo14 W main_arg0 = W main_arg0 ∧ after upTo14 W main_arg1 = W main_arg1
      ∧ after upTo14 W main_arg2 = W main_arg2 := by
  obtain ⟨ha, h0, h1, g0, g1, g2⟩ := chain13 W k hK
  obtain ⟨ta, t0, t1, s0, s1, s2⟩ := tap13_after (after upTo13 W)
  refine ⟨fun i => ?_, ?_, ?_, ?_, ?_, ?_⟩
  · show after (upTo13 ++ tapOps13) W main_v100 i = _
    rw [after_append, ta]
    show FloatOps.addf (after upTo13 W main_v93 i) (tapVec (after upTo13 W main_v0) (after upTo13 W main_v1) 2 3 _ _ i) = _
    rw [ha i, h0, h1, hK, tap_apply _ _ 2 3 (by omega) (by omega)]
    rfl
  · show after (upTo13 ++ tapOps13) W main_v0 = _
    rw [after_append, t0, h0]
  · show after (upTo13 ++ tapOps13) W main_v1 = _
    rw [after_append, t1, h1]
  · show after (upTo13 ++ tapOps13) W main_arg0 = _
    rw [after_append, s0, g0]
  · show after (upTo13 ++ tapOps13) W main_arg1 = _
    rw [after_append, s1, g1]
  · show after (upTo13 ++ tapOps13) W main_arg2 = _
    rw [after_append, s2, g2]

/-- After 15 taps. -/
abbrev upTo15 : List (HloOp τ sig (Elt F)) := upTo14 ++ tapOps14

theorem chain15 (W : Valuation τ sig (Elt F)) (k : S25x16384.Idx → F .f32)
    (hK : W main_v1 = shapeCast S5x5x128x128 k shapeCasts_S25x16384_S5x5x128x128) :
    (∀ i, after upTo15 W main_v107 i = addTaps (W main_v0) k i (tapOrder.take 15) (W main_v2 i))
      ∧ after upTo15 W main_v0 = W main_v0 ∧ after upTo15 W main_v1 = W main_v1
      ∧ after upTo15 W main_arg0 = W main_arg0 ∧ after upTo15 W main_arg1 = W main_arg1
      ∧ after upTo15 W main_arg2 = W main_arg2 := by
  obtain ⟨ha, h0, h1, g0, g1, g2⟩ := chain14 W k hK
  obtain ⟨ta, t0, t1, s0, s1, s2⟩ := tap14_after (after upTo14 W)
  refine ⟨fun i => ?_, ?_, ?_, ?_, ?_, ?_⟩
  · show after (upTo14 ++ tapOps14) W main_v107 i = _
    rw [after_append, ta]
    show FloatOps.addf (after upTo14 W main_v100 i) (tapVec (after upTo14 W main_v0) (after upTo14 W main_v1) 2 4 _ _ i) = _
    rw [ha i, h0, h1, hK, tap_apply _ _ 2 4 (by omega) (by omega)]
    rfl
  · show after (upTo14 ++ tapOps14) W main_v0 = _
    rw [after_append, t0, h0]
  · show after (upTo14 ++ tapOps14) W main_v1 = _
    rw [after_append, t1, h1]
  · show after (upTo14 ++ tapOps14) W main_arg0 = _
    rw [after_append, s0, g0]
  · show after (upTo14 ++ tapOps14) W main_arg1 = _
    rw [after_append, s1, g1]
  · show after (upTo14 ++ tapOps14) W main_arg2 = _
    rw [after_append, s2, g2]

/-- After 16 taps. -/
abbrev upTo16 : List (HloOp τ sig (Elt F)) := upTo15 ++ tapOps15

theorem chain16 (W : Valuation τ sig (Elt F)) (k : S25x16384.Idx → F .f32)
    (hK : W main_v1 = shapeCast S5x5x128x128 k shapeCasts_S25x16384_S5x5x128x128) :
    (∀ i, after upTo16 W main_v114 i = addTaps (W main_v0) k i (tapOrder.take 16) (W main_v2 i))
      ∧ after upTo16 W main_v0 = W main_v0 ∧ after upTo16 W main_v1 = W main_v1
      ∧ after upTo16 W main_arg0 = W main_arg0 ∧ after upTo16 W main_arg1 = W main_arg1
      ∧ after upTo16 W main_arg2 = W main_arg2 := by
  obtain ⟨ha, h0, h1, g0, g1, g2⟩ := chain15 W k hK
  obtain ⟨ta, t0, t1, s0, s1, s2⟩ := tap15_after (after upTo15 W)
  refine ⟨fun i => ?_, ?_, ?_, ?_, ?_, ?_⟩
  · show after (upTo15 ++ tapOps15) W main_v114 i = _
    rw [after_append, ta]
    show FloatOps.addf (after upTo15 W main_v107 i) (tapVec (after upTo15 W main_v0) (after upTo15 W main_v1) 3 0 _ _ i) = _
    rw [ha i, h0, h1, hK, tap_apply _ _ 3 0 (by omega) (by omega)]
    rfl
  · show after (upTo15 ++ tapOps15) W main_v0 = _
    rw [after_append, t0, h0]
  · show after (upTo15 ++ tapOps15) W main_v1 = _
    rw [after_append, t1, h1]
  · show after (upTo15 ++ tapOps15) W main_arg0 = _
    rw [after_append, s0, g0]
  · show after (upTo15 ++ tapOps15) W main_arg1 = _
    rw [after_append, s1, g1]
  · show after (upTo15 ++ tapOps15) W main_arg2 = _
    rw [after_append, s2, g2]

/-- After 17 taps. -/
abbrev upTo17 : List (HloOp τ sig (Elt F)) := upTo16 ++ tapOps16

theorem chain17 (W : Valuation τ sig (Elt F)) (k : S25x16384.Idx → F .f32)
    (hK : W main_v1 = shapeCast S5x5x128x128 k shapeCasts_S25x16384_S5x5x128x128) :
    (∀ i, after upTo17 W main_v121 i = addTaps (W main_v0) k i (tapOrder.take 17) (W main_v2 i))
      ∧ after upTo17 W main_v0 = W main_v0 ∧ after upTo17 W main_v1 = W main_v1
      ∧ after upTo17 W main_arg0 = W main_arg0 ∧ after upTo17 W main_arg1 = W main_arg1
      ∧ after upTo17 W main_arg2 = W main_arg2 := by
  obtain ⟨ha, h0, h1, g0, g1, g2⟩ := chain16 W k hK
  obtain ⟨ta, t0, t1, s0, s1, s2⟩ := tap16_after (after upTo16 W)
  refine ⟨fun i => ?_, ?_, ?_, ?_, ?_, ?_⟩
  · show after (upTo16 ++ tapOps16) W main_v121 i = _
    rw [after_append, ta]
    show FloatOps.addf (after upTo16 W main_v114 i) (tapVec (after upTo16 W main_v0) (after upTo16 W main_v1) 3 1 _ _ i) = _
    rw [ha i, h0, h1, hK, tap_apply _ _ 3 1 (by omega) (by omega)]
    rfl
  · show after (upTo16 ++ tapOps16) W main_v0 = _
    rw [after_append, t0, h0]
  · show after (upTo16 ++ tapOps16) W main_v1 = _
    rw [after_append, t1, h1]
  · show after (upTo16 ++ tapOps16) W main_arg0 = _
    rw [after_append, s0, g0]
  · show after (upTo16 ++ tapOps16) W main_arg1 = _
    rw [after_append, s1, g1]
  · show after (upTo16 ++ tapOps16) W main_arg2 = _
    rw [after_append, s2, g2]

/-- After 18 taps. -/
abbrev upTo18 : List (HloOp τ sig (Elt F)) := upTo17 ++ tapOps17

theorem chain18 (W : Valuation τ sig (Elt F)) (k : S25x16384.Idx → F .f32)
    (hK : W main_v1 = shapeCast S5x5x128x128 k shapeCasts_S25x16384_S5x5x128x128) :
    (∀ i, after upTo18 W main_v128 i = addTaps (W main_v0) k i (tapOrder.take 18) (W main_v2 i))
      ∧ after upTo18 W main_v0 = W main_v0 ∧ after upTo18 W main_v1 = W main_v1
      ∧ after upTo18 W main_arg0 = W main_arg0 ∧ after upTo18 W main_arg1 = W main_arg1
      ∧ after upTo18 W main_arg2 = W main_arg2 := by
  obtain ⟨ha, h0, h1, g0, g1, g2⟩ := chain17 W k hK
  obtain ⟨ta, t0, t1, s0, s1, s2⟩ := tap17_after (after upTo17 W)
  refine ⟨fun i => ?_, ?_, ?_, ?_, ?_, ?_⟩
  · show after (upTo17 ++ tapOps17) W main_v128 i = _
    rw [after_append, ta]
    show FloatOps.addf (after upTo17 W main_v121 i) (tapVec (after upTo17 W main_v0) (after upTo17 W main_v1) 3 2 _ _ i) = _
    rw [ha i, h0, h1, hK, tap_apply _ _ 3 2 (by omega) (by omega)]
    rfl
  · show after (upTo17 ++ tapOps17) W main_v0 = _
    rw [after_append, t0, h0]
  · show after (upTo17 ++ tapOps17) W main_v1 = _
    rw [after_append, t1, h1]
  · show after (upTo17 ++ tapOps17) W main_arg0 = _
    rw [after_append, s0, g0]
  · show after (upTo17 ++ tapOps17) W main_arg1 = _
    rw [after_append, s1, g1]
  · show after (upTo17 ++ tapOps17) W main_arg2 = _
    rw [after_append, s2, g2]

/-- After 19 taps. -/
abbrev upTo19 : List (HloOp τ sig (Elt F)) := upTo18 ++ tapOps18

theorem chain19 (W : Valuation τ sig (Elt F)) (k : S25x16384.Idx → F .f32)
    (hK : W main_v1 = shapeCast S5x5x128x128 k shapeCasts_S25x16384_S5x5x128x128) :
    (∀ i, after upTo19 W main_v135 i = addTaps (W main_v0) k i (tapOrder.take 19) (W main_v2 i))
      ∧ after upTo19 W main_v0 = W main_v0 ∧ after upTo19 W main_v1 = W main_v1
      ∧ after upTo19 W main_arg0 = W main_arg0 ∧ after upTo19 W main_arg1 = W main_arg1
      ∧ after upTo19 W main_arg2 = W main_arg2 := by
  obtain ⟨ha, h0, h1, g0, g1, g2⟩ := chain18 W k hK
  obtain ⟨ta, t0, t1, s0, s1, s2⟩ := tap18_after (after upTo18 W)
  refine ⟨fun i => ?_, ?_, ?_, ?_, ?_, ?_⟩
  · show after (upTo18 ++ tapOps18) W main_v135 i = _
    rw [after_append, ta]
    show FloatOps.addf (after upTo18 W main_v128 i) (tapVec (after upTo18 W main_v0) (after upTo18 W main_v1) 3 3 _ _ i) = _
    rw [ha i, h0, h1, hK, tap_apply _ _ 3 3 (by omega) (by omega)]
    rfl
  · show after (upTo18 ++ tapOps18) W main_v0 = _
    rw [after_append, t0, h0]
  · show after (upTo18 ++ tapOps18) W main_v1 = _
    rw [after_append, t1, h1]
  · show after (upTo18 ++ tapOps18) W main_arg0 = _
    rw [after_append, s0, g0]
  · show after (upTo18 ++ tapOps18) W main_arg1 = _
    rw [after_append, s1, g1]
  · show after (upTo18 ++ tapOps18) W main_arg2 = _
    rw [after_append, s2, g2]

/-- After 20 taps. -/
abbrev upTo20 : List (HloOp τ sig (Elt F)) := upTo19 ++ tapOps19

theorem chain20 (W : Valuation τ sig (Elt F)) (k : S25x16384.Idx → F .f32)
    (hK : W main_v1 = shapeCast S5x5x128x128 k shapeCasts_S25x16384_S5x5x128x128) :
    (∀ i, after upTo20 W main_v142 i = addTaps (W main_v0) k i (tapOrder.take 20) (W main_v2 i))
      ∧ after upTo20 W main_v0 = W main_v0 ∧ after upTo20 W main_v1 = W main_v1
      ∧ after upTo20 W main_arg0 = W main_arg0 ∧ after upTo20 W main_arg1 = W main_arg1
      ∧ after upTo20 W main_arg2 = W main_arg2 := by
  obtain ⟨ha, h0, h1, g0, g1, g2⟩ := chain19 W k hK
  obtain ⟨ta, t0, t1, s0, s1, s2⟩ := tap19_after (after upTo19 W)
  refine ⟨fun i => ?_, ?_, ?_, ?_, ?_, ?_⟩
  · show after (upTo19 ++ tapOps19) W main_v142 i = _
    rw [after_append, ta]
    show FloatOps.addf (after upTo19 W main_v135 i) (tapVec (after upTo19 W main_v0) (after upTo19 W main_v1) 3 4 _ _ i) = _
    rw [ha i, h0, h1, hK, tap_apply _ _ 3 4 (by omega) (by omega)]
    rfl
  · show after (upTo19 ++ tapOps19) W main_v0 = _
    rw [after_append, t0, h0]
  · show after (upTo19 ++ tapOps19) W main_v1 = _
    rw [after_append, t1, h1]
  · show after (upTo19 ++ tapOps19) W main_arg0 = _
    rw [after_append, s0, g0]
  · show after (upTo19 ++ tapOps19) W main_arg1 = _
    rw [after_append, s1, g1]
  · show after (upTo19 ++ tapOps19) W main_arg2 = _
    rw [after_append, s2, g2]

/-- After 21 taps. -/
abbrev upTo21 : List (HloOp τ sig (Elt F)) := upTo20 ++ tapOps20

theorem chain21 (W : Valuation τ sig (Elt F)) (k : S25x16384.Idx → F .f32)
    (hK : W main_v1 = shapeCast S5x5x128x128 k shapeCasts_S25x16384_S5x5x128x128) :
    (∀ i, after upTo21 W main_v149 i = addTaps (W main_v0) k i (tapOrder.take 21) (W main_v2 i))
      ∧ after upTo21 W main_v0 = W main_v0 ∧ after upTo21 W main_v1 = W main_v1
      ∧ after upTo21 W main_arg0 = W main_arg0 ∧ after upTo21 W main_arg1 = W main_arg1
      ∧ after upTo21 W main_arg2 = W main_arg2 := by
  obtain ⟨ha, h0, h1, g0, g1, g2⟩ := chain20 W k hK
  obtain ⟨ta, t0, t1, s0, s1, s2⟩ := tap20_after (after upTo20 W)
  refine ⟨fun i => ?_, ?_, ?_, ?_, ?_, ?_⟩
  · show after (upTo20 ++ tapOps20) W main_v149 i = _
    rw [after_append, ta]
    show FloatOps.addf (after upTo20 W main_v142 i) (tapVec (after upTo20 W main_v0) (after upTo20 W main_v1) 4 0 _ _ i) = _
    rw [ha i, h0, h1, hK, tap_apply _ _ 4 0 (by omega) (by omega)]
    rfl
  · show after (upTo20 ++ tapOps20) W main_v0 = _
    rw [after_append, t0, h0]
  · show after (upTo20 ++ tapOps20) W main_v1 = _
    rw [after_append, t1, h1]
  · show after (upTo20 ++ tapOps20) W main_arg0 = _
    rw [after_append, s0, g0]
  · show after (upTo20 ++ tapOps20) W main_arg1 = _
    rw [after_append, s1, g1]
  · show after (upTo20 ++ tapOps20) W main_arg2 = _
    rw [after_append, s2, g2]

/-- After 22 taps. -/
abbrev upTo22 : List (HloOp τ sig (Elt F)) := upTo21 ++ tapOps21

theorem chain22 (W : Valuation τ sig (Elt F)) (k : S25x16384.Idx → F .f32)
    (hK : W main_v1 = shapeCast S5x5x128x128 k shapeCasts_S25x16384_S5x5x128x128) :
    (∀ i, after upTo22 W main_v156 i = addTaps (W main_v0) k i (tapOrder.take 22) (W main_v2 i))
      ∧ after upTo22 W main_v0 = W main_v0 ∧ after upTo22 W main_v1 = W main_v1
      ∧ after upTo22 W main_arg0 = W main_arg0 ∧ after upTo22 W main_arg1 = W main_arg1
      ∧ after upTo22 W main_arg2 = W main_arg2 := by
  obtain ⟨ha, h0, h1, g0, g1, g2⟩ := chain21 W k hK
  obtain ⟨ta, t0, t1, s0, s1, s2⟩ := tap21_after (after upTo21 W)
  refine ⟨fun i => ?_, ?_, ?_, ?_, ?_, ?_⟩
  · show after (upTo21 ++ tapOps21) W main_v156 i = _
    rw [after_append, ta]
    show FloatOps.addf (after upTo21 W main_v149 i) (tapVec (after upTo21 W main_v0) (after upTo21 W main_v1) 4 1 _ _ i) = _
    rw [ha i, h0, h1, hK, tap_apply _ _ 4 1 (by omega) (by omega)]
    rfl
  · show after (upTo21 ++ tapOps21) W main_v0 = _
    rw [after_append, t0, h0]
  · show after (upTo21 ++ tapOps21) W main_v1 = _
    rw [after_append, t1, h1]
  · show after (upTo21 ++ tapOps21) W main_arg0 = _
    rw [after_append, s0, g0]
  · show after (upTo21 ++ tapOps21) W main_arg1 = _
    rw [after_append, s1, g1]
  · show after (upTo21 ++ tapOps21) W main_arg2 = _
    rw [after_append, s2, g2]

/-- After 23 taps. -/
abbrev upTo23 : List (HloOp τ sig (Elt F)) := upTo22 ++ tapOps22

theorem chain23 (W : Valuation τ sig (Elt F)) (k : S25x16384.Idx → F .f32)
    (hK : W main_v1 = shapeCast S5x5x128x128 k shapeCasts_S25x16384_S5x5x128x128) :
    (∀ i, after upTo23 W main_v163 i = addTaps (W main_v0) k i (tapOrder.take 23) (W main_v2 i))
      ∧ after upTo23 W main_v0 = W main_v0 ∧ after upTo23 W main_v1 = W main_v1
      ∧ after upTo23 W main_arg0 = W main_arg0 ∧ after upTo23 W main_arg1 = W main_arg1
      ∧ after upTo23 W main_arg2 = W main_arg2 := by
  obtain ⟨ha, h0, h1, g0, g1, g2⟩ := chain22 W k hK
  obtain ⟨ta, t0, t1, s0, s1, s2⟩ := tap22_after (after upTo22 W)
  refine ⟨fun i => ?_, ?_, ?_, ?_, ?_, ?_⟩
  · show after (upTo22 ++ tapOps22) W main_v163 i = _
    rw [after_append, ta]
    show FloatOps.addf (after upTo22 W main_v156 i) (tapVec (after upTo22 W main_v0) (after upTo22 W main_v1) 4 2 _ _ i) = _
    rw [ha i, h0, h1, hK, tap_apply _ _ 4 2 (by omega) (by omega)]
    rfl
  · show after (upTo22 ++ tapOps22) W main_v0 = _
    rw [after_append, t0, h0]
  · show after (upTo22 ++ tapOps22) W main_v1 = _
    rw [after_append, t1, h1]
  · show after (upTo22 ++ tapOps22) W main_arg0 = _
    rw [after_append, s0, g0]
  · show after (upTo22 ++ tapOps22) W main_arg1 = _
    rw [after_append, s1, g1]
  · show after (upTo22 ++ tapOps22) W main_arg2 = _
    rw [after_append, s2, g2]

/-- After 24 taps. -/
abbrev upTo24 : List (HloOp τ sig (Elt F)) := upTo23 ++ tapOps23

theorem chain24 (W : Valuation τ sig (Elt F)) (k : S25x16384.Idx → F .f32)
    (hK : W main_v1 = shapeCast S5x5x128x128 k shapeCasts_S25x16384_S5x5x128x128) :
    (∀ i, after upTo24 W main_v170 i = addTaps (W main_v0) k i (tapOrder.take 24) (W main_v2 i))
      ∧ after upTo24 W main_v0 = W main_v0 ∧ after upTo24 W main_v1 = W main_v1
      ∧ after upTo24 W main_arg0 = W main_arg0 ∧ after upTo24 W main_arg1 = W main_arg1
      ∧ after upTo24 W main_arg2 = W main_arg2 := by
  obtain ⟨ha, h0, h1, g0, g1, g2⟩ := chain23 W k hK
  obtain ⟨ta, t0, t1, s0, s1, s2⟩ := tap23_after (after upTo23 W)
  refine ⟨fun i => ?_, ?_, ?_, ?_, ?_, ?_⟩
  · show after (upTo23 ++ tapOps23) W main_v170 i = _
    rw [after_append, ta]
    show FloatOps.addf (after upTo23 W main_v163 i) (tapVec (after upTo23 W main_v0) (after upTo23 W main_v1) 4 3 _ _ i) = _
    rw [ha i, h0, h1, hK, tap_apply _ _ 4 3 (by omega) (by omega)]
    rfl
  · show after (upTo23 ++ tapOps23) W main_v0 = _
    rw [after_append, t0, h0]
  · show after (upTo23 ++ tapOps23) W main_v1 = _
    rw [after_append, t1, h1]
  · show after (upTo23 ++ tapOps23) W main_arg0 = _
    rw [after_append, s0, g0]
  · show after (upTo23 ++ tapOps23) W main_arg1 = _
    rw [after_append, s1, g1]
  · show after (upTo23 ++ tapOps23) W main_arg2 = _
    rw [after_append, s2, g2]

/-- After 25 taps. -/
abbrev upTo25 : List (HloOp τ sig (Elt F)) := upTo24 ++ tapOps24

theorem chain25 (W : Valuation τ sig (Elt F)) (k : S25x16384.Idx → F .f32)
    (hK : W main_v1 = shapeCast S5x5x128x128 k shapeCasts_S25x16384_S5x5x128x128) :
    (∀ i, after upTo25 W main_v177 i = addTaps (W main_v0) k i (tapOrder.take 25) (W main_v2 i))
      ∧ after upTo25 W main_v0 = W main_v0 ∧ after upTo25 W main_v1 = W main_v1
      ∧ after upTo25 W main_arg0 = W main_arg0 ∧ after upTo25 W main_arg1 = W main_arg1
      ∧ after upTo25 W main_arg2 = W main_arg2 := by
  obtain ⟨ha, h0, h1, g0, g1, g2⟩ := chain24 W k hK
  obtain ⟨ta, t0, t1, s0, s1, s2⟩ := tap24_after (after upTo24 W)
  refine ⟨fun i => ?_, ?_, ?_, ?_, ?_, ?_⟩
  · show after (upTo24 ++ tapOps24) W main_v177 i = _
    rw [after_append, ta]
    show FloatOps.addf (after upTo24 W main_v170 i) (tapVec (after upTo24 W main_v0) (after upTo24 W main_v1) 4 4 _ _ i) = _
    rw [ha i, h0, h1, hK, tap_apply _ _ 4 4 (by omega) (by omega)]
    rfl
  · show after (upTo24 ++ tapOps24) W main_v0 = _
    rw [after_append, t0, h0]
  · show after (upTo24 ++ tapOps24) W main_v1 = _
    rw [after_append, t1, h1]
  · show after (upTo24 ++ tapOps24) W main_arg0 = _
    rw [after_append, s0, g0]
  · show after (upTo24 ++ tapOps24) W main_arg1 = _
    rw [after_append, s1, g1]
  · show after (upTo24 ++ tapOps24) W main_arg2 = _
    rw [after_append, s2, g2]

/-- The 25 taps' operations are the 25 stretches one after another. -/
theorem tapsOps_eq : (tapsOps : List (HloOp τ sig (Elt F))) = upTo25 := rfl

/-- After all 25 taps the running total is the 25 taps of `stencil` added to what it started from. -/
theorem taps_after (W : Valuation τ sig (Elt F)) (k : S25x16384.Idx → F .f32)
    (hK : W main_v1 = shapeCast S5x5x128x128 k shapeCasts_S25x16384_S5x5x128x128) (i : S256x128x128.Idx) :
    after tapsOps W main_v177 i = addTaps (W main_v0) k i tapOrder (W main_v2 i) := by
  rw [tapsOps_eq]
  exact (chain25 W k hK).1 i

/-- The 25 taps write no argument array. -/
theorem taps_keep (W : Valuation τ sig (Elt F)) :
    after tapsOps W main_arg0 = W main_arg0 ∧ after tapsOps W main_arg1 = W main_arg1
      ∧ after tapsOps W main_arg2 = W main_arg2 := by
  rw [tapsOps_eq]
  -- the table's contents play no part here: take the table that is there, re-laid flat
  have hK : W main_v1 = shapeCast S5x5x128x128
      (shapeCast S25x16384 (W main_v1 : S5x5x128x128.Idx → F .f32) (by decide)) shapeCasts_S25x16384_S5x5x128x128 :=
    (shapeCast_shapeCast _ _ _).symm
  exact (chain25 W _ hK).2.2.2

end Cert.ReferenceIdeal.Hand

end
-- ==== Proof.ReferenceRun.lean ====
/-
  The reference's run.

  The prelude leaves the bordered batch, the weight table re-laid as 5 x 5 x 128 x 128 and a running total of zeros; the 25
  taps add the 25 terms of `stencil` to it (`taps_after`); the coda multiplies the total by each image's step (the steps
  stretched over the pixels), adds the image and clamps below at zero. No operation writes an argument. So every weakly
  fair execution of the reference terminates with its result array at `stencil` of the three arguments and the arguments
  unchanged.
-/
import proofs.«159623_j87746181857881_2_alg».proof.Proof.ReferenceOps
import proofs.«159623_j87746181857881_2_alg».proof.Proof.ReferenceMain
import proofs.«159623_j87746181857881_2_alg».proof.Proof.ReferenceTaps
import proofs.«159623_j87746181857881_2_alg».proof.Proof.LocalStencil
import Idealize.ShloMosaic.Lib.Pipeline.Value
import Idealize.ShloMosaic.Lib.ValueIdx

set_option maxRecDepth 8192

noncomputable section

namespace Cert.ReferenceIdeal.Hand

open Cert.ReferenceIdeal Cert.ReferenceIdeal.Gen Idealize.ShloMosaic Idealize.ShloMosaic.TcCoe Idealize.SL.Sem Idealize.ShloMosaic.StableHlo
open Idealize.ShloMosaic.ValueIdx Cert.LocalStencil

variable {F : FTy → Type} [FloatOps F]

/-! ## The prelude and the coda -/

/-- The prelude leaves the bordered batch, the re-laid weight table and a running total of zeros. -/
theorem prelude_after (V : Valuation τ sig (Elt F)) :
    after prelude V main_v0 = padded (V main_arg0 : S256x128x128.Idx → F .f32)
      ∧ after prelude V main_v1 = shapeCast S5x5x128x128 (V main_arg1 : S25x16384.Idx → F .f32) shapeCasts_S25x16384_S5x5x128x128
      ∧ ∀ i, after prelude V main_v2 i = FloatOps.ofBits .f32 0x00000000#32 := by
  refine ⟨?_, ?_, ?_⟩
  · after_results
    rfl
  · after_results
    rfl
  · have h : after prelude V main_v2
        = broadcastInDim S256x128x128 ![] bcast_S_S256x128x128 (constant (F := F) S_ .f32 0x00000000#32) := by
      after_results
    intro i
    rw [h]
    rfl

/-- The coda leaves the total times the stretched steps, plus the image, clamped below at zero. -/
theorem coda_after (W : Valuation τ sig (Elt F)) :
    after coda W main_v183
      = maximumf (addf (W main_arg0) (mulf (W main_v177)
          (broadcastInDim S256x128x128 ![0, 1, 2] bcast_S256x1x1_S256x128x128_0_1_2
            (broadcastInDim S256x1x1 ![0] bcast_S256_S256x1x1_0 (W main_arg2)))))
          (broadcastInDim S256x128x128 ![] bcast_S_S256x128x128 (constant (F := F) S_ .f32 0x00000000#32)) := by
  after_results

/-- The steps stretched over the pixels, read at output pixel `i`, are the step of the pixel's image. -/
theorem steps_apply (d : S256.Idx → F .f32) (i : S256x128x128.Idx) :
    broadcastInDim S256x128x128 ![0, 1, 2] bcast_S256x1x1_S256x128x128_0_1_2
      (broadcastInDim S256x1x1 ![0] bcast_S256_S256x1x1_0 d) i = d (dtIx i) := by
  rw [broadcastInDim_apply _ bcast_S256x1x1_S256x128x128_0_1_2 _ i
      (ix3 (n0 := 256) (n1 := 1) (n2 := 1) ⟨(i 0).val, (i 0).isLt⟩ ⟨0, Nat.one_pos⟩ ⟨0, Nat.one_pos⟩) (fun a => by
        match a with
        | ⟨0, _⟩ => show (i 0).val = if (256 : Nat) = 1 then 0 else (i 0).val; rw [if_neg (by decide)]
        | ⟨1, _⟩ => show 0 = if (1 : Nat) = 1 then 0 else (i 1).val; rw [if_pos rfl]
        | ⟨2, _⟩ => show 0 = if (1 : Nat) = 1 then 0 else (i 2).val; rw [if_pos rfl])]
  exact broadcastInDim_apply _ bcast_S256_S256x1x1_0 d _ (dtIx i) (fun a => by
    match a with
    | ⟨0, _⟩ => show (i 0).val = if (256 : Nat) = 1 then 0 else (i 0).val; rw [if_neg (by decide)])

/-! ## No operation writes an argument -/

/-- The prelude writes no argument array. -/
theorem prelude_keeps (V : Valuation τ sig (Elt F)) :
    after prelude V main_arg0 = V main_arg0 ∧ after prelude V main_arg1 = V main_arg1
      ∧ after prelude V main_arg2 = V main_arg2 := by
  refine ⟨?_, ?_, ?_⟩ <;> after_results

/-- Nor does the coda. -/
theorem coda_keeps (W : Valuation τ sig (Elt F)) :
    after coda W main_arg0 = W main_arg0 ∧ after coda W main_arg1 = W main_arg1
      ∧ after coda W main_arg2 = W main_arg2 := by
  refine ⟨?_, ?_, ?_⟩ <;> after_results

/-- An argument array is as launched after the prelude and the taps. -/
theorem kept_mid (V : Valuation τ sig (Elt F)) :
    after (prelude ++ tapsOps) V main_arg0 = V main_arg0 ∧ after (prelude ++ tapsOps) V main_arg1 = V main_arg1
      ∧ after (prelude ++ tapsOps) V main_arg2 = V main_arg2 := by
  obtain ⟨a0, a1, a2⟩ := prelude_keeps V
  obtain ⟨b0, b1, b2⟩ := taps_keep (after prelude V)
  rw [after_append]
  exact ⟨b0.trans a0, b1.trans a1, b2.trans a2⟩

/-- An argument array is as launched after the whole program. -/
theorem kept_all (V : Valuation τ sig (Elt F)) :
    after ops V main_arg0 = V main_arg0 ∧ after ops V main_arg1 = V main_arg1 ∧ after ops V main_arg2 = V main_arg2 := by
  obtain ⟨a0, a1, a2⟩ := kept_mid V
  obtain ⟨b0, b1, b2⟩ := coda_keeps (after (prelude ++ tapsOps) V)
  rw [ops_eq, after_append]
  exact ⟨b0.trans a0, b1.trans a1, b2.trans a2⟩

/-! ## The result -/

/-- After the whole program the result array is `stencil` of the argument arrays. -/
theorem result_after (V : Valuation τ sig (Elt F)) :
    after ops V main_v183
      = stencil (V main_arg0 : S256x128x128.Idx → F .f32) (V main_arg1 : S25x16384.Idx → F .f32)
          (V main_arg2 : S256.Idx → F .f32) := by
  obtain ⟨p0, p1, p2⟩ := prelude_after V
  obtain ⟨k0, -, k2⟩ := kept_mid V
  rw [ops_eq, after_append, coda_after]
  funext i
  show FloatOps.maximumf (FloatOps.addf (after (prelude ++ tapsOps) V main_arg0 i)
      (FloatOps.mulf (after (prelude ++ tapsOps) V main_v177 i)
        (broadcastInDim S256x128x128 ![0, 1, 2] bcast_S256x1x1_S256x128x128_0_1_2
          (broadcastInDim S256x1x1 ![0] bcast_S256_S256x1x1_0 (after (prelude ++ tapsOps) V main_arg2)) i)))
      (FloatOps.ofBits .f32 0x00000000#32) = _
  rw [k0, k2, steps_apply, after_append, taps_after _ _ p1, p0, p2]
  unfold stencil
  rw [taps_eq]

/-! ## The run -/

/-- Every weakly fair execution of the reference terminates with the result array at `stencil` of the arguments and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v183)
        = stencil (m ((c.tc : Thread nD τ).loc main_arg0)) (m ((c.tc : Thread nD τ).loc main_arg1))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v183).trans (result_after _),
      (h c main_arg0).trans (kept_all _).1,
      (h c main_arg1).trans (kept_all _).2.1,
      (h c main_arg2).trans (kept_all _).2.2⟩)
    (run_seq scopedRefs_eq scopedSems_eq defs main (fun _ => ops) main_eq (fun _ => ops_sub) m ρ (fun _ => ops_fresh))

end Cert.ReferenceIdeal.Hand

end
-- ==== Proof.lean ====
/-
  A position-dependent 5 x 5 stencil with a residual step and a clamp: the kernel against its jnp reference, at the
  extended reals.

  Both programs border each 128 x 128 image of the batch with two zeros on every side, and compute at output pixel
  (b, r, s)

      max ( f[b, r, s] + ( Σ_{di, dj < 5} P[b, r + di, s + dj] * k[5 di + dj, 128 r + s] ) * dt[b] , 0 )

  (`LocalStencil.stencil`; P the bordered batch, k the table of the 25 weights of every pixel), the 25 products added
  to zero from the left in row-major order of (di, dj) — the same order in both programs, so the two results are the
  same expression and no law of arithmetic, and no finiteness of the inputs, is used. The kernel works on 32 blocks of
  8 images; its body's stored value is read entry by entry in `KernelBody`, its blocks are read back to the arguments
  and assembled into the result array in `KernelBlocks` (the kernel reads the image out of the middle of the bordered
  batch, where the reference reads the argument itself: the middle of a bordered image is the image). The reference's
  operations are listed in `ReferenceOps`, its 25 taps are read one after another in `ReferenceTaps` (it re-lays the
  weight table as 5 x 5 x 128 x 128 where the kernel's host side re-lays it as 25 x 128 x 128; plane (di, dj) at (r, s) and
  slab 5 di + dj at (r, s) are the same entry of the table) and its run is assembled in `ReferenceRun`. The frames of
  the two kernels are the generated ones; the reference's frame is its run with the result dropped; the idealization
  rewrote nothing.
-/
import proofs.«159623_j87746181857881_2_alg».proof.Defs
import proofs.«159623_j87746181857881_2_alg».proof.Proof.Gen.Kernel
import proofs.«159623_j87746181857881_2_alg».proof.Proof.Gen.Kernel.Skeleton
import proofs.«159623_j87746181857881_2_alg».proof.Proof.Gen.Kernel.Launch
import proofs.«159623_j87746181857881_2_alg».proof.Proof.Gen.Kernel.Points
import proofs.«159623_j87746181857881_2_alg».proof.Proof.Gen.Kernel.Frame
import proofs.«159623_j87746181857881_2_alg».proof.Proof.Gen.KernelIdeal
import proofs.«159623_j87746181857881_2_alg».proof.Proof.Gen.KernelIdeal.Skeleton
import proofs.«159623_j87746181857881_2_alg».proof.Proof.Gen.KernelIdeal.Launch
import proofs.«159623_j87746181857881_2_alg».proof.Proof.Gen.KernelIdeal.Points
import proofs.«159623_j87746181857881_2_alg».proof.Proof.Gen.KernelIdeal.Frame
import proofs.«159623_j87746181857881_2_alg».proof.Proof.Gen.ReferenceIdeal
import proofs.«159623_j87746181857881_2_alg».proof.Proof.Gen.Pre_finite_inputs
import proofs.«159623_j87746181857881_2_alg».proof.Proof.LocalStencil
import proofs.«159623_j87746181857881_2_alg».proof.Proof.KernelBody
import proofs.«159623_j87746181857881_2_alg».proof.Proof.KernelBlocks
import proofs.«159623_j87746181857881_2_alg».proof.Proof.ReferenceOps
import proofs.«159623_j87746181857881_2_alg».proof.Proof.ReferenceMain
import proofs.«159623_j87746181857881_2_alg».proof.Proof.ReferenceTaps
import proofs.«159623_j87746181857881_2_alg».proof.Proof.ReferenceRun
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read at the extended reals. -/
theorem frame_kernelIdeal : Cert.frame_KernelIdeal := fun m ρ _ => Cert.KernelIdeal.Gen.frame m ρ

/-- And the reference: its run, with the result forgotten. -/
theorem frame_reference : Cert.frame_ReferenceIdeal := fun m ρ _ =>
  (θ_run Cert.ReferenceIdeal.defs _ _).mono (fun _ h c => (h c).2) (Cert.ReferenceIdeal.Hand.run (F := Ideal) m ρ)

/-- From arguments that agree, both programs end with the result array at `stencil` of the arguments. -/
theorem algebraic : Cert.algebraic_KernelIdeal_ReferenceIdeal := by
  intro m ρ m' ρ' _ hagree
  refine ⟨_, Cert.KernelIdeal.Blocks.run (F := Ideal) m ρ, ?_⟩
  refine (θ_run Cert.ReferenceIdeal.defs _ _).mono (fun _ h c => ⟨?_, (h c).2⟩)
    (Cert.ReferenceIdeal.Hand.run (F := Ideal) m' ρ')
  rw [(h c).1, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
